-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S3200000 : Shape := ⟨1, ![3200000]⟩
abbrev S1x16 : Shape := ⟨2, ![1, 16]⟩
abbrev S16 : Shape := ⟨1, ![16]⟩
abbrev S16x4 : Shape := ⟨2, ![16, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S4x1 : S_.BroadcastsInDim S4x1 (![] : Fin 0 → Fin S4x1.rank)
  reducesTo_S4x1_S_d0_1 : S4x1.ReducesTo [0, 1] S_
  bcast_S_S1 : S_.BroadcastsInDim S1 (![] : Fin 0 → Fin S1.rank)
  reducesTo_S1_S_d0 : S1.ReducesTo [0] S_
  bcast_S_S1x1 : S_.BroadcastsInDim S1x1 (![] : Fin 0 → Fin S1x1.rank)
  reducesTo_S1x1_S_d0_1 : S1x1.ReducesTo [0, 1] S_

variable [Facts]

def fn_part6 {F : FTy → Type} [FloatOps F] (main_arg22 : FVec F S1 .f32) (main_v98 : IVec S_ 1) (main_v101 : IVec S1x1 1) (main_c_39 : IVec S_ 1) : IVec S_ 1 :=
  let main_v102 : IVec S_ 1 := (fun x v => Host.reduce IntOp.andi x v reducesTo_S1x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S1 .f32) (main_arg20 : FVec F S1 .f32) (main_arg21 : FVec F S1x1 .f32) (main_arg22 : FVec F S1 .f32) (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S1x1 .f32 := Host.absf main_arg21
  let main_cst_38 : FVec F S_ .f32 := constant S_ .f32 0x7F800000#32
  let main_v100 : FVec F S1x1 .f32 := broadcastInDim S1x1 ![] bcast_S_S1x1 main_cst_38
  let main_v101 : IVec S1x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S4x1 .f32) (main_arg16 : FVec F S1 .f32) (main_arg17 : FVec F S1 .f32) (main_arg18 : FVec F S1 .f32) (main_arg19 : FVec F S1 .f32) (main_arg20 : FVec F S1 .f32) (main_arg21 : FVec F S1x1 .f32) (main_arg22 : FVec F S1 .f32) (main_v63 : IVec S_ 1) (main_v67 : IVec S_ 1) : IVec S_ 1 :=
  let main_v68 : IVec S_ 1 := andi main_v63 main_v67
  let main_v69 : FVec F S4x1 .f32 := Host.absf main_arg15
  let main_cst_26 : FVec F S_ .f32 := constant S_ .f32 0x7F800000#32
  let main_v70 : FVec F S4x1 .f32 := broadcastInDim S4x1 ![] bcast_S_S4x1 main_cst_26
  let main_v71 : IVec S4x1 1 := cmpf .olt main_v69 main_v70
  let main_c_27 : IVec S_ 1 := constantI S_ 1 1#1
  let main_v72 : IVec S_ 1 := (fun x v => Host.reduce IntOp.andi x v reducesTo_S4x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S4 .f32) (main_arg13 : FVec F S4 .f32) (main_arg14 : FVec F S4 .f32) (main_arg15 : FVec F S4x1 .f32) (main_arg16 : FVec F S1 .f32) (main_arg17 : FVec F S1 .f32) (main_arg18 : FVec F S1 .f32) (main_arg19 : FVec F S1 .f32) (main_arg20 : FVec F S1 .f32) (main_arg21 : FVec F S1x1 .f32) (main_arg22 : FVec F S1 .f32) (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  let main_v54 : FVec F S4 .f32 := Host.absf main_arg12
  let main_cst_20 : FVec F S_ .f32 := constant S_ .f32 0x7F800000#32
  let main_v55 : FVec F S4 .f32 := broadcastInDim S4 ![] bcast_S_S4 main_cst_20
  let main_v56 : IVec S4 1 := cmpf .olt main_v54 main_v55
  let main_c_21 : IVec S_ 1 := constantI S_ 1 1#1
  let main_v57 : IVec S_ 1 := (fun x v => Host.reduce IntOp.andi x v reducesTo_S4_S_d0 h_S_) main_v56 main_c_21
  let main_v58 : IVec S_ 1 := andi main_v53 main_v57
  let main_v59 : FVec F S4 .f32 := Host.absf main_arg13
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4 .f32 := Host.absf main_arg14
  let main_cst_24 : FVec F S_ .f32 := constant S_ .f32 0x7F800000#32
  let main_v65 : FVec F S4 .f32 := broadcastInDim S4 ![] bcast_S_S4 main_cst_24
  let main_v66 : IVec S4 1 := cmpf .olt main_v64 main_v65
  let main_c_25 : IVec S_ 1 := constantI S_ 1 1#1
  let main_v67 : IVec S_ 1 := (fun x v => Host.reduce IntOp.andi x v reducesTo_S4_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S16 .f32) (main_arg9 : FVec F S16x4 .f32) (main_arg10 : FVec F S4 .f32) (main_arg11 : FVec F S4 .f32) (main_arg12 : FVec F S4 .f32) (main_arg13 : FVec F S4 .f32) (main_arg14 : FVec F S4 .f32) (main_arg15 : FVec F S4x1 .f32) (main_arg16 : FVec F S1 .f32) (main_arg17 : FVec F S1 .f32) (main_arg18 : FVec F S1 .f32) (main_arg19 : FVec F S1 .f32) (main_arg20 : FVec F S1 .f32) (main_arg21 : FVec F S1x1 .f32) (main_arg22 : FVec F S1 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x4 .f32 := Host.absf main_arg9
  let main_cst_14 : FVec F S_ .f32 := constant S_ .f32 0x7F800000#32
  let main_v40 : FVec F S16x4 .f32 := broadcastInDim S16x4 ![] bcast_S_S16x4 main_cst_14
  let main_v41 : IVec S16x4 1 := cmpf .olt main_v39 main_v40
  let main_c_15 : IVec S_ 1 := constantI S_ 1 1#1
  let main_v42 : IVec S_ 1 := (fun x v => Host.reduce IntOp.andi x v reducesTo_S16x4_S_d0_1 h_S_) main_v41 main_c_15
  let main_v43 : IVec S_ 1 := andi main_v38 main_v42
  let main_v44 : FVec F S4 .f32 := Host.absf main_arg10
  let main_cst_16 : FVec F S_ .f32 := constant S_ .f32 0x7F800000#32
  let main_v45 : FVec F S4 .f32 := broadcastInDim S4 ![] bcast_S_S4 main_cst_16
  let main_v46 : IVec S4 1 := cmpf .olt main_v44 main_v45
  let main_c_17 : IVec S_ 1 := constantI S_ 1 1#1
  let main_v47 : IVec S_ 1 := (fun x v => Host.reduce IntOp.andi x v reducesTo_S4_S_d0 h_S_) main_v46 main_c_17
  let main_v48 : IVec S_ 1 := andi main_v43 main_v47
  let main_v49 : FVec F S4 .f32 := Host.absf main_arg11
  let main_cst_18 : FVec F S_ .f32 := constant S_ .f32 0x7F800000#32
  let main_v50 : FVec F S4 .f32 := broadcastInDim S4 ![] bcast_S_S4 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S16 .f32) (main_arg6 : FVec F S16 .f32) (main_arg7 : FVec F S16 .f32) (main_arg8 : FVec F S16 .f32) (main_arg9 : FVec F S16x4 .f32) (main_arg10 : FVec F S4 .f32) (main_arg11 : FVec F S4 .f32) (main_arg12 : FVec F S4 .f32) (main_arg13 : FVec F S4 .f32) (main_arg14 : FVec F S4 .f32) (main_arg15 : FVec F S4x1 .f32) (main_arg16 : FVec F S1 .f32) (main_arg17 : FVec F S1 .f32) (main_arg18 : FVec F S1 .f32) (main_arg19 : FVec F S1 .f32) (main_arg20 : FVec F S1 .f32) (main_arg21 : FVec F S1x1 .f32) (main_arg22 : FVec F S1 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x1 .f32) (main_arg1 : IVec S2x3200000 32) (main_arg2 : FVec F S3200000 .f32) (main_arg3 : FVec F S1x16 .f32) (main_arg4 : FVec F S16 .f32) (main_arg5 : FVec F S16 .f32) (main_arg6 : FVec F S16 .f32) (main_arg7 : FVec F S16 .f32) (main_arg8 : FVec F S16 .f32) (main_arg9 : FVec F S16x4 .f32) (main_arg10 : FVec F S4 .f32) (main_arg11 : FVec F S4 .f32) (main_arg12 : FVec F S4 .f32) (main_arg13 : FVec F S4 .f32) (main_arg14 : FVec F S4 .f32) (main_arg15 : FVec F S4x1 .f32) (main_arg16 : FVec F S1 .f32) (main_arg17 : FVec F S1 .f32) (main_arg18 : FVec F S1 .f32) (main_arg19 : FVec F S1 .f32) (main_arg20 : FVec F S1 .f32) (main_arg21 : FVec F S1x1 .f32) (main_arg22 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x1 : Shape := ⟨2, ![100000, 1]⟩
abbrev S2x3200000 : Shape := ⟨2, ![2, 3200000]⟩
abbrev S3200000 : Shape := ⟨1, ![3200000]⟩
abbrev S1x16 : Shape := ⟨2, ![1, 16]⟩
abbrev S16 : Shape := ⟨1, ![16]⟩
abbrev S16x4 : Shape := ⟨2, ![16, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x1 : Shape := ⟨2, ![2000, 1]⟩
abbrev S2000x16 : Shape := ⟨2, ![2000, 16]⟩
abbrev S3300000x16 : Shape := ⟨2, ![3300000, 16]⟩
abbrev S100000x4 : Shape := ⟨2, ![100000, 4]⟩
abbrev S2000x4 : Shape := ⟨2, ![2000, 4]⟩
abbrev S3300000x4 : Shape := ⟨2, ![3300000, 4]⟩
abbrev S1x4 : Shape := ⟨2, ![1, 4]⟩

abbrev nBuf : Space → Nat
  | .hbm => 149
  | .vmem => 41
  | .smem => 0
  | _ => 0

abbrev hbmTy0_0 (i : Nat) : BufTy := match i % 128 with
  | 0 => ⟨S100000x1, .f32⟩
  | 1 => ⟨S2x3200000, .i32⟩
  | 2 => ⟨S3200000, .f32⟩
  | 3 => ⟨S1x16, .f32⟩
  | 4 => ⟨S16, .f32⟩
  | 5 => ⟨S16, .f32⟩
  | 6 => ⟨S16, .f32⟩
  | 7 => ⟨S16, .f32⟩
  | 8 => ⟨S16, .f32⟩
  | 9 => ⟨S16x4, .f32⟩
  | 10 => ⟨S4, .f32⟩
  | 11 => ⟨S4, .f32⟩
  | 12 => ⟨S4, .f32⟩
  | 13 => ⟨S4, .f32⟩
  | 14 => ⟨S4, .f32⟩
  | 15 => ⟨S4x1, .f32⟩
  | 16 => ⟨S1, .f32⟩
  | 17 => ⟨S1, .f32⟩
  | 18 => ⟨S1, .f32⟩
  | 19 => ⟨S1, .f32⟩
  | 20 => ⟨S1, .f32⟩
  | 21 => ⟨S1x1, .f32⟩
  | 22 => ⟨S1, .f32⟩
  | 23 => ⟨S1x3200000, .i32⟩
  | 24 => ⟨S3200000, .i32⟩
  | 25 => ⟨S1x3200000, .i32⟩
  | 26 => ⟨S3200000, .i32⟩
  | 27 => ⟨S100000, .i32⟩
  | 28 => ⟨S3300000, .i32⟩
  | 29 => ⟨S3300000, .i32⟩
  | 30 => ⟨S_, .f32⟩
  | 31 => ⟨S100000, .f32⟩
  | 32 => ⟨S3300000, .f32⟩
  | 33 => ⟨S_, .f32⟩
  | 34 => ⟨S100000, .f32⟩
  | 35 => ⟨S3300000x1, .i32⟩
  | 36 => ⟨S100000, .f32⟩
  | 37 => ⟨S_, .f32⟩
  | 38 => ⟨S100000, .f32⟩
  | 39 => ⟨S100000, .i1⟩
  | 40 => ⟨S_, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .i1⟩
  | 50 => ⟨S_, .f32⟩
  | 51 => ⟨S_, .f32⟩
  | 52 => ⟨S100000, .f32⟩
  | 53 => ⟨S100000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000, .f32⟩
  | 63 => ⟨S3300000, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000, .f32⟩
  | 73 => ⟨S3300000, .f32⟩
  | 74 => ⟨S100000x16, .f32⟩
  | 75 => ⟨S3300000x1, .f32⟩
  | 76 => ⟨S_, .i32⟩
  | 77 => ⟨S3300000, .i32⟩
  | 78 => ⟨S3300000, .i1⟩
  | 79 => ⟨S_, .i32⟩
  | 80 => ⟨S3300000, .i32⟩
  | 81 => ⟨S3300000, .i32⟩
  | 82 => ⟨S3300000, .i32⟩
  | 83 => ⟨S3300000x1, .i32⟩
  | 84 => ⟨S3300000x16, .f32⟩
  | 85 => ⟨S3300000x16, .f32⟩
  | 86 => ⟨S3300000x16, .f32⟩
  | 87 => ⟨S_, .f32⟩
  | 88 => ⟨S100000x16, .f32⟩
  | 89 => ⟨S3300000x1, .i32⟩
  | 90 => ⟨S100000x16, .f32⟩
  | 91 => ⟨S1x16, .f32⟩
  | 92 => ⟨S100000x16, .f32⟩
  | 93 => ⟨S100000x16, .f32⟩
  | 94 => ⟨S1x16, .f32⟩
  | 95 => ⟨S1x16, .f32⟩
  | 96 => ⟨S1x16, .f32⟩
  | 97 => ⟨S1x16, .f32⟩
  | 98 => ⟨S100000x16, .f32⟩
  | 99 => ⟨S100000x4, .f32⟩
  | 100 => ⟨S3300000x1, .f32⟩
  | 101 => ⟨S_, .i32⟩
  | 102 => ⟨S3300000, .i32⟩
  | 103 => ⟨S3300000, .i1⟩
  | 104 => ⟨S_, .i32⟩
  | 105 => ⟨S3300000, .i32⟩
  | 106 => ⟨S3300000, .i32⟩
  | 107 => ⟨S3300000, .i32⟩
  | 108 => ⟨S3300000x1, .i32⟩
  | 109 => ⟨S3300000x4, .f32⟩
  | 110 => ⟨S3300000x4, .f32⟩
  | 111 => ⟨S3300000x4, .f32⟩
  | 112 => ⟨S_, .f32⟩
  | 113 => ⟨S100000x4, .f32⟩
  | 114 => ⟨S3300000x1, .i32⟩
  | 115 => ⟨S100000x4, .f32⟩
  | 116 => ⟨S1x4, .f32⟩
  | 117 => ⟨S100000x4, .f32⟩
  | 118 => ⟨S100000x4, .f32⟩
  | 119 => ⟨S1x4, .f32⟩
  | 120 => ⟨S1x4, .f32⟩
  | 121 => ⟨S1x4, .f32⟩
  | 122 => ⟨S1x4, .f32⟩
  | 123 => ⟨S100000x4, .f32⟩
  | 124 => ⟨S100000x1, .f32⟩
  | 125 => ⟨S3300000x1, .f32⟩
  | 126 => ⟨S_, .i32⟩
  | 127 => ⟨S3300000, .i32⟩
  | _ => ⟨S100000x1, .f32⟩

abbrev hbmTy0_1 (i : Nat) : BufTy := match i % 128 with
  | 0 => ⟨S3300000, .i1⟩
  | 1 => ⟨S_, .i32⟩
  | 2 => ⟨S3300000, .i32⟩
  | 3 => ⟨S3300000, .i32⟩
  | 4 => ⟨S3300000, .i32⟩
  | 5 => ⟨S3300000x1, .i32⟩
  | 6 => ⟨S3300000x1, .f32⟩
  | 7 => ⟨S3300000x1, .f32⟩
  | 8 => ⟨S_, .f32⟩
  | 9 => ⟨S100000x1, .f32⟩
  | 10 => ⟨S3300000x1, .i32⟩
  | 11 => ⟨S100000x1, .f32⟩
  | 12 => ⟨S1x1, .f32⟩
  | 13 => ⟨S100000x1, .f32⟩
  | 14 => ⟨S100000x1, .f32⟩
  | 15 => ⟨S1x1, .f32⟩
  | 16 => ⟨S1x1, .f32⟩
  | 17 => ⟨S1x1, .f32⟩
  | 18 => ⟨S1x1, .f32⟩
  | 19 => ⟨S1x1, .f32⟩
  | 20 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S2000x1, .f32⟩
  | .local _ .vmem, ⟨1, _⟩ => ⟨S2000x1, .f32⟩
  | .local _ .vmem, ⟨2, _⟩ => ⟨S1x16, .f32⟩
  | .local _ .vmem, ⟨3, _⟩ => ⟨S2000x16, .f32⟩
  | .local _ .vmem, ⟨4, _⟩ => ⟨S2000x16, .f32⟩
  | .local _ .vmem, ⟨5, _⟩ => ⟨S2000x16, .f32⟩
  | .local _ .vmem, ⟨6, _⟩ => ⟨S2000x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S1x16, .f32⟩
  | .local _ .vmem, ⟨11, _⟩ => ⟨S2000x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S16x4, .f32⟩
  | .local _ .vmem, ⟨16, _⟩ => ⟨S2000x4, .f32⟩
  | .local _ .vmem, ⟨17, _⟩ => ⟨S2000x4, .f32⟩
  | .local _ .vmem, ⟨18, _⟩ => ⟨S2000x4, .f32⟩
  | .local _ .vmem, ⟨19, _⟩ => ⟨S2000x4, .f32⟩
  | .local _ .vmem, ⟨20, _⟩ => ⟨S1x4, .f32⟩
  | .local _ .vmem, ⟨21, _⟩ => ⟨S1x4, .f32⟩
  | .local _ .vmem, ⟨22, _⟩ => ⟨S1x4, .f32⟩
  | .local _ .vmem, ⟨23, _⟩ => ⟨S1x4, .f32⟩
  | .local _ .vmem, ⟨24, _⟩ => ⟨S2000x4, .f32⟩
  | .local _ .vmem, ⟨25, _⟩ => ⟨S2000x4, .f32⟩
  | .local _ .vmem, ⟨26, _⟩ => ⟨S2000x4, .f32⟩
  | .local _ .vmem, ⟨27, _⟩ => ⟨S2000x4, .f32⟩
  | .local _ .vmem, ⟨28, _⟩ => ⟨S4x1, .f32⟩
  | .local _ .vmem, ⟨29, _⟩ => ⟨S2000x1, .f32⟩
  | .local _ .vmem, ⟨30, _⟩ => ⟨S2000x1, .f32⟩
  | .local _ .vmem, ⟨31, _⟩ => ⟨S2000x1, .f32⟩
  | .local _ .vmem, ⟨32, _⟩ => ⟨S2000x1, .f32⟩
  | .local _ .vmem, ⟨33, _⟩ => ⟨S1x1, .f32⟩
  | .local _ .vmem, ⟨34, _⟩ => ⟨S1x1, .f32⟩
  | .local _ .vmem, ⟨35, _⟩ => ⟨S1x1, .f32⟩
  | .local _ .vmem, ⟨36, _⟩ => ⟨S1x1, .f32⟩
  | .local _ .vmem, ⟨37, _⟩ => ⟨S1x1, .f32⟩
  | .local _ .vmem, ⟨38, _⟩ => ⟨S1x1, .f32⟩
  | .local _ .vmem, ⟨39, _⟩ => ⟨S2000x1, .f32⟩
  | .local _ .vmem, ⟨40, _⟩ => ⟨S2000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_v16 : Ref sig .tc := ⟨.hbm, 46, rfl⟩
abbrev main_cst_4 : Ref sig .tc := ⟨.hbm, 47, rfl⟩
abbrev main_v17 : Ref sig .tc := ⟨.hbm, 48, rfl⟩
abbrev main_v18 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v19 : Ref sig .tc := ⟨.hbm, 53, rfl⟩
abbrev main_c : Ref sig .tc := ⟨.hbm, 54, rfl⟩
abbrev main_v20 : Ref sig .tc := ⟨.hbm, 55, rfl⟩
abbrev main_v21 : Ref sig .tc := ⟨.hbm, 56, rfl⟩
abbrev main_c_6 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_7 : Ref sig .tc := ⟨.hbm, 64, rfl⟩
abbrev main_v28 : Ref sig .tc := ⟨.hbm, 65, rfl⟩
abbrev main_v29 : Ref sig .tc := ⟨.hbm, 66, rfl⟩
abbrev main_c_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_9 : Ref sig .tc := ⟨.hbm, 76, rfl⟩
abbrev main_v38 : Ref sig .tc := ⟨.hbm, 77, rfl⟩
abbrev main_v39 : Ref sig .tc := ⟨.hbm, 78, rfl⟩
abbrev main_c_10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_11 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_c_12 : Ref sig .tc := ⟨.hbm, 101, rfl⟩
abbrev main_v60 : Ref sig .tc := ⟨.hbm, 102, rfl⟩
abbrev main_v61 : Ref sig .tc := ⟨.hbm, 103, rfl⟩
abbrev main_c_13 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_14 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c_15 : Ref sig .tc := ⟨.hbm, 126, rfl⟩
abbrev main_v82 : Ref sig .tc := ⟨.hbm, 127, rfl⟩
abbrev main_v83 : Ref sig .tc := ⟨.hbm, 128, rfl⟩
abbrev main_c_16 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_17 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg5_0 : Ref sig .tc := ⟨.vmem, 37, rfl⟩
abbrev cc5_stg6_0 : Ref sig .tc := ⟨.vmem, 38, rfl⟩
abbrev cc5_stg7_0 : Ref sig .tc := ⟨.vmem, 39, rfl⟩
abbrev cc5_stg7_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem3_0 : DmaSem sig := 35
abbrev cc5_sem4_0 : DmaSem sig := 36
abbrev cc5_sem5_0 : DmaSem sig := 37
abbrev cc5_sem6_0 : DmaSem sig := 38
abbrev cc5_sem7_0 : DmaSem sig := 39
abbrev cc5_sem7_1 : DmaSem sig := 40

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x4 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x4 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x4 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x4 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x4 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x4 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x4 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S4x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x1 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x1 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  inb_S2000x1_S2000x1_0_0 : ∀ a, (![0, 0] : Fin 2 → Nat) a + S2000x1.size a ≤ S2000x1.size a
  h_S2000x1 : 0 < S2000x1.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S16_S1x16 : S16.ShapeCasts S1x16
  shapeCasts_S2000x16_S2000x16 : S2000x16.ShapeCasts S2000x16
  shapeCasts_S1x16_S1x16 : S1x16.ShapeCasts S1x16
  broadcasts_S1x16_S2000x16 : S1x16.Broadcasts S2000x16
  inb_S16x4_S16x4_0_0 : ∀ a, (![0, 0] : Fin 2 → Nat) a + S16x4.size a ≤ S16x4.size a
  h_S16x4 : 0 < S16x4.numel
  inb_S2000x4_S2000x4_0_0 : ∀ a, (![0, 0] : Fin 2 → Nat) a + S2000x4.size a ≤ S2000x4.size a
  h_S2000x4 : 0 < S2000x4.numel
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  shapeCasts_S4_S1x4 : S4.ShapeCasts S1x4
  shapeCasts_S2000x4_S2000x4 : S2000x4.ShapeCasts S2000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S2000x4 : S1x4.Broadcasts S2000x4
  inb_S4x1_S4x1_0_0 : ∀ a, (![0, 0] : Fin 2 → Nat) a + S4x1.size a ≤ S4x1.size a
  h_S4x1 : 0 < S4x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S1_S1x1 : S1.ShapeCasts S1x1
  shapeCasts_S2000x1_S2000x1 : S2000x1.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x1_S1x16_S2000x16_1_0_0_1_n_n_wf : DotDims.WF S2000x1 S1x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S2000x16_S16x4_S2000x4_1_0_0_1_n_n_wf : DotDims.WF S2000x16 S16x4 S2000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S2000x4_S4x1_S2000x1_1_0_0_1_n_n_wf : DotDims.WF S2000x4 S4x1 S2000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x16.size a ≤ S100000x16.size a
  hwx1_5 : ∀ i : grid1.Coords, EltTy.bits .f32 = 32 ∨ (Rect.block (s := S100000x16) S2000x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x4.size a ≤ S16x4.size a
  hwx2_1 : ∀ i : grid2.Coords, EltTy.bits .f32 = 32 ∨ (Rect.block (s := S16x4) S16x4.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x4.size a ≤ S100000x4.size a
  hwx2_2 : ∀ i : grid2.Coords, EltTy.bits .f32 = 32 ∨ (Rect.block (s := S100000x4) S2000x4.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x4.size a ≤ S100000x4.size a
  hwx3_0 : ∀ i : grid3.Coords, EltTy.bits .f32 = 32 ∨ (Rect.block (s := S100000x4) S2000x4.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x4.size a ≤ S1x4.size a
  hwx3_1 : ∀ i : grid3.Coords, EltTy.bits .f32 = 32 ∨ (Rect.block (s := S1x4) S1x4.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x4.size a ≤ S1x4.size a
  hwx3_2 : ∀ i : grid3.Coords, EltTy.bits .f32 = 32 ∨ (Rect.block (s := S1x4) S1x4.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x4.size a ≤ S1x4.size a
  hwx3_3 : ∀ i : grid3.Coords, EltTy.bits .f32 = 32 ∨ (Rect.block (s := S1x4) S1x4.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x4.size a ≤ S1x4.size a
  hwx3_4 : ∀ i : grid3.Coords, EltTy.bits .f32 = 32 ∨ (Rect.block (s := S1x4) S1x4.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x4.size a ≤ S100000x4.size a
  hwx3_5 : ∀ i : grid3.Coords, EltTy.bits .f32 = 32 ∨ (Rect.block (s := S100000x4) S2000x4.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x4.size a ≤ S100000x4.size a
  hwx4_0 : ∀ i : grid4.Coords, EltTy.bits .f32 = 32 ∨ (Rect.block (s := S100000x4) S2000x4.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S4x1.size a ≤ S4x1.size a
  hwx4_1 : ∀ i : grid4.Coords, EltTy.bits .f32 = 32 ∨ (Rect.block (s := S4x1) S4x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x1.size a ≤ S100000x1.size a
  hwx5_0 : ∀ i : grid5.Coords, EltTy.bits .f32 = 32 ∨ (Rect.block (s := S100000x1) S2000x1.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x1.size a ≤ S1x1.size a
  hwx5_1 : ∀ i : grid5.Coords, EltTy.bits .f32 = 32 ∨ (Rect.block (s := S1x1) S1x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x1.size a ≤ S1x1.size a
  hwx5_4 : ∀ i : grid5.Coords, EltTy.bits .f32 = 32 ∨ (Rect.block (s := S1x1) S1x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x1.size a ≤ S1x1.size a
  hwx5_5 : ∀ i : grid5.Coords, EltTy.bits .f32 = 32 ∨ (Rect.block (s := S1x1) S1x1.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x1.size a ≤ S100000x1.size a
  hwx5_7 : ∀ i : grid5.Coords, EltTy.bits .f32 = 32 ∨ (Rect.block (s := S100000x1) S2000x1.size (cc5_transform_7 i) (hinb5_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x1_S1x16_S2000x16_1_0_0_1_n_n : DotDims S2000x1 S1x16 S2000x16 where
  lhsContracting := [1]
  rhsContracting := [0]
  lhsNonContracting := [0]
  rhsNonContracting := [1]
  lhsBatch := []
  rhsBatch := []
  wf := dot_S2000x1_S1x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S2000x16_S16x4_S2000x4_1_0_0_1_n_n : DotDims S2000x16 S16x4 S2000x4 where
  lhsContracting := [1]
  rhsContracting := [0]
  lhsNonContracting := [0]
  rhsNonContracting := [1]
  lhsBatch := []
  rhsBatch := []
  wf := dot_S2000x16_S16x4_S2000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S2000x4_S4x1_S2000x1_1_0_0_1_n_n : DotDims S2000x4 S4x1 S2000x1 where
  lhsContracting := [1]
  rhsContracting := [0]
  lhsNonContracting := [0]
  rhsNonContracting := [1]
  lhsBatch := []
  rhsBatch := []
  wf := dot_S2000x4_S4x1_S2000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v54) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S2000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S16x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S2000x4.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v74) S2000x4.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x4.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v76) S1x4.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v77) S1x4.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x4.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v79) S2000x4.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v79) S2000x4.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S4x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S2000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v95) S2000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S1x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S1x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg21) S1x1.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v101) S2000x1.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S3200000 : Shape := ⟨1, ![3200000]⟩
abbrev S1x16 : Shape := ⟨2, ![1, 16]⟩
abbrev S16 : Shape := ⟨1, ![16]⟩
abbrev S16x4 : Shape := ⟨2, ![16, 4]⟩
abbrev S4 : Shape := ⟨1, ![4]⟩
abbrev S4x1 : Shape := ⟨2, ![4, 1]⟩
abbrev S1 : Shape := ⟨1, ![1]⟩
abbrev S1x1 : Shape := ⟨2, ![1, 1]⟩
abbrev S1x3200000 : Shape := ⟨2, ![1, 3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S100000x4 : Shape := ⟨2, ![100000, 4]⟩
abbrev S3300000x4 : Shape := ⟨2, ![3300000, 4]⟩
abbrev S1x4 : Shape := ⟨2, ![1, 4]⟩

abbrev nBuf : Space → Nat
  | .hbm => 293
  | .vmem => 0
  | .smem => 0
  | _ => 0

abbrev hbmTy0_0 (i : Nat) : BufTy := match i % 128 with
  | 0 => ⟨S100000x1, .f32⟩
  | 1 => ⟨S2x3200000, .i32⟩
  | 2 => ⟨S3200000, .f32⟩
  | 3 => ⟨S1x16, .f32⟩
  | 4 => ⟨S16, .f32⟩
  | 5 => ⟨S16, .f32⟩
  | 6 => ⟨S16, .f32⟩
  | 7 => ⟨S16, .f32⟩
  | 8 => ⟨S16, .f32⟩
  | 9 => ⟨S16x4, .f32⟩
  | 10 => ⟨S4, .f32⟩
  | 11 => ⟨S4, .f32⟩
  | 12 => ⟨S4, .f32⟩
  | 13 => ⟨S4, .f32⟩
  | 14 => ⟨S4, .f32⟩
  | 15 => ⟨S4x1, .f32⟩
  | 16 => ⟨S1, .f32⟩
  | 17 => ⟨S1, .f32⟩
  | 18 => ⟨S1, .f32⟩
  | 19 => ⟨S1, .f32⟩
  | 20 => ⟨S1, .f32⟩
  | 21 => ⟨S1x1, .f32⟩
  | 22 => ⟨S1, .f32⟩
  | 23 => ⟨S1x3200000, .i32⟩
  | 24 => ⟨S3200000, .i32⟩
  | 25 => ⟨S1x3200000, .i32⟩
  | 26 => ⟨S3200000, .i32⟩
  | 27 => ⟨S100000, .i32⟩
  | 28 => ⟨S3300000, .i32⟩
  | 29 => ⟨S3300000, .i32⟩
  | 30 => ⟨S_, .f32⟩
  | 31 => ⟨S100000, .f32⟩
  | 32 => ⟨S3300000, .f32⟩
  | 33 => ⟨S_, .f32⟩
  | 34 => ⟨S100000, .f32⟩
  | 35 => ⟨S3300000x1, .i32⟩
  | 36 => ⟨S100000, .f32⟩
  | 37 => ⟨S_, .f32⟩
  | 38 => ⟨S100000, .f32⟩
  | 39 => ⟨S100000, .i1⟩
  | 40 => ⟨S_, .f32⟩
  | 41 => ⟨S_, .f32⟩
  | 42 => ⟨S100000, .f32⟩
  | 43 => ⟨S100000, .f32⟩
  | 44 => ⟨S_, .f32⟩
  | 45 => ⟨S100000, .f32⟩
  | 46 => ⟨S100000, .f32⟩
  | 47 => ⟨S_, .f32⟩
  | 48 => ⟨S100000, .f32⟩
  | 49 => ⟨S100000, .i1⟩
  | 50 => ⟨S_, .f32⟩
  | 51 => ⟨S_, .f32⟩
  | 52 => ⟨S100000, .f32⟩
  | 53 => ⟨S100000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000, .f32⟩
  | 63 => ⟨S3300000, .f32⟩
  | 64 => ⟨S_, .i32⟩
  | 65 => ⟨S3300000, .i32⟩
  | 66 => ⟨S3300000, .i1⟩
  | 67 => ⟨S_, .i32⟩
  | 68 => ⟨S3300000, .i32⟩
  | 69 => ⟨S3300000, .i32⟩
  | 70 => ⟨S3300000, .i32⟩
  | 71 => ⟨S3300000x1, .i32⟩
  | 72 => ⟨S3300000, .f32⟩
  | 73 => ⟨S3300000, .f32⟩
  | 74 => ⟨S100000x16, .f32⟩
  | 75 => ⟨S3300000x1, .f32⟩
  | 76 => ⟨S_, .i32⟩
  | 77 => ⟨S3300000, .i32⟩
  | 78 => ⟨S3300000, .i1⟩
  | 79 => ⟨S_, .i32⟩
  | 80 => ⟨S3300000, .i32⟩
  | 81 => ⟨S3300000, .i32⟩
  | 82 => ⟨S3300000, .i32⟩
  | 83 => ⟨S3300000x1, .i32⟩
  | 84 => ⟨S3300000x16, .f32⟩
  | 85 => ⟨S3300000x16, .f32⟩
  | 86 => ⟨S3300000x16, .f32⟩
  | 87 => ⟨S_, .f32⟩
  | 88 => ⟨S100000x16, .f32⟩
  | 89 => ⟨S3300000x1, .i32⟩
  | 90 => ⟨S100000x16, .f32⟩
  | 91 => ⟨S1x16, .f32⟩
  | 92 => ⟨S100000x16, .f32⟩
  | 93 => ⟨S100000x16, .f32⟩
  | 94 => ⟨S1x16, .f32⟩
  | 95 => ⟨S100000x16, .f32⟩
  | 96 => ⟨S100000x16, .f32⟩
  | 97 => ⟨S_, .f32⟩
  | 98 => ⟨S16, .f32⟩
  | 99 => ⟨S16, .f32⟩
  | 100 => ⟨S16, .f32⟩
  | 101 => ⟨S1x16, .f32⟩
  | 102 => ⟨S100000x16, .f32⟩
  | 103 => ⟨S100000x16, .f32⟩
  | 104 => ⟨S1x16, .f32⟩
  | 105 => ⟨S100000x16, .f32⟩
  | 106 => ⟨S100000x16, .f32⟩
  | 107 => ⟨S1x16, .f32⟩
  | 108 => ⟨S100000x16, .f32⟩
  | 109 => ⟨S100000x16, .f32⟩
  | 110 => ⟨S_, .f32⟩
  | 111 => ⟨S100000x16, .f32⟩
  | 112 => ⟨S100000x16, .f32⟩
  | 113 => ⟨S100000, .i32⟩
  | 114 => ⟨S3300000, .i32⟩
  | 115 => ⟨S3300000, .i32⟩
  | 116 => ⟨S_, .f32⟩
  | 117 => ⟨S100000, .f32⟩
  | 118 => ⟨S3300000, .f32⟩
  | 119 => ⟨S_, .f32⟩
  | 120 => ⟨S100000, .f32⟩
  | 121 => ⟨S3300000x1, .i32⟩
  | 122 => ⟨S100000, .f32⟩
  | 123 => ⟨S_, .f32⟩
  | 124 => ⟨S100000, .f32⟩
  | 125 => ⟨S100000, .i1⟩
  | 126 => ⟨S_, .f32⟩
  | 127 => ⟨S_, .f32⟩
  | _ => ⟨S100000x1, .f32⟩

abbrev hbmTy0_1 (i : Nat) : BufTy := match i % 128 with
  | 0 => ⟨S100000, .f32⟩
  | 1 => ⟨S100000, .f32⟩
  | 2 => ⟨S_, .f32⟩
  | 3 => ⟨S100000, .f32⟩
  | 4 => ⟨S100000, .f32⟩
  | 5 => ⟨S_, .f32⟩
  | 6 => ⟨S100000, .f32⟩
  | 7 => ⟨S100000, .i1⟩
  | 8 => ⟨S_, .f32⟩
  | 9 => ⟨S_, .f32⟩
  | 10 => ⟨S100000, .f32⟩
  | 11 => ⟨S100000, .f32⟩
  | 12 => ⟨S_, .i32⟩
  | 13 => ⟨S3300000, .i32⟩
  | 14 => ⟨S3300000, .i1⟩
  | 15 => ⟨S_, .i32⟩
  | 16 => ⟨S3300000, .i32⟩
  | 17 => ⟨S3300000, .i32⟩
  | 18 => ⟨S3300000, .i32⟩
  | 19 => ⟨S3300000x1, .i32⟩
  | 20 => ⟨S3300000, .f32⟩
  | 21 => ⟨S3300000, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000, .f32⟩
  | 31 => ⟨S3300000, .f32⟩
  | 32 => ⟨S100000x4, .f32⟩
  | 33 => ⟨S3300000x1, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000x4, .f32⟩
  | 43 => ⟨S3300000x4, .f32⟩
  | 44 => ⟨S3300000x4, .f32⟩
  | 45 => ⟨S_, .f32⟩
  | 46 => ⟨S100000x4, .f32⟩
  | 47 => ⟨S3300000x1, .i32⟩
  | 48 => ⟨S100000x4, .f32⟩
  | 49 => ⟨S1x4, .f32⟩
  | 50 => ⟨S100000x4, .f32⟩
  | 51 => ⟨S100000x4, .f32⟩
  | 52 => ⟨S1x4, .f32⟩
  | 53 => ⟨S100000x4, .f32⟩
  | 54 => ⟨S100000x4, .f32⟩
  | 55 => ⟨S_, .f32⟩
  | 56 => ⟨S4, .f32⟩
  | 57 => ⟨S4, .f32⟩
  | 58 => ⟨S4, .f32⟩
  | 59 => ⟨S1x4, .f32⟩
  | 60 => ⟨S100000x4, .f32⟩
  | 61 => ⟨S100000x4, .f32⟩
  | 62 => ⟨S1x4, .f32⟩
  | 63 => ⟨S100000x4, .f32⟩
  | 64 => ⟨S100000x4, .f32⟩
  | 65 => ⟨S1x4, .f32⟩
  | 66 => ⟨S100000x4, .f32⟩
  | 67 => ⟨S100000x4, .f32⟩
  | 68 => ⟨S_, .f32⟩
  | 69 => ⟨S100000x4, .f32⟩
  | 70 => ⟨S100000x4, .f32⟩
  | 71 => ⟨S100000, .i32⟩
  | 72 => ⟨S3300000, .i32⟩
  | 73 => ⟨S3300000, .i32⟩
  | 74 => ⟨S_, .f32⟩
  | 75 => ⟨S100000, .f32⟩
  | 76 => ⟨S3300000, .f32⟩
  | 77 => ⟨S_, .f32⟩
  | 78 => ⟨S100000, .f32⟩
  | 79 => ⟨S3300000x1, .i32⟩
  | 80 => ⟨S100000, .f32⟩
  | 81 => ⟨S_, .f32⟩
  | 82 => ⟨S100000, .f32⟩
  | 83 => ⟨S100000, .i1⟩
  | 84 => ⟨S_, .f32⟩
  | 85 => ⟨S_, .f32⟩
  | 86 => ⟨S100000, .f32⟩
  | 87 => ⟨S100000, .f32⟩
  | 88 => ⟨S_, .f32⟩
  | 89 => ⟨S100000, .f32⟩
  | 90 => ⟨S100000, .f32⟩
  | 91 => ⟨S_, .f32⟩
  | 92 => ⟨S100000, .f32⟩
  | 93 => ⟨S100000, .i1⟩
  | 94 => ⟨S_, .f32⟩
  | 95 => ⟨S_, .f32⟩
  | 96 => ⟨S100000, .f32⟩
  | 97 => ⟨S100000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000, .f32⟩
  | 117 => ⟨S3300000, .f32⟩
  | 118 => ⟨S100000x1, .f32⟩
  | 119 => ⟨S3300000x1, .f32⟩
  | 120 => ⟨S_, .i32⟩
  | 121 => ⟨S3300000, .i32⟩
  | 122 => ⟨S3300000, .i1⟩
  | 123 => ⟨S_, .i32⟩
  | 124 => ⟨S3300000, .i32⟩
  | 125 => ⟨S3300000, .i32⟩
  | 126 => ⟨S3300000, .i32⟩
  | 127 => ⟨S3300000x1, .i32⟩
  | _ => ⟨S100000x1, .f32⟩

abbrev hbmTy0_2 (i : Nat) : BufTy := match i % 128 with
  | 0 => ⟨S3300000x1, .f32⟩
  | 1 => ⟨S3300000x1, .f32⟩
  | 2 => ⟨S_, .f32⟩
  | 3 => ⟨S100000x1, .f32⟩
  | 4 => ⟨S3300000x1, .i32⟩
  | 5 => ⟨S100000x1, .f32⟩
  | 6 => ⟨S1x1, .f32⟩
  | 7 => ⟨S100000x1, .f32⟩
  | 8 => ⟨S100000x1, .f32⟩
  | 9 => ⟨S1x1, .f32⟩
  | 10 => ⟨S100000x1, .f32⟩
  | 11 => ⟨S100000x1, .f32⟩
  | 12 => ⟨S_, .f32⟩
  | 13 => ⟨S1, .f32⟩
  | 14 => ⟨S1, .f32⟩
  | 15 => ⟨S1, .f32⟩
  | 16 => ⟨S1x1, .f32⟩
  | 17 => ⟨S100000x1, .f32⟩
  | 18 => ⟨S100000x1, .f32⟩
  | 19 => ⟨S1x1, .f32⟩
  | 20 => ⟨S100000x1, .f32⟩
  | 21 => ⟨S100000x1, .f32⟩
  | 22 => ⟨S1x1, .f32⟩
  | 23 => ⟨S100000x1, .f32⟩
  | 24 => ⟨S100000x1, .f32⟩
  | 25 => ⟨S100000x1, .f32⟩
  | 26 => ⟨S1x1, .f32⟩
  | 27 => ⟨S100000x1, .f32⟩
  | 28 => ⟨S100000x1, .f32⟩
  | 29 => ⟨S100000x1, .f32⟩
  | 30 => ⟨S100000x1, .f32⟩
  | 31 => ⟨S_, .f32⟩
  | 32 => ⟨S100000x1, .f32⟩
  | 33 => ⟨S100000x1, .f32⟩
  | 34 => ⟨S_, .f32⟩
  | 35 => ⟨S100000x1, .f32⟩
  | 36 => ⟨S100000x1, .f32⟩
  | _ => ⟨S100000x1, .f32⟩

abbrev hbmTy (i : Nat) : BufTy := match i / 128 with
  | 0 => hbmTy0_0 i
  | 1 => hbmTy0_1 i
  | 2 => hbmTy0_2 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_cst_0 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_cst_1 : Ref sig .tc := ⟨.hbm, 37, rfl⟩
abbrev main_v12 : Ref sig .tc := ⟨.hbm, 38, rfl⟩
abbrev main_v13 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v14 : Ref sig .tc := ⟨.hbm, 43, rfl⟩
abbrev main_cst_3 : Ref sig .tc := ⟨.hbm, 44, rfl⟩
abbrev main_v15 : Ref sig .tc := ⟨.hbm, 45, rfl⟩
abbrev main_v16 : Ref sig .tc := ⟨.hbm, 46, rfl⟩
abbrev main_cst_4 : Ref sig .tc := ⟨.hbm, 47, rfl⟩
abbrev main_v17 : Ref sig .tc := ⟨.hbm, 48, rfl⟩
abbrev main_v18 : Ref sig .tc := ⟨.hbm, 49, rfl⟩
abbrev main_cst_5 : Ref sig .tc := ⟨.hbm, 50, rfl⟩
abbrev main_call1_v0 : Ref sig .tc := ⟨.hbm, 51, rfl⟩
abbrev main_call1_v1 : Ref sig .tc := ⟨.hbm, 52, rfl⟩
abbrev main_v19 : Ref sig .tc := ⟨.hbm, 53, rfl⟩
abbrev main_c : Ref sig .tc := ⟨.hbm, 54, rfl⟩
abbrev main_v20 : Ref sig .tc := ⟨.hbm, 55, rfl⟩
abbrev main_v21 : Ref sig .tc := ⟨.hbm, 56, rfl⟩
abbrev main_c_6 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_7 : Ref sig .tc := ⟨.hbm, 64, rfl⟩
abbrev main_v28 : Ref sig .tc := ⟨.hbm, 65, rfl⟩
abbrev main_v29 : Ref sig .tc := ⟨.hbm, 66, rfl⟩
abbrev main_c_8 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_9 : Ref sig .tc := ⟨.hbm, 76, rfl⟩
abbrev main_v38 : Ref sig .tc := ⟨.hbm, 77, rfl⟩
abbrev main_v39 : Ref sig .tc := ⟨.hbm, 78, rfl⟩
abbrev main_c_10 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_11 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_cst_12 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_call2_cst : Ref sig .tc := ⟨.hbm, 110, rfl⟩
abbrev main_call2_v0 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_cst_13 : Ref sig .tc := ⟨.hbm, 116, rfl⟩
abbrev main_v72 : Ref sig .tc := ⟨.hbm, 117, rfl⟩
abbrev main_v73 : Ref sig .tc := ⟨.hbm, 118, rfl⟩
abbrev main_cst_14 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_15 : Ref sig .tc := ⟨.hbm, 123, rfl⟩
abbrev main_v77 : Ref sig .tc := ⟨.hbm, 124, rfl⟩
abbrev main_v78 : Ref sig .tc := ⟨.hbm, 125, rfl⟩
abbrev main_cst_16 : Ref sig .tc := ⟨.hbm, 126, rfl⟩
abbrev main_call3_v0 : Ref sig .tc := ⟨.hbm, 127, rfl⟩
abbrev main_call3_v1 : Ref sig .tc := ⟨.hbm, 128, rfl⟩
abbrev main_v79 : Ref sig .tc := ⟨.hbm, 129, rfl⟩
abbrev main_cst_17 : Ref sig .tc := ⟨.hbm, 130, rfl⟩
abbrev main_v80 : Ref sig .tc := ⟨.hbm, 131, rfl⟩
abbrev main_v81 : Ref sig .tc := ⟨.hbm, 132, rfl⟩
abbrev main_cst_18 : Ref sig .tc := ⟨.hbm, 133, rfl⟩
abbrev main_v82 : Ref sig .tc := ⟨.hbm, 134, rfl⟩
abbrev main_v83 : Ref sig .tc := ⟨.hbm, 135, rfl⟩
abbrev main_cst_19 : Ref sig .tc := ⟨.hbm, 136, rfl⟩
abbrev main_call4_v0 : Ref sig .tc := ⟨.hbm, 137, rfl⟩
abbrev main_call4_v1 : Ref sig .tc := ⟨.hbm, 138, rfl⟩
abbrev main_v84 : Ref sig .tc := ⟨.hbm, 139, rfl⟩
abbrev main_c_20 : Ref sig .tc := ⟨.hbm, 140, rfl⟩
abbrev main_v85 : Ref sig .tc := ⟨.hbm, 141, rfl⟩
abbrev main_v86 : Ref sig .tc := ⟨.hbm, 142, rfl⟩
abbrev main_c_21 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_c_22 : Ref sig .tc := ⟨.hbm, 150, rfl⟩
abbrev main_v93 : Ref sig .tc := ⟨.hbm, 151, rfl⟩
abbrev main_v94 : Ref sig .tc := ⟨.hbm, 152, rfl⟩
abbrev main_c_23 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_c_24 : Ref sig .tc := ⟨.hbm, 162, rfl⟩
abbrev main_v103 : Ref sig .tc := ⟨.hbm, 163, rfl⟩
abbrev main_v104 : Ref sig .tc := ⟨.hbm, 164, rfl⟩
abbrev main_c_25 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_cst_26 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_cst_27 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_v132 : Ref sig .tc := ⟨.hbm, 195, rfl⟩
abbrev main_call5_cst : Ref sig .tc := ⟨.hbm, 196, rfl⟩
abbrev main_call5_v0 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_cst_28 : Ref sig .tc := ⟨.hbm, 202, rfl⟩
abbrev main_v137 : Ref sig .tc := ⟨.hbm, 203, rfl⟩
abbrev main_v138 : Ref sig .tc := ⟨.hbm, 204, rfl⟩
abbrev main_cst_29 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_cst_30 : Ref sig .tc := ⟨.hbm, 209, rfl⟩
abbrev main_v142 : Ref sig .tc := ⟨.hbm, 210, rfl⟩
abbrev main_v143 : Ref sig .tc := ⟨.hbm, 211, rfl⟩
abbrev main_cst_31 : Ref sig .tc := ⟨.hbm, 212, rfl⟩
abbrev main_call6_v0 : Ref sig .tc := ⟨.hbm, 213, rfl⟩
abbrev main_call6_v1 : Ref sig .tc := ⟨.hbm, 214, rfl⟩
abbrev main_v144 : Ref sig .tc := ⟨.hbm, 215, rfl⟩
abbrev main_cst_32 : Ref sig .tc := ⟨.hbm, 216, rfl⟩
abbrev main_v145 : Ref sig .tc := ⟨.hbm, 217, rfl⟩
abbrev main_v146 : Ref sig .tc := ⟨.hbm, 218, rfl⟩
abbrev main_cst_33 : Ref sig .tc := ⟨.hbm, 219, rfl⟩
abbrev main_v147 : Ref sig .tc := ⟨.hbm, 220, rfl⟩
abbrev main_v148 : Ref sig .tc := ⟨.hbm, 221, rfl⟩
abbrev main_cst_34 : Ref sig .tc := ⟨.hbm, 222, rfl⟩
abbrev main_call7_v0 : Ref sig .tc := ⟨.hbm, 223, rfl⟩
abbrev main_call7_v1 : Ref sig .tc := ⟨.hbm, 224, rfl⟩
abbrev main_v149 : Ref sig .tc := ⟨.hbm, 225, rfl⟩
abbrev main_c_35 : Ref sig .tc := ⟨.hbm, 226, rfl⟩
abbrev main_v150 : Ref sig .tc := ⟨.hbm, 227, rfl⟩
abbrev main_v151 : Ref sig .tc := ⟨.hbm, 228, rfl⟩
abbrev main_c_36 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_c_37 : Ref sig .tc := ⟨.hbm, 236, rfl⟩
abbrev main_v158 : Ref sig .tc := ⟨.hbm, 237, rfl⟩
abbrev main_v159 : Ref sig .tc := ⟨.hbm, 238, rfl⟩
abbrev main_c_38 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_c_39 : Ref sig .tc := ⟨.hbm, 248, rfl⟩
abbrev main_v168 : Ref sig .tc := ⟨.hbm, 249, rfl⟩
abbrev main_v169 : Ref sig .tc := ⟨.hbm, 250, rfl⟩
abbrev main_c_40 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_cst_41 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_cst_42 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_v194 : Ref sig .tc := ⟨.hbm, 278, rfl⟩
abbrev main_v195 : Ref sig .tc := ⟨.hbm, 279, rfl⟩
abbrev main_v196 : Ref sig .tc := ⟨.hbm, 280, rfl⟩
abbrev main_v197 : Ref sig .tc := ⟨.hbm, 281, rfl⟩
abbrev main_v198 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_v202 : Ref sig .tc := ⟨.hbm, 286, rfl⟩
abbrev main_cst_43 : Ref sig .tc := ⟨.hbm, 287, rfl⟩
abbrev main_v203 : Ref sig .tc := ⟨.hbm, 288, rfl⟩
abbrev main_v204 : Ref sig .tc := ⟨.hbm, 289, rfl⟩
abbrev main_cst_44 : Ref sig .tc := ⟨.hbm, 290, rfl⟩
abbrev main_v205 : Ref sig .tc := ⟨.hbm, 291, rfl⟩
abbrev main_v206 : Ref sig .tc := ⟨.hbm, 292, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S16 : S_.BroadcastsInDim S16 (![] : Fin 0 → Fin S16.rank)
  bcast_S3300000x1_S3300000x4_0_1 : S3300000x1.BroadcastsInDim S3300000x4 (![0, 1] : Fin 2 → Fin S3300000x4.rank)
  bcast_S_S100000x4 : S_.BroadcastsInDim S100000x4 (![] : Fin 0 → Fin S100000x4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S4 : S_.BroadcastsInDim S4 (![] : Fin 0 → Fin S4.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S1 : S_.BroadcastsInDim S1 (![] : Fin 0 → Fin S1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x16_S100000x16_1_0_0_1_n_n_wf : DotDims.WF S100000x1 S1x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x4_S100000x4_1_0_0_1_n_n_wf : DotDims.WF S100000x16 S16x4 S100000x4 [1] [0] [0] [1] [] []
  gather_S100000x4_S3300000x1_S3300000x4_1_0_n_n_0_1_14_wf : GatherDims.WF S100000x4 S3300000x1 S3300000x4 [1] [0] [] [0] [] 1 ![1, 4]
  scatter_S100000x4_S3300000x1_S3300000x4_1_0_0_1_wf : ScatterDims.WF S100000x4 S3300000x1 S3300000x4 [1] [0] [0] 1
  dot_S100000x4_S4x1_S100000x1_1_0_0_1_n_n_wf : DotDims.WF S100000x4 S4x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  dot_S100000x1_S1x1_S100000x1_1_0_0_1_n_n_wf : DotDims.WF S100000x1 S1x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x16_S100000x16_1_0_0_1_n_n : DotDims S100000x1 S1x16 S100000x16 where
  lhsContracting := [1]
  rhsContracting := [0]
  lhsNonContracting := [0]
  rhsNonContracting := [1]
  lhsBatch := []
  rhsBatch := []
  wf := dot_S100000x1_S1x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x4_S100000x4_1_0_0_1_n_n : DotDims S100000x16 S16x4 S100000x4 where
  lhsContracting := [1]
  rhsContracting := [0]
  lhsNonContracting := [0]
  rhsNonContracting := [1]
  lhsBatch := []
  rhsBatch := []
  wf := dot_S100000x16_S16x4_S100000x4_1_0_0_1_n_n_wf
def gather_S100000x4_S3300000x1_S3300000x4_1_0_n_n_0_1_14 : GatherDims S100000x4 S3300000x1 S3300000x4 where
  offsetDims := [1]
  collapsedSliceDims := [0]
  operandBatchingDims := []
  startIndicesBatchingDims := []
  startIndexMap := [0]
  indexVectorDim := 1
  sliceSizes := ![1, 4]
  wf := gather_S100000x4_S3300000x1_S3300000x4_1_0_n_n_0_1_14_wf
def scatter_S100000x4_S3300000x1_S3300000x4_1_0_0_1 : ScatterDims S100000x4 S3300000x1 S3300000x4 where
  updateWindowDims := [1]
  insertedWindowDims := [0]
  scatterDimsToOperandDims := [0]
  indexVectorDim := 1
  wf := scatter_S100000x4_S3300000x1_S3300000x4_1_0_0_1_wf
def dot_S100000x4_S4x1_S100000x1_1_0_0_1_n_n : DotDims S100000x4 S4x1 S100000x1 where
  lhsContracting := [1]
  rhsContracting := [0]
  lhsNonContracting := [0]
  rhsNonContracting := [1]
  lhsBatch := []
  rhsBatch := []
  wf := dot_S100000x4_S4x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf
def dot_S100000x1_S1x1_S100000x1_1_0_0_1_n_n : DotDims S100000x1 S1x1 S100000x1 where
  lhsContracting := [1]
  rhsContracting := [0]
  lhsNonContracting := [0]
  rhsNonContracting := [1]
  lhsBatch := []
  rhsBatch := []
  wf := dot_S100000x1_S1x1_S100000x1_1_0_0_1_n_n_wf

class Facts : Prop extends Facts₀ where

variable [Facts]
-- ==== Proof.KernelRun.lean ====
/-
  The idealized kernel's whole run, with its result named.

  The program is six grid launches among stretches of host operations. The buffer contents at each boundary between
  two such segments are a fold from the launch memory: a stretch of host operations maps the contents through its
  operations, a launch replaces its arrays by what its write-backs leave. Every weakly fair execution terminates and
  ends with each buffer at the last term of that fold; in particular the result buffer holds the fold's last contents
  of the sixth launch's output array, and each argument array is as launched.
-/
import proofs.«127372_j14680198218392_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    contents of the fold through the segments, and every argument array as launched. -/
theorem run_result : θ_run defs (onTc (τ := τ) (main (F := F))) ⟨m, fun _ => 0, ρ⟩ (fun r => ∀ c : Dev nD,
      r.2.mem ((c.tc : Thread nD τ).loc main_v101) = W14 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v101 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c)⟩)

end Cert.KernelIdeal.Whole

end
-- ==== Proof.LibReads.lean ====
/-
  Reading a buffer through a straight line of host operations.

  `after ops V` is what the buffers hold once the operations have run in order from contents `V`: each operation
  rewrites the buffer it writes and leaves the rest. For a literal list of operations over literal references, what one
  buffer holds afterwards is a computation: at the operation's own result buffer its function's value of the operands'
  contents, at any other buffer what was there. One simplification pass does this wherever the operands sit in
  argument position. Where an operand sits inside a list of (shape, array) pairs — the operands of a concatenation —
  the pass leaves the read standing; a short loop of single rewrites finishes those. `reads` is the two in a row, and
  stops at whatever the line started from (a variable or a definition it cannot unfold), which makes it usable on one
  stretch of a longer program at a time.

-/
import Idealize.ShloMosaic.Lib.StableHlo.Run

noncomputable section

namespace Cert.LibReads

open Idealize.ShloMosaic Idealize.ShloMosaic.StableHlo

/-- Reads left standing inside a concatenation's list of operands: each operation's result at its own buffer is its
    function's value, at any other buffer what was there. -/
macro "finish_reads" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

/-- Read a buffer through a literal line of host operations, down to the contents the line started from. -/
macro "reads" : tactic => `(tactic| ((try after_results_simp); finish_reads))

end Cert.LibReads

end
-- ==== Proof.LibMatmul.lean ====
/-
  A matrix product into a zero accumulator, read at an index, as a plain sum of products over the contracted axis.

  For a product of an n-by-K array with a K-by-M array whose dimension numbers contract the left operand's columns
  against the right operand's rows, the entry at (p, q) is the sum over k of left(p, k) · right(k, q). The four facts
  about the dimension numbers that say so (which coordinate of each operand index comes from the output index and which
  from the contraction index) are taken as hypotheses, since each printed record proves them by unfolding.
-/
import Idealize.ShloMosaic.PureOps.Ideal.Laws
import Idealize.ShloMosaic.Lib.ValueIdx

noncomputable section

open scoped BigOperators

namespace Cert.Lib.Matmul

open Idealize.ShloMosaic Idealize.ShloMosaic.ValueIdx

/-- A kernel's matrix product into the zero splat, at the ideal values, read at `(p, q)`: the sum over the contracted
    axis of the left operand's row `p` times the right operand's column `q`. -/
theorem matmul_zero_ix2 {n K M : ℕ} {φ₁ φ₂ : FTy}
    (d : DotDims (⟨2, ![n, K]⟩ : Shape) (⟨2, ![K, M]⟩ : Shape) (⟨2, ![n, M]⟩ : Shape)) (prec : Option ContractPrecision)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.matmul d prec lhs rhs (constant (⟨2, ![n, M]⟩ : Shape) .f32 0x00000000#32) (ix2 p q)
      = ∑ k : Fin K, lhs (ix2 p k) * rhs (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

/-- The host's `dot_general` with the same dimension numbers, read the same way. -/
theorem dotGeneral_ix2 {n K M : ℕ} {φ₁ φ₂ : FTy}
    (d : DotDims (⟨2, ![n, K]⟩ : Shape) (⟨2, ![K, M]⟩ : Shape) (⟨2, ![n, M]⟩ : Shape)) (prec : Option ContractPrecision)
    (sched : HostSchedule)
    (hr : d.contr.rank = 1) (hs : d.contr.size ⟨0, by omega⟩ = K)
    (hl0 : ∀ j c, (d.lhsIdx j c 0).val = (j 0).val) (hl1 : ∀ j c, (d.lhsIdx j c 1).val = (c ⟨0, by omega⟩).val)
    (hr0 : ∀ j c, (d.rhsIdx j c 0).val = (c ⟨0, by omega⟩).val) (hr1 : ∀ j c, (d.rhsIdx j c 1).val = (j 1).val)
    (lhs : FVec Ideal (⟨2, ![n, K]⟩ : Shape) φ₁) (rhs : FVec Ideal (⟨2, ![K, M]⟩ : Shape) φ₂) (p : Fin n) (q : Fin M) :
    FloatOps.dotGeneral d prec sched lhs rhs (ix2 p q) = ∑ k : Fin K, lhs (ix2 p k) * rhs (ix2 k q) := by
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.Lib.Matmul

end
-- ==== Proof.Lin0.lean ====
/-
  Launch 0 of the idealized kernel: a row-blocked matrix product.

  The launch walks 50 blocks of 2000 rows. At block t the body multiplies rows 2000·t … 2000·t + 1999 of the
  100000-by-1 left array by the whole 1-by-16 right array (both first narrowed to bfloat16, which changes nothing at
  the ideal values) into a zero accumulator, and writes the 2000-by-16 product back as rows 2000·t … of the output array.
  Entry (p, q) of a product is the sum over k of left(p, k) · right(k, q), whether the product is taken block by
  block or once for the whole array; the blocks tile the output, so after the launch the output array is the whole
  product of the two arrays the launch found.
-/
import proofs.«127372_j14680198218392_2_alg».proof.Proof.Gen.KernelIdeal.Frame
import proofs.«127372_j14680198218392_2_alg».proof.Proof.Gen.ReferenceIdeal.Read
import proofs.«127372_j14680198218392_2_alg».proof.Proof.LibMatmul
import Idealize.ShloMosaic.Lib.Pipeline.Value
import Idealize.ShloMosaic.Lib.ValueIdx

set_option maxRecDepth 16384

noncomputable section

open scoped BigOperators

namespace Cert.KernelIdeal.Lin0

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-! ## The block product and the whole product at an entry -/

theorem kl0 (j : S2000x16.Idx) (q : dot_S2000x1_S1x16_S2000x16_1_0_0_1_n_n.contr.Idx) : (dot_S2000x1_S1x16_S2000x16_1_0_0_1_n_n.lhsIdx j q 0).val = (j 0).val := by
  unfold DotDims.lhsIdx
  rw [dif_neg (show ¬(0 : Fin S2000x1.rank) ∈ dot_S2000x1_S1x16_S2000x16_1_0_0_1_n_n.lhsBatch by decide), dif_pos (show (0 : Fin S2000x1.rank) ∈ dot_S2000x1_S1x16_S2000x16_1_0_0_1_n_n.lhsNonContracting by decide)]
  rfl
theorem kl1 (j : S2000x16.Idx) (q : dot_S2000x1_S1x16_S2000x16_1_0_0_1_n_n.contr.Idx) : (dot_S2000x1_S1x16_S2000x16_1_0_0_1_n_n.lhsIdx j q 1).val = (q ⟨0, by decide⟩).val :=
  dot_S2000x1_S1x16_S2000x16_1_0_0_1_n_n.lhsIdx_val_of_single rfl j q
theorem kr0 (j : S2000x16.Idx) (q : dot_S2000x1_S1x16_S2000x16_1_0_0_1_n_n.contr.Idx) : (dot_S2000x1_S1x16_S2000x16_1_0_0_1_n_n.rhsIdx j q 0).val = (q ⟨0, by decide⟩).val :=
  dot_S2000x1_S1x16_S2000x16_1_0_0_1_n_n.rhsIdx_val_of_single rfl j q
theorem kr1 (j : S2000x16.Idx) (q : dot_S2000x1_S1x16_S2000x16_1_0_0_1_n_n.contr.Idx) : (dot_S2000x1_S1x16_S2000x16_1_0_0_1_n_n.rhsIdx j q 1).val = (j 1).val := by
  unfold DotDims.rhsIdx
  rw [dif_neg (show ¬(1 : Fin S1x16.rank) ∈ dot_S2000x1_S1x16_S2000x16_1_0_0_1_n_n.rhsBatch by decide), dif_pos (show (1 : Fin S1x16.rank) ∈ dot_S2000x1_S1x16_S2000x16_1_0_0_1_n_n.rhsNonContracting by decide)]
  rfl

/-- The body's product of a 2000-row block with the right array, at row a and column b. -/
theorem pay_apply (x0 : Vec Ideal S2000x1 .f32) (x1 : Vec Ideal S1x16 .f32) (a : Fin 2000) (b : Fin 16) :
    k0_pay1 (F := Ideal) x0 x1 (ix2 a b) = ∑ k : Fin 1, x0 (ix2 a k) * x1 (ix2 k b) := by
  unfold k0_pay1
  refine (Cert.Lib.Matmul.matmul_zero_ix2 dot_S2000x1_S1x16_S2000x16_1_0_0_1_n_n none rfl rfl kl0 kl1 kr0 kr1 _ _ a b).trans ?_
  rfl

/-- The whole product of a 100000-row array with the right array, at row p and column q. -/
theorem whole_apply (X : (⟨S100000x1, .f32⟩ : BufTy).Contents (Elt Ideal)) (W : (⟨S1x16, .f32⟩ : BufTy).Contents (Elt Ideal)) (p : Fin 100000) (q : Fin 16) :
    Host.dotGeneral (F := Ideal) (φ₁ := .f32) (φ₂ := .f32) Cert.ReferenceIdeal.dot_S100000x1_S1x16_S100000x16_1_0_0_1_n_n none X W (ix2 p q) = ∑ k : Fin 1, X (ix2 p k) * W (ix2 k q) := by
  simp only [Host.dotGeneral]
  exact Cert.Lib.Matmul.dotGeneral_ix2 Cert.ReferenceIdeal.dot_S100000x1_S1x16_S100000x16_1_0_0_1_n_n none _ rfl rfl Cert.ReferenceIdeal.Read.lhs_main_v36_0 Cert.ReferenceIdeal.Read.lhs_main_v36_1 Cert.ReferenceIdeal.Read.rhs_main_v36_0 Cert.ReferenceIdeal.Read.rhs_main_v36_1 X W p q

/-- A block that holds rows 2000·T … of the left array, times the right array, is rows 2000·T … of the whole product. -/
theorem block_entry (x0 : Vec Ideal S2000x1 .f32) (x1 : Vec Ideal S1x16 .f32)
    (X : (⟨S100000x1, .f32⟩ : BufTy).Contents (Elt Ideal)) (W : (⟨S1x16, .f32⟩ : BufTy).Contents (Elt Ideal)) (T : ℕ) (hT : T < 50)
    (h0 : ∀ (a : Fin 2000) (k : Fin 1), x0 (ix2 a k) = X (ix2 ⟨T * 2000 + a.val, by omega⟩ k))
    (h1 : ∀ (k : Fin 1) (b : Fin 16), x1 (ix2 k b) = W (ix2 k b)) (a : Fin 2000) (b : Fin 16) :
    k0_pay1 (F := Ideal) x0 x1 (ix2 a b) = Host.dotGeneral (F := Ideal) (φ₁ := .f32) (φ₂ := .f32) Cert.ReferenceIdeal.dot_S100000x1_S1x16_S100000x16_1_0_0_1_n_n none X W (ix2 ⟨T * 2000 + a.val, by omega⟩ b) := by
  rw [pay_apply, whole_apply]
  exact Finset.sum_congr rfl fun k _ => by rw [h0, h1]

/-! ## From the blocks to the array -/

variable (V : (c : Dev nD) → (b : Ref sig .tc) → Buf (Elt Ideal) ((c : Thread nD τ).loc b))

/-- The printed index maps over the grid: the row blocks move with the grid point, the right array stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 4000000 in
/-- What grid point t writes back is block t of the whole product of the arrays the launch found. -/
theorem flushed_eq (c : Dev nD) (t : Fin cfg0.N) :
    (dat0 V c).flushed 2 t = ((cfg0.win 2).blk t).view.read (Elt Ideal)
      (Host.dotGeneral (F := Ideal) (φ₁ := .f32) (φ₂ := .f32) Cert.ReferenceIdeal.dot_S100000x1_S1x16_S100000x16_1_0_0_1_n_n none (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S2000x1) hz, View.ld_unit_zero (S := S1x16) hz]
  obtain ⟨e00, e01, e10, e11, e20, e21⟩ := idx_facts t
  have ht : t.val < 50 := lt_of_lt_of_eq t.isLt N_0
  funext y
  obtain ⟨a, b, rfl⟩ : ∃ (a : Fin 2000) (b : Fin 16), y = ix2 a b := ⟨y 0, y 1, eq_ix2 y⟩
  have he : ((cfg0.win 2).blk t).view.emb (ix2 a b) = (ix2 (⟨t.val * 2000 + a.val, by omega⟩ : Fin 100000) b : S100000x16.Idx) := by
    funext d; apply Fin.ext
    match d with
    | ⟨0, _⟩ => show win0_2.index t (0 : Fin 2) * 2000 + 1 * a.val = t.val * 2000 + a.val; omega
    | ⟨1, _⟩ => show win0_2.index t (1 : Fin 2) * 16 + 1 * b.val = b.val; omega
  show k0_pay1 (F := Ideal) (iblk0 V c 0 t) (iblk0 V c 1 t) (ix2 a b)
    = Host.dotGeneral (F := Ideal) (φ₁ := .f32) (φ₂ := .f32) Cert.ReferenceIdeal.dot_S100000x1_S1x16_S100000x16_1_0_0_1_n_n none (V c (Pipeline.arrRef spec0 0)) (V c (Pipeline.arrRef spec0 1)) (((cfg0.win 2).blk t).view.emb (ix2 a b))
  rw [he]
  refine block_entry (iblk0 V c 0 t) (iblk0 V c 1 t) (V c (Pipeline.arrRef spec0 0)) (V c (Pipeline.arrRef spec0 1)) t.val ht ?_ ?_ a b
  · intro a k
    show V c (Pipeline.arrRef spec0 0) (((cfg0.win 0).blk t).view.emb (ix2 a k)) = _
    refine congrArg (V c (Pipeline.arrRef spec0 0)) (funext fun d => Fin.ext ?_)
    match d with
    | ⟨0, _⟩ => show win0_0.index t (0 : Fin 2) * 2000 + 1 * a.val = t.val * 2000 + a.val; omega
    | ⟨1, _⟩ => show win0_0.index t (1 : Fin 2) * 1 + 1 * k.val = k.val; omega
  · intro k b
    show V c (Pipeline.arrRef spec0 1) (((cfg0.win 1).blk t).view.emb (ix2 k b)) = _
    refine congrArg (V c (Pipeline.arrRef spec0 1)) (funext fun d => Fin.ext ?_)
    match d with
    | ⟨0, _⟩ => show win0_1.index t (0 : Fin 2) * 1 + 1 * k.val = k.val; omega
    | ⟨1, _⟩ => show win0_1.index t (1 : Fin 2) * 16 + 1 * b.val = b.val; omega

/-- An index of the output array lies in point t's block iff each coordinate lies in the block's range. -/
theorem mem_blk (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v36).slice (win0_2.rect t)).set ↔ _
  rw [View.set_slice_whole, Rect.mem_set_unit]
  exact Iff.rfl

/-- Row r of the output lies in the block of grid point r / 2000: the blocks cover the array. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 50 := N_0
  refine ⟨⟨(i 0).val / 2000, by rw [hN]; omega⟩, flush0_2 _, ?_⟩
  obtain ⟨-, -, -, -, e20, e21⟩ := idx_facts ⟨(i 0).val / 2000, by rw [hN]; omega⟩
  rw [mem_blk]
  intro a
  match a with
  | ⟨0, _⟩ => show win0_2.index _ (0 : Fin 2) * 2000 ≤ (i 0).val ∧ (i 0).val < win0_2.index _ (0 : Fin 2) * 2000 + 2000; rw [e20]; show (i 0).val / 2000 * 2000 ≤ (i 0).val ∧ (i 0).val < (i 0).val / 2000 * 2000 + 2000; omega
  | ⟨1, _⟩ => show win0_2.index _ (1 : Fin 2) * 16 ≤ (i 1).val ∧ (i 1).val < win0_2.index _ (1 : Fin 2) * 16 + 16; rw [e21]; omega

/-- After the launch its output array is the whole product of the two arrays it found. -/
theorem arr_eq (c : Dev nD) :
    (dat0 V c).arrAt 2 cfg0.N
      = Host.dotGeneral (F := Ideal) (φ₁ := .f32) (φ₂ := .f32) Cert.ReferenceIdeal.dot_S100000x1_S1x16_S100000x16_1_0_0_1_n_n none (V c (Pipeline.arrRef spec0 0)) (V c (Pipeline.arrRef spec0 1)) :=
  (dat0 V c).arrAt_eq_of_cover 2 _ (fun t _ => flushed_eq V c t) cover

end Cert.KernelIdeal.Lin0

end
-- ==== Proof.StageA.lean ====
/-
  The kernel's buffers up to the first dense layer's product.

  Before its first launch the program computes, from the edge list and the edge weights alone, the self-looped edge
  lists, every node's degree d (the sum of the weights of its incoming edges, its self-loop included), the factor
  d^(−1/2) (zero where d is not positive) and from these the coefficient of every edge. These are the reference's host
  operations on the same arguments, so each buffer holds the reference's stage function of the arguments; the chain
  below goes one stretch of host operations at a time, each stretch read over an arbitrary starting valuation so that
  only that stretch's operations are opened. The first launch then leaves the product of the node features with the
  first weight matrix, which is the reference's own product.
-/
import proofs.«127372_j14680198218392_2_alg».proof.Proof.Gen.KernelIdeal.Frame
import proofs.«127372_j14680198218392_2_alg».proof.Proof.Gen.ReferenceIdeal.Read
import proofs.«127372_j14680198218392_2_alg».proof.Proof.LibReads
import proofs.«127372_j14680198218392_2_alg».proof.Proof.Lin0

set_option maxRecDepth 16384
set_option maxHeartbeats 1600000

noncomputable section

namespace Cert.KernelIdeal.Stages

open Idealize.ShloMosaic Idealize.ShloMosaic.StableHlo Idealize.ShloMosaic.TcCoe Idealize.SL.Sem
open Cert.KernelIdeal Cert.KernelIdeal.Gen Cert.LibReads

variable (m : (ℓ : Loc nD τ sig) → Buf (Elt Ideal) ℓ) (ρ : Dev nD → PrngReg) (c : Dev nD)

/-! ## The two selections against a constant, over any starting valuation -/

/-- The first selection: where the degree is positive the degree, elsewhere the constant. -/
theorem sel0 (V : Valuation τ sig (Elt Ideal)) :
    StableHlo.after (hostOps0_1 (F := Ideal)) V (Proc.devRef .tc main_v14)
      = select (V (Proc.devRef .tc main_v13)) (V (Proc.devRef .tc main_v11)) (broadcastInDim S100000 ![] bcast_S_S100000 (V (Proc.devRef .tc main_cst_2))) := by
  reads
  rfl

/-- The second selection: where the degree is positive its power, elsewhere the constant. -/
theorem sel1 (V : Valuation τ sig (Elt Ideal)) :
    StableHlo.after (hostOps0_3 (F := Ideal)) V (Proc.devRef .tc main_v19)
      = select (V (Proc.devRef .tc main_v18)) (V (Proc.devRef .tc main_v16)) (broadcastInDim S100000 ![] bcast_S_S100000 (V (Proc.devRef .tc main_cst_5))) := by
  reads
  rfl

/-! ## Buffers a stretch does not write, over any starting valuation -/
theorem hop1_v5 (V : Valuation τ sig (Elt Ideal)) : StableHlo.after (hostOps0_1 (F := Ideal)) V (Proc.devRef .tc main_v5) = V (Proc.devRef .tc main_v5) := by
  reads
theorem hop1_v6 (V : Valuation τ sig (Elt Ideal)) : StableHlo.after (hostOps0_1 (F := Ideal)) V (Proc.devRef .tc main_v6) = V (Proc.devRef .tc main_v6) := by
  reads
theorem hop1_v8 (V : Valuation τ sig (Elt Ideal)) : StableHlo.after (hostOps0_1 (F := Ideal)) V (Proc.devRef .tc main_v8) = V (Proc.devRef .tc main_v8) := by
  reads
theorem hop1_v11 (V : Valuation τ sig (Elt Ideal)) : StableHlo.after (hostOps0_1 (F := Ideal)) V (Proc.devRef .tc main_v11) = V (Proc.devRef .tc main_v11) := by
  reads
theorem hop2_v5 (V : Valuation τ sig (Elt Ideal)) : StableHlo.after (hostOps0_2 (F := Ideal)) V (Proc.devRef .tc main_v5) = V (Proc.devRef .tc main_v5) := by
  reads
theorem hop2_v6 (V : Valuation τ sig (Elt Ideal)) : StableHlo.after (hostOps0_2 (F := Ideal)) V (Proc.devRef .tc main_v6) = V (Proc.devRef .tc main_v6) := by
  reads
theorem hop2_v8 (V : Valuation τ sig (Elt Ideal)) : StableHlo.after (hostOps0_2 (F := Ideal)) V (Proc.devRef .tc main_v8) = V (Proc.devRef .tc main_v8) := by
  reads
theorem hop3_v5 (V : Valuation τ sig (Elt Ideal)) : StableHlo.after (hostOps0_3 (F := Ideal)) V (Proc.devRef .tc main_v5) = V (Proc.devRef .tc main_v5) := by
  reads
theorem hop3_v6 (V : Valuation τ sig (Elt Ideal)) : StableHlo.after (hostOps0_3 (F := Ideal)) V (Proc.devRef .tc main_v6) = V (Proc.devRef .tc main_v6) := by
  reads
theorem hop3_v8 (V : Valuation τ sig (Elt Ideal)) : StableHlo.after (hostOps0_3 (F := Ideal)) V (Proc.devRef .tc main_v8) = V (Proc.devRef .tc main_v8) := by
  reads

/-! ## After the first stretch: the edge lists, the weights, the degrees -/
theorem at1_v5 : W1 m ρ c (Proc.devRef .tc main_v5) = Cert.ReferenceIdeal.Read.val_main_v5 (F := Ideal) (m ((c : Thread nD τ).loc main_arg1)) :=
by
  reads
  all_goals rfl
theorem at1_v6 : W1 m ρ c (Proc.devRef .tc main_v6) = Cert.ReferenceIdeal.Read.val_main_v6 (F := Ideal) (m ((c : Thread nD τ).loc main_arg1)) :=
by
  reads
  all_goals rfl
theorem at1_v8 : W1 m ρ c (Proc.devRef .tc main_v8) = Cert.ReferenceIdeal.Read.val_main_v8 (F := Ideal) (m ((c : Thread nD τ).loc main_arg2)) :=
by
  reads
  all_goals rfl
theorem at1_v11 : W1 m ρ c (Proc.devRef .tc main_v11) = Cert.ReferenceIdeal.Read.val_main_v11 (F := Ideal) (m ((c : Thread nD τ).loc main_arg1)) (m ((c : Thread nD τ).loc main_arg2)) :=
by
  reads
  all_goals rfl
theorem at1_v13 : W1 m ρ c (Proc.devRef .tc main_v13) = Cert.ReferenceIdeal.Read.val_main_v13 (F := Ideal) (m ((c : Thread nD τ).loc main_arg1)) (m ((c : Thread nD τ).loc main_arg2)) :=
by
  reads
  all_goals rfl
theorem at1_cst_2 : W1 m ρ c (Proc.devRef .tc main_cst_2) = Cert.ReferenceIdeal.Read.val_main_cst_2 (F := Ideal)  :=
by
  reads
  all_goals rfl

/-! ## After the first selection -/

theorem at2_v14 : W2 m ρ c (Proc.devRef .tc main_v14) = Cert.ReferenceIdeal.Read.val_main_v14 (F := Ideal) (m ((c : Thread nD τ).loc main_arg1)) (m ((c : Thread nD τ).loc main_arg2)) := by
  show StableHlo.after (hostOps0_1 (F := Ideal)) (W1 m ρ c) (Proc.devRef .tc main_v14) = _
  rw [sel0, at1_v13, at1_v11, at1_cst_2]
  rfl
theorem at2_v5 : W2 m ρ c (Proc.devRef .tc main_v5) = Cert.ReferenceIdeal.Read.val_main_v5 (F := Ideal) (m ((c : Thread nD τ).loc main_arg1)) := (hop1_v5 (W1 m ρ c)).trans (at1_v5 m ρ c)
theorem at2_v6 : W2 m ρ c (Proc.devRef .tc main_v6) = Cert.ReferenceIdeal.Read.val_main_v6 (F := Ideal) (m ((c : Thread nD τ).loc main_arg1)) := (hop1_v6 (W1 m ρ c)).trans (at1_v6 m ρ c)
theorem at2_v8 : W2 m ρ c (Proc.devRef .tc main_v8) = Cert.ReferenceIdeal.Read.val_main_v8 (F := Ideal) (m ((c : Thread nD τ).loc main_arg2)) := (hop1_v8 (W1 m ρ c)).trans (at1_v8 m ρ c)
theorem at2_v11 : W2 m ρ c (Proc.devRef .tc main_v11) = Cert.ReferenceIdeal.Read.val_main_v11 (F := Ideal) (m ((c : Thread nD τ).loc main_arg1)) (m ((c : Thread nD τ).loc main_arg2)) := (hop1_v11 (W1 m ρ c)).trans (at1_v11 m ρ c)

/-! ## After the power -/

theorem at3_v16 : W3 m ρ c (Proc.devRef .tc main_v16) = Cert.ReferenceIdeal.Read.val_main_v16 (F := Ideal) (m ((c : Thread nD τ).loc main_arg1)) (m ((c : Thread nD τ).loc main_arg2)) := by
  show StableHlo.after (hostOps0_2 (F := Ideal)) (W2 m ρ c) (Proc.devRef .tc main_v16) = _
  generalize hV : W2 m ρ c = V
  reads
  subst hV
  rw [at2_v14]
  rfl
theorem at3_v18 : W3 m ρ c (Proc.devRef .tc main_v18) = Cert.ReferenceIdeal.Read.val_main_v18 (F := Ideal) (m ((c : Thread nD τ).loc main_arg1)) (m ((c : Thread nD τ).loc main_arg2)) := by
  show StableHlo.after (hostOps0_2 (F := Ideal)) (W2 m ρ c) (Proc.devRef .tc main_v18) = _
  generalize hV : W2 m ρ c = V
  reads
  subst hV
  rw [at2_v11]
  rfl
theorem at3_cst_5 : W3 m ρ c (Proc.devRef .tc main_cst_5) = Cert.ReferenceIdeal.Read.val_main_cst_5 (F := Ideal)  := by
  show StableHlo.after (hostOps0_2 (F := Ideal)) (W2 m ρ c) (Proc.devRef .tc main_cst_5) = _
  generalize hV : W2 m ρ c = V
  reads
  all_goals rfl
theorem at3_v5 : W3 m ρ c (Proc.devRef .tc main_v5) = Cert.ReferenceIdeal.Read.val_main_v5 (F := Ideal) (m ((c : Thread nD τ).loc main_arg1)) := (hop2_v5 (W2 m ρ c)).trans (at2_v5 m ρ c)
theorem at3_v6 : W3 m ρ c (Proc.devRef .tc main_v6) = Cert.ReferenceIdeal.Read.val_main_v6 (F := Ideal) (m ((c : Thread nD τ).loc main_arg1)) := (hop2_v6 (W2 m ρ c)).trans (at2_v6 m ρ c)
theorem at3_v8 : W3 m ρ c (Proc.devRef .tc main_v8) = Cert.ReferenceIdeal.Read.val_main_v8 (F := Ideal) (m ((c : Thread nD τ).loc main_arg2)) := (hop2_v8 (W2 m ρ c)).trans (at2_v8 m ρ c)

/-! ## After the second selection: the factor d^(−1/2) -/

theorem at4_v19 : W4 m ρ c (Proc.devRef .tc main_v19) = Cert.ReferenceIdeal.Read.val_main_v19 (F := Ideal) (m ((c : Thread nD τ).loc main_arg1)) (m ((c : Thread nD τ).loc main_arg2)) := by
  show StableHlo.after (hostOps0_3 (F := Ideal)) (W3 m ρ c) (Proc.devRef .tc main_v19) = _
  rw [sel1, at3_v18, at3_v16, at3_cst_5]
  rfl
theorem at4_v5 : W4 m ρ c (Proc.devRef .tc main_v5) = Cert.ReferenceIdeal.Read.val_main_v5 (F := Ideal) (m ((c : Thread nD τ).loc main_arg1)) := (hop3_v5 (W3 m ρ c)).trans (at3_v5 m ρ c)
theorem at4_v6 : W4 m ρ c (Proc.devRef .tc main_v6) = Cert.ReferenceIdeal.Read.val_main_v6 (F := Ideal) (m ((c : Thread nD τ).loc main_arg1)) := (hop3_v6 (W3 m ρ c)).trans (at3_v6 m ρ c)
theorem at4_v8 : W4 m ρ c (Proc.devRef .tc main_v8) = Cert.ReferenceIdeal.Read.val_main_v8 (F := Ideal) (m ((c : Thread nD τ).loc main_arg2)) := (hop3_v8 (W3 m ρ c)).trans (at3_v8 m ρ c)

/-! ## At the first launch's entry: the edge coefficients -/

theorem at5_v35 : W5 m ρ c (Proc.devRef .tc main_v35) = Cert.ReferenceIdeal.Read.val_main_v35 (F := Ideal) (m ((c : Thread nD τ).loc main_arg1)) (m ((c : Thread nD τ).loc main_arg2)) := by
  show StableHlo.after (hostOps0_4 (F := Ideal)) (W4 m ρ c) (Proc.devRef .tc main_v35) = _
  generalize hV : W4 m ρ c = V
  reads
  subst hV
  rw [at4_v19, at4_v5, at4_v6, at4_v8]
  rfl
theorem at5_v5 : W5 m ρ c (Proc.devRef .tc main_v5) = Cert.ReferenceIdeal.Read.val_main_v5 (F := Ideal) (m ((c : Thread nD τ).loc main_arg1)) :=
by
  reads
  all_goals rfl
theorem at5_v6 : W5 m ρ c (Proc.devRef .tc main_v6) = Cert.ReferenceIdeal.Read.val_main_v6 (F := Ideal) (m ((c : Thread nD τ).loc main_arg1)) :=
by
  reads
  all_goals rfl
theorem at5_arg0 : W5 m ρ c (Proc.devRef .tc main_arg0) = (m ((c : Thread nD τ).loc main_arg0)) :=
by
  reads
  all_goals rfl
theorem at5_arg3 : W5 m ρ c (Proc.devRef .tc main_arg3) = (m ((c : Thread nD τ).loc main_arg3)) :=
by
  reads
  all_goals rfl
theorem at5_arg4 : W5 m ρ c (Proc.devRef .tc main_arg4) = (m ((c : Thread nD τ).loc main_arg4)) :=
by
  reads
  all_goals rfl
theorem at5_arg5 : W5 m ρ c (Proc.devRef .tc main_arg5) = (m ((c : Thread nD τ).loc main_arg5)) :=
by
  reads
  all_goals rfl
theorem at5_arg6 : W5 m ρ c (Proc.devRef .tc main_arg6) = (m ((c : Thread nD τ).loc main_arg6)) :=
by
  reads
  all_goals rfl
theorem at5_arg7 : W5 m ρ c (Proc.devRef .tc main_arg7) = (m ((c : Thread nD τ).loc main_arg7)) :=
by
  reads
  all_goals rfl
theorem at5_arg8 : W5 m ρ c (Proc.devRef .tc main_arg8) = (m ((c : Thread nD τ).loc main_arg8)) :=
by
  reads
  all_goals rfl
theorem at5_arg9 : W5 m ρ c (Proc.devRef .tc main_arg9) = (m ((c : Thread nD τ).loc main_arg9)) :=
by
  reads
  all_goals rfl
theorem at5_arg10 : W5 m ρ c (Proc.devRef .tc main_arg10) = (m ((c : Thread nD τ).loc main_arg10)) :=
by
  reads
  all_goals rfl
theorem at5_arg11 : W5 m ρ c (Proc.devRef .tc main_arg11) = (m ((c : Thread nD τ).loc main_arg11)) :=
by
  reads
  all_goals rfl
theorem at5_arg12 : W5 m ρ c (Proc.devRef .tc main_arg12) = (m ((c : Thread nD τ).loc main_arg12)) :=
by
  reads
  all_goals rfl
theorem at5_arg13 : W5 m ρ c (Proc.devRef .tc main_arg13) = (m ((c : Thread nD τ).loc main_arg13)) :=
by
  reads
  all_goals rfl
theorem at5_arg14 : W5 m ρ c (Proc.devRef .tc main_arg14) = (m ((c : Thread nD τ).loc main_arg14)) :=
by
  reads
  all_goals rfl
theorem at5_arg15 : W5 m ρ c (Proc.devRef .tc main_arg15) = (m ((c : Thread nD τ).loc main_arg15)) :=
by
  reads
  all_goals rfl
theorem at5_arg16 : W5 m ρ c (Proc.devRef .tc main_arg16) = (m ((c : Thread nD τ).loc main_arg16)) :=
by
  reads
  all_goals rfl
theorem at5_arg17 : W5 m ρ c (Proc.devRef .tc main_arg17) = (m ((c : Thread nD τ).loc main_arg17)) :=
by
  reads
  all_goals rfl
theorem at5_arg18 : W5 m ρ c (Proc.devRef .tc main_arg18) = (m ((c : Thread nD τ).loc main_arg18)) :=
by
  reads
  all_goals rfl
theorem at5_arg19 : W5 m ρ c (Proc.devRef .tc main_arg19) = (m ((c : Thread nD τ).loc main_arg19)) :=
by
  reads
  all_goals rfl
theorem at5_arg20 : W5 m ρ c (Proc.devRef .tc main_arg20) = (m ((c : Thread nD τ).loc main_arg20)) :=
by
  reads
  all_goals rfl
theorem at5_arg21 : W5 m ρ c (Proc.devRef .tc main_arg21) = (m ((c : Thread nD τ).loc main_arg21)) :=
by
  reads
  all_goals rfl
theorem at5_arg22 : W5 m ρ c (Proc.devRef .tc main_arg22) = (m ((c : Thread nD τ).loc main_arg22)) :=
by
  reads
  all_goals rfl

/-! ## After the first launch -/

theorem at6_v35 : W6 m ρ c (Proc.devRef .tc main_v35) = Cert.ReferenceIdeal.Read.val_main_v35 (F := Ideal) (m ((c : Thread nD τ).loc main_arg1)) (m ((c : Thread nD τ).loc main_arg2)) := (W6_of_ne m ρ c main_v35 (by decide)).trans (at5_v35 m ρ c)
theorem at6_v5 : W6 m ρ c (Proc.devRef .tc main_v5) = Cert.ReferenceIdeal.Read.val_main_v5 (F := Ideal) (m ((c : Thread nD τ).loc main_arg1)) := (W6_of_ne m ρ c main_v5 (by decide)).trans (at5_v5 m ρ c)
theorem at6_v6 : W6 m ρ c (Proc.devRef .tc main_v6) = Cert.ReferenceIdeal.Read.val_main_v6 (F := Ideal) (m ((c : Thread nD τ).loc main_arg1)) := (W6_of_ne m ρ c main_v6 (by decide)).trans (at5_v6 m ρ c)
theorem at6_arg4 : W6 m ρ c (Proc.devRef .tc main_arg4) = (m ((c : Thread nD τ).loc main_arg4)) := (W6_of_ne m ρ c main_arg4 (by decide)).trans (at5_arg4 m ρ c)
theorem at6_arg5 : W6 m ρ c (Proc.devRef .tc main_arg5) = (m ((c : Thread nD τ).loc main_arg5)) := (W6_of_ne m ρ c main_arg5 (by decide)).trans (at5_arg5 m ρ c)
theorem at6_arg6 : W6 m ρ c (Proc.devRef .tc main_arg6) = (m ((c : Thread nD τ).loc main_arg6)) := (W6_of_ne m ρ c main_arg6 (by decide)).trans (at5_arg6 m ρ c)
theorem at6_arg7 : W6 m ρ c (Proc.devRef .tc main_arg7) = (m ((c : Thread nD τ).loc main_arg7)) := (W6_of_ne m ρ c main_arg7 (by decide)).trans (at5_arg7 m ρ c)
theorem at6_arg8 : W6 m ρ c (Proc.devRef .tc main_arg8) = (m ((c : Thread nD τ).loc main_arg8)) := (W6_of_ne m ρ c main_arg8 (by decide)).trans (at5_arg8 m ρ c)
theorem at6_arg9 : W6 m ρ c (Proc.devRef .tc main_arg9) = (m ((c : Thread nD τ).loc main_arg9)) := (W6_of_ne m ρ c main_arg9 (by decide)).trans (at5_arg9 m ρ c)
theorem at6_arg10 : W6 m ρ c (Proc.devRef .tc main_arg10) = (m ((c : Thread nD τ).loc main_arg10)) := (W6_of_ne m ρ c main_arg10 (by decide)).trans (at5_arg10 m ρ c)
theorem at6_arg11 : W6 m ρ c (Proc.devRef .tc main_arg11) = (m ((c : Thread nD τ).loc main_arg11)) := (W6_of_ne m ρ c main_arg11 (by decide)).trans (at5_arg11 m ρ c)
theorem at6_arg12 : W6 m ρ c (Proc.devRef .tc main_arg12) = (m ((c : Thread nD τ).loc main_arg12)) := (W6_of_ne m ρ c main_arg12 (by decide)).trans (at5_arg12 m ρ c)
theorem at6_arg13 : W6 m ρ c (Proc.devRef .tc main_arg13) = (m ((c : Thread nD τ).loc main_arg13)) := (W6_of_ne m ρ c main_arg13 (by decide)).trans (at5_arg13 m ρ c)
theorem at6_arg14 : W6 m ρ c (Proc.devRef .tc main_arg14) = (m ((c : Thread nD τ).loc main_arg14)) := (W6_of_ne m ρ c main_arg14 (by decide)).trans (at5_arg14 m ρ c)
theorem at6_arg15 : W6 m ρ c (Proc.devRef .tc main_arg15) = (m ((c : Thread nD τ).loc main_arg15)) := (W6_of_ne m ρ c main_arg15 (by decide)).trans (at5_arg15 m ρ c)
theorem at6_arg16 : W6 m ρ c (Proc.devRef .tc main_arg16) = (m ((c : Thread nD τ).loc main_arg16)) := (W6_of_ne m ρ c main_arg16 (by decide)).trans (at5_arg16 m ρ c)
theorem at6_arg17 : W6 m ρ c (Proc.devRef .tc main_arg17) = (m ((c : Thread nD τ).loc main_arg17)) := (W6_of_ne m ρ c main_arg17 (by decide)).trans (at5_arg17 m ρ c)
theorem at6_arg18 : W6 m ρ c (Proc.devRef .tc main_arg18) = (m ((c : Thread nD τ).loc main_arg18)) := (W6_of_ne m ρ c main_arg18 (by decide)).trans (at5_arg18 m ρ c)
theorem at6_arg19 : W6 m ρ c (Proc.devRef .tc main_arg19) = (m ((c : Thread nD τ).loc main_arg19)) := (W6_of_ne m ρ c main_arg19 (by decide)).trans (at5_arg19 m ρ c)
theorem at6_arg20 : W6 m ρ c (Proc.devRef .tc main_arg20) = (m ((c : Thread nD τ).loc main_arg20)) := (W6_of_ne m ρ c main_arg20 (by decide)).trans (at5_arg20 m ρ c)
theorem at6_arg21 : W6 m ρ c (Proc.devRef .tc main_arg21) = (m ((c : Thread nD τ).loc main_arg21)) := (W6_of_ne m ρ c main_arg21 (by decide)).trans (at5_arg21 m ρ c)
theorem at6_arg22 : W6 m ρ c (Proc.devRef .tc main_arg22) = (m ((c : Thread nD τ).loc main_arg22)) := (W6_of_ne m ρ c main_arg22 (by decide)).trans (at5_arg22 m ρ c)

/-- The first launch's output is the product of the node features with the first weight matrix. -/
theorem at6_v36 : W6 m ρ c (Proc.devRef .tc main_v36) = Cert.ReferenceIdeal.Read.val_main_v36 (F := Ideal) (m ((c : Thread nD τ).loc main_arg0)) (m ((c : Thread nD τ).loc main_arg3)) := by
  have h := (W6_arr m ρ c 2).trans (Cert.KernelIdeal.Lin0.arr_eq (V5 m ρ) c)
  rw [show V5 m ρ c (Pipeline.arrRef spec0 0) = (m ((c : Thread nD τ).loc main_arg0)) from at5_arg0 m ρ c,
    show V5 m ρ c (Pipeline.arrRef spec0 1) = (m ((c : Thread nD τ).loc main_arg3)) from at5_arg3 m ρ c] at h
  exact h

end Cert.KernelIdeal.Stages

end
-- ==== Proof.Scalars.lean ====
/-
  The per-entry formulas of the network's dense stages, at the ideal values (extended reals, exact operations).

  Evaluation-mode batch normalisation of an entry h with scale g, shift be, running mean mm and running variance v is
  (h − mm) · (v + ε)^(−1/2) · g + be, with ε the single-precision constant nearest 10⁻⁵ (the same binary word in both
  programs, so it is never evaluated). A hidden layer then floors the value at zero; the last layer multiplies by a
  weight, adds a bias and applies the logistic function.
-/
import Idealize.ShloMosaic.PureOps.Ideal

noncomputable section

namespace Cert.Spec

open Idealize.ShloMosaic

/-- Batch normalisation of one entry. -/
def bn (h g be mm v : Ideal .f32) : Ideal .f32 :=
  (h - mm) * Ideal.rsqrt (v + Ideal.ofBits .f32 0x3727C5AC#32) * g + be

/-- Batch normalisation, then the floor at zero. -/
def bnFloor (h g be mm v : Ideal .f32) : Ideal .f32 :=
  max (bn h g be mm v) (Ideal.ofBits .f32 0x00000000#32)

/-- Batch normalisation, then weight, bias and the logistic function. -/
def bnLogistic (h g be mm v wl bl : Ideal .f32) : Ideal .f32 :=
  Ideal.logistic (bn h g be mm v * wl + bl)

end Cert.Spec

end
-- ==== Proof.Norm1.lean ====
/-
  Launch 1 of the idealized kernel: batch normalisation and the floor at zero, row block by row block.

  The launch walks 50 blocks of 2000 rows of a 100000-by-16 array. Every entry (p, q) is mapped on its own: with the
  4 parameter rows read at column q, the result is max(bn(h), 0) where
  bn(h) = (h − mm) · (v + ε)^(−1/2) · g + be. Since an entry's result depends only on that entry and on the parameter rows,
  which every block sees whole, block t of the output is block t of the same map applied to the whole array; the blocks
  tile the output, so after the launch the output array is that map of the arrays the launch found.
-/
import proofs.«127372_j14680198218392_2_alg».proof.Proof.Gen.KernelIdeal.Frame
import proofs.«127372_j14680198218392_2_alg».proof.Proof.Scalars
import Idealize.ShloMosaic.Lib.Pipeline.Value
import Idealize.ShloMosaic.Lib.ValueIdx
import Idealize.ShloMosaic.Lib.ValueLayout

set_option maxRecDepth 16384

noncomputable section

namespace Cert.KernelIdeal.Norm1

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- The launch's map of a whole 100000-by-16 array and the parameter rows, entry by entry. -/
def G (H : S100000x16.Idx → Ideal .f32) (g be mm v : S1x16.Idx → Ideal .f32) : S100000x16.Idx → Ideal .f32 :=
  fun i => Cert.Spec.bnFloor (H i) (g (ix2 (0 : Fin 1) (i 1))) (be (ix2 (0 : Fin 1) (i 1))) (mm (ix2 (0 : Fin 1) (i 1))) (v (ix2 (0 : Fin 1) (i 1)))

theorem G_apply (H : S100000x16.Idx → Ideal .f32) (g be mm v : S1x16.Idx → Ideal .f32) (p : Fin 100000) (q : Fin 16) :
    G H g be mm v (ix2 p q) = Cert.Spec.bnFloor (H (ix2 p q)) (g (ix2 (0 : Fin 1) q)) (be (ix2 (0 : Fin 1) q)) (mm (ix2 (0 : Fin 1) q)) (v (ix2 (0 : Fin 1) q)) := rfl

/-- The body's result on a 2000-row block, at row a and column b. -/
theorem pay_apply (x0 : Vec Ideal S2000x16 .f32) (x1 x2 x3 x4 : Vec Ideal S1x16 .f32) (a : Fin 2000) (b : Fin 16) :
    k1_pay1 (F := Ideal) x0 x1 x2 x3 x4 (ix2 a b)
      = Cert.Spec.bnFloor (x0 (ix2 a b)) (x1 (ix2 (0 : Fin 1) b)) (x2 (ix2 (0 : Fin 1) b)) (x3 (ix2 (0 : Fin 1) b)) (x4 (ix2 (0 : Fin 1) b)) := by
  unfold k1_pay1
  simp only [shapeCast_self, maximumf_apply, addf_apply, mulf_apply, subf_apply, broadcastTo_1b_ab_apply]
  rfl

/-- A block that holds rows 2000·T … of the array, mapped by the body, is rows 2000·T … of the whole array's map. -/
theorem block_entry (x0 : Vec Ideal S2000x16 .f32) (x1 x2 x3 x4 : Vec Ideal S1x16 .f32)
    (H : S100000x16.Idx → Ideal .f32) (g be mm v : S1x16.Idx → Ideal .f32) (T : ℕ) (hT : T < 50)
    (h0 : ∀ (a : Fin 2000) (b : Fin 16), x0 (ix2 a b) = H (ix2 ⟨T * 2000 + a.val, by omega⟩ b))
    (h1 : ∀ b : Fin 16, x1 (ix2 (0 : Fin 1) b) = g (ix2 (0 : Fin 1) b))
    (h2 : ∀ b : Fin 16, x2 (ix2 (0 : Fin 1) b) = be (ix2 (0 : Fin 1) b))
    (h3 : ∀ b : Fin 16, x3 (ix2 (0 : Fin 1) b) = mm (ix2 (0 : Fin 1) b))
    (h4 : ∀ b : Fin 16, x4 (ix2 (0 : Fin 1) b) = v (ix2 (0 : Fin 1) b))
    (a : Fin 2000) (b : Fin 16) :
    k1_pay1 (F := Ideal) x0 x1 x2 x3 x4 (ix2 a b) = G H g be mm v (ix2 ⟨T * 2000 + a.val, by omega⟩ b) := by
  rw [pay_apply, G_apply, h0, h1, h2, h3, h4]

/-! ## From the blocks to the array -/

variable (V : (c : Dev nD) → (b : Ref sig .tc) → Buf (Elt Ideal) ((c : Thread nD τ).loc b))

/-- The printed index maps over the grid: the row blocks move with the grid point, the parameter rows stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 4000000 in
/-- What grid point t writes back is block t of the map of the arrays the launch found. -/
theorem flushed_eq (c : Dev nD) (t : Fin cfg1.N) :
    (dat1 V c).flushed 5 t = ((cfg1.win 5).blk t).view.read (Elt Ideal) (G (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S2000x16) hz, View.ld_unit_zero (S := S1x16) hz]
  obtain ⟨e00, e01, e10, e11, e20, e21, e30, e31, e40, e41, e50, e51⟩ := idx_facts t
  have ht : t.val < 50 := lt_of_lt_of_eq t.isLt N_1
  funext y
  obtain ⟨a, b, rfl⟩ : ∃ (a : Fin 2000) (b : Fin 16), y = ix2 a b := ⟨y 0, y 1, eq_ix2 y⟩
  have he : ((cfg1.win 5).blk t).view.emb (ix2 a b) = (ix2 (⟨t.val * 2000 + a.val, by omega⟩ : Fin 100000) b : S100000x16.Idx) := by
    funext d; apply Fin.ext
    match d with
    | ⟨0, _⟩ => show win1_5.index t (0 : Fin 2) * 2000 + 1 * a.val = t.val * 2000 + a.val; omega
    | ⟨1, _⟩ => show win1_5.index t (1 : Fin 2) * 16 + 1 * b.val = b.val; omega
  show k1_pay1 (F := Ideal) (iblk1 V c 0 t) (iblk1 V c 1 t) (iblk1 V c 2 t) (iblk1 V c 3 t) (iblk1 V c 4 t) (ix2 a b)
    = G (V c (Pipeline.arrRef spec1 0)) (V c (Pipeline.arrRef spec1 1)) (V c (Pipeline.arrRef spec1 2)) (V c (Pipeline.arrRef spec1 3)) (V c (Pipeline.arrRef spec1 4)) (((cfg1.win 5).blk t).view.emb (ix2 a b))
  rw [he]
  refine block_entry (iblk1 V c 0 t) (iblk1 V c 1 t) (iblk1 V c 2 t) (iblk1 V c 3 t) (iblk1 V c 4 t) (V c (Pipeline.arrRef spec1 0)) (V c (Pipeline.arrRef spec1 1)) (V c (Pipeline.arrRef spec1 2)) (V c (Pipeline.arrRef spec1 3)) (V c (Pipeline.arrRef spec1 4)) t.val ht ?_ ?_ ?_ ?_ ?_ a b
  · intro a b
    show V c (Pipeline.arrRef spec1 0) (((cfg1.win 0).blk t).view.emb (ix2 a b)) = _
    refine congrArg (V c (Pipeline.arrRef spec1 0)) (funext fun d => Fin.ext ?_)
    match d with
    | ⟨0, _⟩ => show win1_0.index t (0 : Fin 2) * 2000 + 1 * a.val = t.val * 2000 + a.val; omega
    | ⟨1, _⟩ => show win1_0.index t (1 : Fin 2) * 16 + 1 * b.val = b.val; omega
  · intro b
    show V c (Pipeline.arrRef spec1 1) (((cfg1.win 1).blk t).view.emb (ix2 (0 : Fin 1) b)) = _
    refine congrArg (V c (Pipeline.arrRef spec1 1)) (funext fun d => Fin.ext ?_)
    match d with
    | ⟨0, _⟩ => show win1_1.index t (0 : Fin 2) * 1 + 1 * 0 = 0; omega
    | ⟨1, _⟩ => show win1_1.index t (1 : Fin 2) * 16 + 1 * b.val = b.val; omega
  · intro b
    show V c (Pipeline.arrRef spec1 2) (((cfg1.win 2).blk t).view.emb (ix2 (0 : Fin 1) b)) = _
    refine congrArg (V c (Pipeline.arrRef spec1 2)) (funext fun d => Fin.ext ?_)
    match d with
    | ⟨0, _⟩ => show win1_2.index t (0 : Fin 2) * 1 + 1 * 0 = 0; omega
    | ⟨1, _⟩ => show win1_2.index t (1 : Fin 2) * 16 + 1 * b.val = b.val; omega
  · intro b
    show V c (Pipeline.arrRef spec1 3) (((cfg1.win 3).blk t).view.emb (ix2 (0 : Fin 1) b)) = _
    refine congrArg (V c (Pipeline.arrRef spec1 3)) (funext fun d => Fin.ext ?_)
    match d with
    | ⟨0, _⟩ => show win1_3.index t (0 : Fin 2) * 1 + 1 * 0 = 0; omega
    | ⟨1, _⟩ => show win1_3.index t (1 : Fin 2) * 16 + 1 * b.val = b.val; omega
  · intro b
    show V c (Pipeline.arrRef spec1 4) (((cfg1.win 4).blk t).view.emb (ix2 (0 : Fin 1) b)) = _
    refine congrArg (V c (Pipeline.arrRef spec1 4)) (funext fun d => Fin.ext ?_)
    match d with
    | ⟨0, _⟩ => show win1_4.index t (0 : Fin 2) * 1 + 1 * 0 = 0; omega
    | ⟨1, _⟩ => show win1_4.index t (1 : Fin 2) * 16 + 1 * b.val = b.val; omega

/-- An index of the output array lies in point t's block iff each coordinate lies in the block's range. -/
theorem mem_blk (t : Fin cfg1.N) (i : S100000x16.Idx) :
    i ∈ ((cfg1.win 5).blk t).view.set ↔ ∀ a : Fin 2, win1_5.index t a * S2000x16.size a ≤ (i a).val ∧ (i a).val < win1_5.index t a * S2000x16.size a + S2000x16.size a := by
  show i ∈ ((View.whole main_v57).slice (win1_5.rect t)).set ↔ _
  rw [View.set_slice_whole, Rect.mem_set_unit]
  exact Iff.rfl

/-- Row r of the output lies in the block of grid point r / 2000: the blocks cover the array. -/
theorem cover (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 50 := N_1
  refine ⟨⟨(i 0).val / 2000, by rw [hN]; omega⟩, flush1_5 _, ?_⟩
  obtain ⟨-, -, -, -, -, -, -, -, -, -, eo0, eo1⟩ := idx_facts ⟨(i 0).val / 2000, by rw [hN]; omega⟩
  rw [mem_blk]
  intro a
  match a with
  | ⟨0, _⟩ => show win1_5.index _ (0 : Fin 2) * 2000 ≤ (i 0).val ∧ (i 0).val < win1_5.index _ (0 : Fin 2) * 2000 + 2000; rw [eo0]; show (i 0).val / 2000 * 2000 ≤ (i 0).val ∧ (i 0).val < (i 0).val / 2000 * 2000 + 2000; omega
  | ⟨1, _⟩ => show win1_5.index _ (1 : Fin 2) * 16 ≤ (i 1).val ∧ (i 1).val < win1_5.index _ (1 : Fin 2) * 16 + 16; rw [eo1]; omega

/-- After the launch its output array is the map of the arrays it found. -/
theorem arr_eq (c : Dev nD) : (dat1 V c).arrAt 5 cfg1.N = G (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed_eq V c t) cover

end Cert.KernelIdeal.Norm1

end
-- ==== Proof.Lin2.lean ====
/-
  Launch 2 of the idealized kernel: a row-blocked matrix product.

  The launch walks 50 blocks of 2000 rows. At block t the body multiplies rows 2000·t … 2000·t + 1999 of the
  100000-by-16 left array by the whole 16-by-4 right array (both first narrowed to bfloat16, which changes nothing at
  the ideal values) into a zero accumulator, and writes the 2000-by-4 product back as rows 2000·t … of the output array.
  Entry (p, q) of a product is the sum over k of left(p, k) · right(k, q), whether the product is taken block by
  block or once for the whole array; the blocks tile the output, so after the launch the output array is the whole
  product of the two arrays the launch found.
-/
import proofs.«127372_j14680198218392_2_alg».proof.Proof.Gen.KernelIdeal.Frame
import proofs.«127372_j14680198218392_2_alg».proof.Proof.Gen.ReferenceIdeal.Read
import proofs.«127372_j14680198218392_2_alg».proof.Proof.LibMatmul
import Idealize.ShloMosaic.Lib.Pipeline.Value
import Idealize.ShloMosaic.Lib.ValueIdx

set_option maxRecDepth 16384

noncomputable section

open scoped BigOperators

namespace Cert.KernelIdeal.Lin2

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-! ## The block product and the whole product at an entry -/

theorem kl0 (j : S2000x4.Idx) (q : dot_S2000x16_S16x4_S2000x4_1_0_0_1_n_n.contr.Idx) : (dot_S2000x16_S16x4_S2000x4_1_0_0_1_n_n.lhsIdx j q 0).val = (j 0).val := by
  unfold DotDims.lhsIdx
  rw [dif_neg (show ¬(0 : Fin S2000x16.rank) ∈ dot_S2000x16_S16x4_S2000x4_1_0_0_1_n_n.lhsBatch by decide), dif_pos (show (0 : Fin S2000x16.rank) ∈ dot_S2000x16_S16x4_S2000x4_1_0_0_1_n_n.lhsNonContracting by decide)]
  rfl
theorem kl1 (j : S2000x4.Idx) (q : dot_S2000x16_S16x4_S2000x4_1_0_0_1_n_n.contr.Idx) : (dot_S2000x16_S16x4_S2000x4_1_0_0_1_n_n.lhsIdx j q 1).val = (q ⟨0, by decide⟩).val :=
  dot_S2000x16_S16x4_S2000x4_1_0_0_1_n_n.lhsIdx_val_of_single rfl j q
theorem kr0 (j : S2000x4.Idx) (q : dot_S2000x16_S16x4_S2000x4_1_0_0_1_n_n.contr.Idx) : (dot_S2000x16_S16x4_S2000x4_1_0_0_1_n_n.rhsIdx j q 0).val = (q ⟨0, by decide⟩).val :=
  dot_S2000x16_S16x4_S2000x4_1_0_0_1_n_n.rhsIdx_val_of_single rfl j q
theorem kr1 (j : S2000x4.Idx) (q : dot_S2000x16_S16x4_S2000x4_1_0_0_1_n_n.contr.Idx) : (dot_S2000x16_S16x4_S2000x4_1_0_0_1_n_n.rhsIdx j q 1).val = (j 1).val := by
  unfold DotDims.rhsIdx
  rw [dif_neg (show ¬(1 : Fin S16x4.rank) ∈ dot_S2000x16_S16x4_S2000x4_1_0_0_1_n_n.rhsBatch by decide), dif_pos (show (1 : Fin S16x4.rank) ∈ dot_S2000x16_S16x4_S2000x4_1_0_0_1_n_n.rhsNonContracting by decide)]
  rfl

/-- The body's product of a 2000-row block with the right array, at row a and column b. -/
theorem pay_apply (x0 : Vec Ideal S2000x16 .f32) (x1 : Vec Ideal S16x4 .f32) (a : Fin 2000) (b : Fin 4) :
    k2_pay1 (F := Ideal) x0 x1 (ix2 a b) = ∑ k : Fin 16, x0 (ix2 a k) * x1 (ix2 k b) := by
  unfold k2_pay1
  refine (Cert.Lib.Matmul.matmul_zero_ix2 dot_S2000x16_S16x4_S2000x4_1_0_0_1_n_n none rfl rfl kl0 kl1 kr0 kr1 _ _ a b).trans ?_
  simp only [shapeCast_self]
  rfl

/-- The whole product of a 100000-row array with the right array, at row p and column q. -/
theorem whole_apply (X : (⟨S100000x16, .f32⟩ : BufTy).Contents (Elt Ideal)) (W : (⟨S16x4, .f32⟩ : BufTy).Contents (Elt Ideal)) (p : Fin 100000) (q : Fin 4) :
    Host.dotGeneral (F := Ideal) (φ₁ := .f32) (φ₂ := .f32) Cert.ReferenceIdeal.dot_S100000x16_S16x4_S100000x4_1_0_0_1_n_n none X W (ix2 p q) = ∑ k : Fin 16, X (ix2 p k) * W (ix2 k q) := by
  simp only [Host.dotGeneral]
  exact Cert.Lib.Matmul.dotGeneral_ix2 Cert.ReferenceIdeal.dot_S100000x16_S16x4_S100000x4_1_0_0_1_n_n none _ rfl rfl Cert.ReferenceIdeal.Read.lhs_main_v101_0 Cert.ReferenceIdeal.Read.lhs_main_v101_1 Cert.ReferenceIdeal.Read.rhs_main_v101_0 Cert.ReferenceIdeal.Read.rhs_main_v101_1 X W p q

/-- A block that holds rows 2000·T … of the left array, times the right array, is rows 2000·T … of the whole product. -/
theorem block_entry (x0 : Vec Ideal S2000x16 .f32) (x1 : Vec Ideal S16x4 .f32)
    (X : (⟨S100000x16, .f32⟩ : BufTy).Contents (Elt Ideal)) (W : (⟨S16x4, .f32⟩ : BufTy).Contents (Elt Ideal)) (T : ℕ) (hT : T < 50)
    (h0 : ∀ (a : Fin 2000) (k : Fin 16), x0 (ix2 a k) = X (ix2 ⟨T * 2000 + a.val, by omega⟩ k))
    (h1 : ∀ (k : Fin 16) (b : Fin 4), x1 (ix2 k b) = W (ix2 k b)) (a : Fin 2000) (b : Fin 4) :
    k2_pay1 (F := Ideal) x0 x1 (ix2 a b) = Host.dotGeneral (F := Ideal) (φ₁ := .f32) (φ₂ := .f32) Cert.ReferenceIdeal.dot_S100000x16_S16x4_S100000x4_1_0_0_1_n_n none X W (ix2 ⟨T * 2000 + a.val, by omega⟩ b) := by
  rw [pay_apply, whole_apply]
  exact Finset.sum_congr rfl fun k _ => by rw [h0, h1]

/-! ## From the blocks to the array -/

variable (V : (c : Dev nD) → (b : Ref sig .tc) → Buf (Elt Ideal) ((c : Thread nD τ).loc b))

/-- The printed index maps over the grid: the row blocks move with the grid point, the right array stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 4000000 in
/-- What grid point t writes back is block t of the whole product of the arrays the launch found. -/
theorem flushed_eq (c : Dev nD) (t : Fin cfg2.N) :
    (dat2 V c).flushed 2 t = ((cfg2.win 2).blk t).view.read (Elt Ideal)
      (Host.dotGeneral (F := Ideal) (φ₁ := .f32) (φ₂ := .f32) Cert.ReferenceIdeal.dot_S100000x16_S16x4_S100000x4_1_0_0_1_n_n none (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2000x16) hz, View.ld_unit_zero (S := S16x4) hz]
  obtain ⟨e00, e01, e10, e11, e20, e21⟩ := idx_facts t
  have ht : t.val < 50 := lt_of_lt_of_eq t.isLt N_2
  funext y
  obtain ⟨a, b, rfl⟩ : ∃ (a : Fin 2000) (b : Fin 4), y = ix2 a b := ⟨y 0, y 1, eq_ix2 y⟩
  have he : ((cfg2.win 2).blk t).view.emb (ix2 a b) = (ix2 (⟨t.val * 2000 + a.val, by omega⟩ : Fin 100000) b : S100000x4.Idx) := by
    funext d; apply Fin.ext
    match d with
    | ⟨0, _⟩ => show win2_2.index t (0 : Fin 2) * 2000 + 1 * a.val = t.val * 2000 + a.val; omega
    | ⟨1, _⟩ => show win2_2.index t (1 : Fin 2) * 4 + 1 * b.val = b.val; omega
  show k2_pay1 (F := Ideal) (iblk2 V c 0 t) (iblk2 V c 1 t) (ix2 a b)
    = Host.dotGeneral (F := Ideal) (φ₁ := .f32) (φ₂ := .f32) Cert.ReferenceIdeal.dot_S100000x16_S16x4_S100000x4_1_0_0_1_n_n none (V c (Pipeline.arrRef spec2 0)) (V c (Pipeline.arrRef spec2 1)) (((cfg2.win 2).blk t).view.emb (ix2 a b))
  rw [he]
  refine block_entry (iblk2 V c 0 t) (iblk2 V c 1 t) (V c (Pipeline.arrRef spec2 0)) (V c (Pipeline.arrRef spec2 1)) t.val ht ?_ ?_ a b
  · intro a k
    show V c (Pipeline.arrRef spec2 0) (((cfg2.win 0).blk t).view.emb (ix2 a k)) = _
    refine congrArg (V c (Pipeline.arrRef spec2 0)) (funext fun d => Fin.ext ?_)
    match d with
    | ⟨0, _⟩ => show win2_0.index t (0 : Fin 2) * 2000 + 1 * a.val = t.val * 2000 + a.val; omega
    | ⟨1, _⟩ => show win2_0.index t (1 : Fin 2) * 16 + 1 * k.val = k.val; omega
  · intro k b
    show V c (Pipeline.arrRef spec2 1) (((cfg2.win 1).blk t).view.emb (ix2 k b)) = _
    refine congrArg (V c (Pipeline.arrRef spec2 1)) (funext fun d => Fin.ext ?_)
    match d with
    | ⟨0, _⟩ => show win2_1.index t (0 : Fin 2) * 16 + 1 * k.val = k.val; omega
    | ⟨1, _⟩ => show win2_1.index t (1 : Fin 2) * 4 + 1 * b.val = b.val; omega

/-- An index of the output array lies in point t's block iff each coordinate lies in the block's range. -/
theorem mem_blk (t : Fin cfg2.N) (i : S100000x4.Idx) :
    i ∈ ((cfg2.win 2).blk t).view.set ↔ ∀ a : Fin 2, win2_2.index t a * S2000x4.size a ≤ (i a).val ∧ (i a).val < win2_2.index t a * S2000x4.size a + S2000x4.size a := by
  show i ∈ ((View.whole main_v58).slice (win2_2.rect t)).set ↔ _
  rw [View.set_slice_whole, Rect.mem_set_unit]
  exact Iff.rfl

/-- Row r of the output lies in the block of grid point r / 2000: the blocks cover the array. -/
theorem cover (i : S100000x4.Idx) : ∃ t : Fin cfg2.N, (cfg2.win 2).flush t = true ∧ i ∈ ((cfg2.win 2).blk t).view.set := by
  have hi0 : (i 0).val < 100000 := (i 0).isLt
  have hi1 : (i 1).val < 4 := (i 1).isLt
  have hN : cfg2.N = 50 := N_2
  refine ⟨⟨(i 0).val / 2000, by rw [hN]; omega⟩, flush2_2 _, ?_⟩
  obtain ⟨-, -, -, -, e20, e21⟩ := idx_facts ⟨(i 0).val / 2000, by rw [hN]; omega⟩
  rw [mem_blk]
  intro a
  match a with
  | ⟨0, _⟩ => show win2_2.index _ (0 : Fin 2) * 2000 ≤ (i 0).val ∧ (i 0).val < win2_2.index _ (0 : Fin 2) * 2000 + 2000; rw [e20]; show (i 0).val / 2000 * 2000 ≤ (i 0).val ∧ (i 0).val < (i 0).val / 2000 * 2000 + 2000; omega
  | ⟨1, _⟩ => show win2_2.index _ (1 : Fin 2) * 4 ≤ (i 1).val ∧ (i 1).val < win2_2.index _ (1 : Fin 2) * 4 + 4; rw [e21]; omega

/-- After the launch its output array is the whole product of the two arrays it found. -/
theorem arr_eq (c : Dev nD) :
    (dat2 V c).arrAt 2 cfg2.N
      = Host.dotGeneral (F := Ideal) (φ₁ := .f32) (φ₂ := .f32) Cert.ReferenceIdeal.dot_S100000x16_S16x4_S100000x4_1_0_0_1_n_n none (V c (Pipeline.arrRef spec2 0)) (V c (Pipeline.arrRef spec2 1)) :=
  (dat2 V c).arrAt_eq_of_cover 2 _ (fun t _ => flushed_eq V c t) cover

end Cert.KernelIdeal.Lin2

end
-- ==== Proof.Norm3.lean ====
/-
  Launch 3 of the idealized kernel: batch normalisation and the floor at zero, row block by row block.

  The launch walks 50 blocks of 2000 rows of a 100000-by-4 array. Every entry (p, q) is mapped on its own: with the
  4 parameter rows read at column q, the result is max(bn(h), 0) where
  bn(h) = (h − mm) · (v + ε)^(−1/2) · g + be. Since an entry's result depends only on that entry and on the parameter rows,
  which every block sees whole, block t of the output is block t of the same map applied to the whole array; the blocks
  tile the output, so after the launch the output array is that map of the arrays the launch found.
-/
import proofs.«127372_j14680198218392_2_alg».proof.Proof.Gen.KernelIdeal.Frame
import proofs.«127372_j14680198218392_2_alg».proof.Proof.Scalars
import Idealize.ShloMosaic.Lib.Pipeline.Value
import Idealize.ShloMosaic.Lib.ValueIdx
import Idealize.ShloMosaic.Lib.ValueLayout

set_option maxRecDepth 16384

noncomputable section

namespace Cert.KernelIdeal.Norm3

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- The launch's map of a whole 100000-by-4 array and the parameter rows, entry by entry. -/
def G (H : S100000x4.Idx → Ideal .f32) (g be mm v : S1x4.Idx → Ideal .f32) : S100000x4.Idx → Ideal .f32 :=
  fun i => Cert.Spec.bnFloor (H i) (g (ix2 (0 : Fin 1) (i 1))) (be (ix2 (0 : Fin 1) (i 1))) (mm (ix2 (0 : Fin 1) (i 1))) (v (ix2 (0 : Fin 1) (i 1)))

theorem G_apply (H : S100000x4.Idx → Ideal .f32) (g be mm v : S1x4.Idx → Ideal .f32) (p : Fin 100000) (q : Fin 4) :
    G H g be mm v (ix2 p q) = Cert.Spec.bnFloor (H (ix2 p q)) (g (ix2 (0 : Fin 1) q)) (be (ix2 (0 : Fin 1) q)) (mm (ix2 (0 : Fin 1) q)) (v (ix2 (0 : Fin 1) q)) := rfl

/-- The body's result on a 2000-row block, at row a and column b. -/
theorem pay_apply (x0 : Vec Ideal S2000x4 .f32) (x1 x2 x3 x4 : Vec Ideal S1x4 .f32) (a : Fin 2000) (b : Fin 4) :
    k3_pay1 (F := Ideal) x0 x1 x2 x3 x4 (ix2 a b)
      = Cert.Spec.bnFloor (x0 (ix2 a b)) (x1 (ix2 (0 : Fin 1) b)) (x2 (ix2 (0 : Fin 1) b)) (x3 (ix2 (0 : Fin 1) b)) (x4 (ix2 (0 : Fin 1) b)) := by
  unfold k3_pay1
  simp only [shapeCast_self, maximumf_apply, addf_apply, mulf_apply, subf_apply, broadcastTo_1b_ab_apply]
  rfl

/-- A block that holds rows 2000·T … of the array, mapped by the body, is rows 2000·T … of the whole array's map. -/
theorem block_entry (x0 : Vec Ideal S2000x4 .f32) (x1 x2 x3 x4 : Vec Ideal S1x4 .f32)
    (H : S100000x4.Idx → Ideal .f32) (g be mm v : S1x4.Idx → Ideal .f32) (T : ℕ) (hT : T < 50)
    (h0 : ∀ (a : Fin 2000) (b : Fin 4), x0 (ix2 a b) = H (ix2 ⟨T * 2000 + a.val, by omega⟩ b))
    (h1 : ∀ b : Fin 4, x1 (ix2 (0 : Fin 1) b) = g (ix2 (0 : Fin 1) b))
    (h2 : ∀ b : Fin 4, x2 (ix2 (0 : Fin 1) b) = be (ix2 (0 : Fin 1) b))
    (h3 : ∀ b : Fin 4, x3 (ix2 (0 : Fin 1) b) = mm (ix2 (0 : Fin 1) b))
    (h4 : ∀ b : Fin 4, x4 (ix2 (0 : Fin 1) b) = v (ix2 (0 : Fin 1) b))
    (a : Fin 2000) (b : Fin 4) :
    k3_pay1 (F := Ideal) x0 x1 x2 x3 x4 (ix2 a b) = G H g be mm v (ix2 ⟨T * 2000 + a.val, by omega⟩ b) := by
  rw [pay_apply, G_apply, h0, h1, h2, h3, h4]

/-! ## From the blocks to the array -/

variable (V : (c : Dev nD) → (b : Ref sig .tc) → Buf (Elt Ideal) ((c : Thread nD τ).loc b))

/-- The printed index maps over the grid: the row blocks move with the grid point, the parameter rows stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 4000000 in
/-- What grid point t writes back is block t of the map of the arrays the launch found. -/
theorem flushed_eq (c : Dev nD) (t : Fin cfg3.N) :
    (dat3 V c).flushed 5 t = ((cfg3.win 5).blk t).view.read (Elt Ideal) (G (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero hz]
  simp only [View.ld_unit_zero (S := S2000x4) hz, View.ld_unit_zero (S := S1x4) hz]
  obtain ⟨e00, e01, e10, e11, e20, e21, e30, e31, e40, e41, e50, e51⟩ := idx_facts t
  have ht : t.val < 50 := lt_of_lt_of_eq t.isLt N_3
  funext y
  obtain ⟨a, b, rfl⟩ : ∃ (a : Fin 2000) (b : Fin 4), y = ix2 a b := ⟨y 0, y 1, eq_ix2 y⟩
  have he : ((cfg3.win 5).blk t).view.emb (ix2 a b) = (ix2 (⟨t.val * 2000 + a.val, by omega⟩ : Fin 100000) b : S100000x4.Idx) := by
    funext d; apply Fin.ext
    match d with
    | ⟨0, _⟩ => show win3_5.index t (0 : Fin 2) * 2000 + 1 * a.val = t.val * 2000 + a.val; omega
    | ⟨1, _⟩ => show win3_5.index t (1 : Fin 2) * 4 + 1 * b.val = b.val; omega
  show k3_pay1 (F := Ideal) (iblk3 V c 0 t) (iblk3 V c 1 t) (iblk3 V c 2 t) (iblk3 V c 3 t) (iblk3 V c 4 t) (ix2 a b)
    = G (V c (Pipeline.arrRef spec3 0)) (V c (Pipeline.arrRef spec3 1)) (V c (Pipeline.arrRef spec3 2)) (V c (Pipeline.arrRef spec3 3)) (V c (Pipeline.arrRef spec3 4)) (((cfg3.win 5).blk t).view.emb (ix2 a b))
  rw [he]
  refine block_entry (iblk3 V c 0 t) (iblk3 V c 1 t) (iblk3 V c 2 t) (iblk3 V c 3 t) (iblk3 V c 4 t) (V c (Pipeline.arrRef spec3 0)) (V c (Pipeline.arrRef spec3 1)) (V c (Pipeline.arrRef spec3 2)) (V c (Pipeline.arrRef spec3 3)) (V c (Pipeline.arrRef spec3 4)) t.val ht ?_ ?_ ?_ ?_ ?_ a b
  · intro a b
    show V c (Pipeline.arrRef spec3 0) (((cfg3.win 0).blk t).view.emb (ix2 a b)) = _
    refine congrArg (V c (Pipeline.arrRef spec3 0)) (funext fun d => Fin.ext ?_)
    match d with
    | ⟨0, _⟩ => show win3_0.index t (0 : Fin 2) * 2000 + 1 * a.val = t.val * 2000 + a.val; omega
    | ⟨1, _⟩ => show win3_0.index t (1 : Fin 2) * 4 + 1 * b.val = b.val; omega
  · intro b
    show V c (Pipeline.arrRef spec3 1) (((cfg3.win 1).blk t).view.emb (ix2 (0 : Fin 1) b)) = _
    refine congrArg (V c (Pipeline.arrRef spec3 1)) (funext fun d => Fin.ext ?_)
    match d with
    | ⟨0, _⟩ => show win3_1.index t (0 : Fin 2) * 1 + 1 * 0 = 0; omega
    | ⟨1, _⟩ => show win3_1.index t (1 : Fin 2) * 4 + 1 * b.val = b.val; omega
  · intro b
    show V c (Pipeline.arrRef spec3 2) (((cfg3.win 2).blk t).view.emb (ix2 (0 : Fin 1) b)) = _
    refine congrArg (V c (Pipeline.arrRef spec3 2)) (funext fun d => Fin.ext ?_)
    match d with
    | ⟨0, _⟩ => show win3_2.index t (0 : Fin 2) * 1 + 1 * 0 = 0; omega
    | ⟨1, _⟩ => show win3_2.index t (1 : Fin 2) * 4 + 1 * b.val = b.val; omega
  · intro b
    show V c (Pipeline.arrRef spec3 3) (((cfg3.win 3).blk t).view.emb (ix2 (0 : Fin 1) b)) = _
    refine congrArg (V c (Pipeline.arrRef spec3 3)) (funext fun d => Fin.ext ?_)
    match d with
    | ⟨0, _⟩ => show win3_3.index t (0 : Fin 2) * 1 + 1 * 0 = 0; omega
    | ⟨1, _⟩ => show win3_3.index t (1 : Fin 2) * 4 + 1 * b.val = b.val; omega
  · intro b
    show V c (Pipeline.arrRef spec3 4) (((cfg3.win 4).blk t).view.emb (ix2 (0 : Fin 1) b)) = _
    refine congrArg (V c (Pipeline.arrRef spec3 4)) (funext fun d => Fin.ext ?_)
    match d with
    | ⟨0, _⟩ => show win3_4.index t (0 : Fin 2) * 1 + 1 * 0 = 0; omega
    | ⟨1, _⟩ => show win3_4.index t (1 : Fin 2) * 4 + 1 * b.val = b.val; omega

/-- An index of the output array lies in point t's block iff each coordinate lies in the block's range. -/
theorem mem_blk (t : Fin cfg3.N) (i : S100000x4.Idx) :
    i ∈ ((cfg3.win 5).blk t).view.set ↔ ∀ a : Fin 2, win3_5.index t a * S2000x4.size a ≤ (i a).val ∧ (i a).val < win3_5.index t a * S2000x4.size a + S2000x4.size a := by
  show i ∈ ((View.whole main_v79).slice (win3_5.rect t)).set ↔ _
  rw [View.set_slice_whole, Rect.mem_set_unit]
  exact Iff.rfl

/-- Row r of the output lies in the block of grid point r / 2000: the blocks cover the array. -/
theorem cover (i : S100000x4.Idx) : ∃ t : Fin cfg3.N, (cfg3.win 5).flush t = true ∧ i ∈ ((cfg3.win 5).blk t).view.set := by
  have hi0 : (i 0).val < 100000 := (i 0).isLt
  have hi1 : (i 1).val < 4 := (i 1).isLt
  have hN : cfg3.N = 50 := N_3
  refine ⟨⟨(i 0).val / 2000, by rw [hN]; omega⟩, flush3_5 _, ?_⟩
  obtain ⟨-, -, -, -, -, -, -, -, -, -, eo0, eo1⟩ := idx_facts ⟨(i 0).val / 2000, by rw [hN]; omega⟩
  rw [mem_blk]
  intro a
  match a with
  | ⟨0, _⟩ => show win3_5.index _ (0 : Fin 2) * 2000 ≤ (i 0).val ∧ (i 0).val < win3_5.index _ (0 : Fin 2) * 2000 + 2000; rw [eo0]; show (i 0).val / 2000 * 2000 ≤ (i 0).val ∧ (i 0).val < (i 0).val / 2000 * 2000 + 2000; omega
  | ⟨1, _⟩ => show win3_5.index _ (1 : Fin 2) * 4 ≤ (i 1).val ∧ (i 1).val < win3_5.index _ (1 : Fin 2) * 4 + 4; rw [eo1]; omega

/-- After the launch its output array is the map of the arrays it found. -/
theorem arr_eq (c : Dev nD) : (dat3 V c).arrAt 5 cfg3.N = G (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed_eq V c t) cover

end Cert.KernelIdeal.Norm3

end
-- ==== Proof.Norm5.lean ====
/-
  Launch 5 of the idealized kernel: batch normalisation, the last 1-by-1 linear map and the logistic function, row block by row block.

  The launch walks 50 blocks of 2000 rows of a 100000-by-1 array. Every entry (p, q) is mapped on its own: with the
  6 parameter rows read at column q, the result is logistic(bn(h) · wl + bl) where
  bn(h) = (h − mm) · (v + ε)^(−1/2) · g + be. Since an entry's result depends only on that entry and on the parameter rows,
  which every block sees whole, block t of the output is block t of the same map applied to the whole array; the blocks
  tile the output, so after the launch the output array is that map of the arrays the launch found.
-/
import proofs.«127372_j14680198218392_2_alg».proof.Proof.Gen.KernelIdeal.Frame
import proofs.«127372_j14680198218392_2_alg».proof.Proof.Scalars
import Idealize.ShloMosaic.Lib.Pipeline.Value
import Idealize.ShloMosaic.Lib.ValueIdx
import Idealize.ShloMosaic.Lib.ValueLayout

set_option maxRecDepth 16384

noncomputable section

namespace Cert.KernelIdeal.Norm5

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-- The launch's map of a whole 100000-by-1 array and the parameter rows, entry by entry. -/
def G (H : S100000x1.Idx → Ideal .f32) (g be mm v wl bl : S1x1.Idx → Ideal .f32) : S100000x1.Idx → Ideal .f32 :=
  fun i => Cert.Spec.bnLogistic (H i) (g (ix2 (0 : Fin 1) (i 1))) (be (ix2 (0 : Fin 1) (i 1))) (mm (ix2 (0 : Fin 1) (i 1))) (v (ix2 (0 : Fin 1) (i 1))) (wl (ix2 (0 : Fin 1) (i 1))) (bl (ix2 (0 : Fin 1) (i 1)))

theorem G_apply (H : S100000x1.Idx → Ideal .f32) (g be mm v wl bl : S1x1.Idx → Ideal .f32) (p : Fin 100000) (q : Fin 1) :
    G H g be mm v wl bl (ix2 p q) = Cert.Spec.bnLogistic (H (ix2 p q)) (g (ix2 (0 : Fin 1) q)) (be (ix2 (0 : Fin 1) q)) (mm (ix2 (0 : Fin 1) q)) (v (ix2 (0 : Fin 1) q)) (wl (ix2 (0 : Fin 1) q)) (bl (ix2 (0 : Fin 1) q)) := rfl

theorem logistic_apply {s : Shape} (v : FVec Ideal s .f32) (i : s.Idx) : logistic v i = FloatOps.logistic (v i) := rfl

/-- The body's result on a 2000-row block, at row a and column b. -/
theorem pay_apply (x0 : Vec Ideal S2000x1 .f32) (x1 x2 x3 x4 x5 x6 : Vec Ideal S1x1 .f32) (a : Fin 2000) (b : Fin 1) :
    k5_pay1 (F := Ideal) x0 x1 x2 x3 x4 x5 x6 (ix2 a b)
      = Cert.Spec.bnLogistic (x0 (ix2 a b)) (x1 (ix2 (0 : Fin 1) b)) (x2 (ix2 (0 : Fin 1) b)) (x3 (ix2 (0 : Fin 1) b)) (x4 (ix2 (0 : Fin 1) b)) (x5 (ix2 (0 : Fin 1) b)) (x6 (ix2 (0 : Fin 1) b)) := by
  unfold k5_pay1
  simp only [shapeCast_self, logistic_apply, addf_apply, mulf_apply, subf_apply, broadcastTo_1b_ab_apply]
  rfl

/-- A block that holds rows 2000·T … of the array, mapped by the body, is rows 2000·T … of the whole array's map. -/
theorem block_entry (x0 : Vec Ideal S2000x1 .f32) (x1 x2 x3 x4 x5 x6 : Vec Ideal S1x1 .f32)
    (H : S100000x1.Idx → Ideal .f32) (g be mm v wl bl : S1x1.Idx → Ideal .f32) (T : ℕ) (hT : T < 50)
    (h0 : ∀ (a : Fin 2000) (b : Fin 1), x0 (ix2 a b) = H (ix2 ⟨T * 2000 + a.val, by omega⟩ b))
    (h1 : ∀ b : Fin 1, x1 (ix2 (0 : Fin 1) b) = g (ix2 (0 : Fin 1) b))
    (h2 : ∀ b : Fin 1, x2 (ix2 (0 : Fin 1) b) = be (ix2 (0 : Fin 1) b))
    (h3 : ∀ b : Fin 1, x3 (ix2 (0 : Fin 1) b) = mm (ix2 (0 : Fin 1) b))
    (h4 : ∀ b : Fin 1, x4 (ix2 (0 : Fin 1) b) = v (ix2 (0 : Fin 1) b))
    (h5 : ∀ b : Fin 1, x5 (ix2 (0 : Fin 1) b) = wl (ix2 (0 : Fin 1) b))
    (h6 : ∀ b : Fin 1, x6 (ix2 (0 : Fin 1) b) = bl (ix2 (0 : Fin 1) b))
    (a : Fin 2000) (b : Fin 1) :
    k5_pay1 (F := Ideal) x0 x1 x2 x3 x4 x5 x6 (ix2 a b) = G H g be mm v wl bl (ix2 ⟨T * 2000 + a.val, by omega⟩ b) := by
  rw [pay_apply, G_apply, h0, h1, h2, h3, h4, h5, h6]

/-! ## From the blocks to the array -/

variable (V : (c : Dev nD) → (b : Ref sig .tc) → Buf (Elt Ideal) ((c : Thread nD τ).loc b))

/-- The printed index maps over the grid: the row blocks move with the grid point, the parameter rows stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

set_option maxHeartbeats 4000000 in
/-- What grid point t writes back is block t of the map of the arrays the launch found. -/
theorem flushed_eq (c : Dev nD) (t : Fin cfg5.N) :
    (dat5 V c).flushed 7 t = ((cfg5.win 7).blk t).view.read (Elt Ideal) (G (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6))) := by
  show (cfg5.win 7).cut (grid5.coords t) ((dat5 V c).after 7 t) = _
  rw [after5_7]
  unfold out5_7
  rw [View.canon_unit_zero hz]
  simp only [View.ld_unit_zero (S := S2000x1) hz, View.ld_unit_zero (S := S1x1) hz]
  obtain ⟨e00, e01, e10, e11, e20, e21, e30, e31, e40, e41, e50, e51, e60, e61, e70, e71⟩ := idx_facts t
  have ht : t.val < 50 := lt_of_lt_of_eq t.isLt N_5
  funext y
  obtain ⟨a, b, rfl⟩ : ∃ (a : Fin 2000) (b : Fin 1), y = ix2 a b := ⟨y 0, y 1, eq_ix2 y⟩
  have he : ((cfg5.win 7).blk t).view.emb (ix2 a b) = (ix2 (⟨t.val * 2000 + a.val, by omega⟩ : Fin 100000) b : S100000x1.Idx) := by
    funext d; apply Fin.ext
    match d with
    | ⟨0, _⟩ => show win5_7.index t (0 : Fin 2) * 2000 + 1 * a.val = t.val * 2000 + a.val; omega
    | ⟨1, _⟩ => show win5_7.index t (1 : Fin 2) * 1 + 1 * b.val = b.val; omega
  show k5_pay1 (F := Ideal) (iblk5 V c 0 t) (iblk5 V c 1 t) (iblk5 V c 2 t) (iblk5 V c 3 t) (iblk5 V c 4 t) (iblk5 V c 5 t) (iblk5 V c 6 t) (ix2 a b)
    = G (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) (((cfg5.win 7).blk t).view.emb (ix2 a b))
  rw [he]
  refine block_entry (iblk5 V c 0 t) (iblk5 V c 1 t) (iblk5 V c 2 t) (iblk5 V c 3 t) (iblk5 V c 4 t) (iblk5 V c 5 t) (iblk5 V c 6 t) (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) t.val ht ?_ ?_ ?_ ?_ ?_ ?_ ?_ a b
  · intro a b
    show V c (Pipeline.arrRef spec5 0) (((cfg5.win 0).blk t).view.emb (ix2 a b)) = _
    refine congrArg (V c (Pipeline.arrRef spec5 0)) (funext fun d => Fin.ext ?_)
    match d with
    | ⟨0, _⟩ => show win5_0.index t (0 : Fin 2) * 2000 + 1 * a.val = t.val * 2000 + a.val; omega
    | ⟨1, _⟩ => show win5_0.index t (1 : Fin 2) * 1 + 1 * b.val = b.val; omega
  · intro b
    show V c (Pipeline.arrRef spec5 1) (((cfg5.win 1).blk t).view.emb (ix2 (0 : Fin 1) b)) = _
    refine congrArg (V c (Pipeline.arrRef spec5 1)) (funext fun d => Fin.ext ?_)
    match d with
    | ⟨0, _⟩ => show win5_1.index t (0 : Fin 2) * 1 + 1 * 0 = 0; omega
    | ⟨1, _⟩ => show win5_1.index t (1 : Fin 2) * 1 + 1 * b.val = b.val; omega
  · intro b
    show V c (Pipeline.arrRef spec5 2) (((cfg5.win 2).blk t).view.emb (ix2 (0 : Fin 1) b)) = _
    refine congrArg (V c (Pipeline.arrRef spec5 2)) (funext fun d => Fin.ext ?_)
    match d with
    | ⟨0, _⟩ => show win5_2.index t (0 : Fin 2) * 1 + 1 * 0 = 0; omega
    | ⟨1, _⟩ => show win5_2.index t (1 : Fin 2) * 1 + 1 * b.val = b.val; omega
  · intro b
    show V c (Pipeline.arrRef spec5 3) (((cfg5.win 3).blk t).view.emb (ix2 (0 : Fin 1) b)) = _
    refine congrArg (V c (Pipeline.arrRef spec5 3)) (funext fun d => Fin.ext ?_)
    match d with
    | ⟨0, _⟩ => show win5_3.index t (0 : Fin 2) * 1 + 1 * 0 = 0; omega
    | ⟨1, _⟩ => show win5_3.index t (1 : Fin 2) * 1 + 1 * b.val = b.val; omega
  · intro b
    show V c (Pipeline.arrRef spec5 4) (((cfg5.win 4).blk t).view.emb (ix2 (0 : Fin 1) b)) = _
    refine congrArg (V c (Pipeline.arrRef spec5 4)) (funext fun d => Fin.ext ?_)
    match d with
    | ⟨0, _⟩ => show win5_4.index t (0 : Fin 2) * 1 + 1 * 0 = 0; omega
    | ⟨1, _⟩ => show win5_4.index t (1 : Fin 2) * 1 + 1 * b.val = b.val; omega
  · intro b
    show V c (Pipeline.arrRef spec5 5) (((cfg5.win 5).blk t).view.emb (ix2 (0 : Fin 1) b)) = _
    refine congrArg (V c (Pipeline.arrRef spec5 5)) (funext fun d => Fin.ext ?_)
    match d with
    | ⟨0, _⟩ => show win5_5.index t (0 : Fin 2) * 1 + 1 * 0 = 0; omega
    | ⟨1, _⟩ => show win5_5.index t (1 : Fin 2) * 1 + 1 * b.val = b.val; omega
  · intro b
    show V c (Pipeline.arrRef spec5 6) (((cfg5.win 6).blk t).view.emb (ix2 (0 : Fin 1) b)) = _
    refine congrArg (V c (Pipeline.arrRef spec5 6)) (funext fun d => Fin.ext ?_)
    match d with
    | ⟨0, _⟩ => show win5_6.index t (0 : Fin 2) * 1 + 1 * 0 = 0; omega
    | ⟨1, _⟩ => show win5_6.index t (1 : Fin 2) * 1 + 1 * b.val = b.val; omega

/-- An index of the output array lies in point t's block iff each coordinate lies in the block's range. -/
theorem mem_blk (t : Fin cfg5.N) (i : S100000x1.Idx) :
    i ∈ ((cfg5.win 7).blk t).view.set ↔ ∀ a : Fin 2, win5_7.index t a * S2000x1.size a ≤ (i a).val ∧ (i a).val < win5_7.index t a * S2000x1.size a + S2000x1.size a := by
  show i ∈ ((View.whole main_v101).slice (win5_7.rect t)).set ↔ _
  rw [View.set_slice_whole, Rect.mem_set_unit]
  exact Iff.rfl

/-- Row r of the output lies in the block of grid point r / 2000: the blocks cover the array. -/
theorem cover (i : S100000x1.Idx) : ∃ t : Fin cfg5.N, (cfg5.win 7).flush t = true ∧ i ∈ ((cfg5.win 7).blk t).view.set := by
  have hi0 : (i 0).val < 100000 := (i 0).isLt
  have hi1 : (i 1).val < 1 := (i 1).isLt
  have hN : cfg5.N = 50 := N_5
  refine ⟨⟨(i 0).val / 2000, by rw [hN]; omega⟩, flush5_7 _, ?_⟩
  obtain ⟨-, -, -, -, -, -, -, -, -, -, -, -, -, -, eo0, eo1⟩ := idx_facts ⟨(i 0).val / 2000, by rw [hN]; omega⟩
  rw [mem_blk]
  intro a
  match a with
  | ⟨0, _⟩ => show win5_7.index _ (0 : Fin 2) * 2000 ≤ (i 0).val ∧ (i 0).val < win5_7.index _ (0 : Fin 2) * 2000 + 2000; rw [eo0]; show (i 0).val / 2000 * 2000 ≤ (i 0).val ∧ (i 0).val < (i 0).val / 2000 * 2000 + 2000; omega
  | ⟨1, _⟩ => show win5_7.index _ (1 : Fin 2) * 1 ≤ (i 1).val ∧ (i 1).val < win5_7.index _ (1 : Fin 2) * 1 + 1; rw [eo1]; omega

/-- After the launch its output array is the map of the arrays it found. -/
theorem arr_eq (c : Dev nD) : (dat5 V c).arrAt 7 cfg5.N = G (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) (V c (Pipeline.arrRef spec5 6)) :=
  (dat5 V c).arrAt_eq_of_cover 7 _ (fun t _ => flushed_eq V c t) cover

end Cert.KernelIdeal.Norm5

end
-- ==== Proof.Bridges.lean ====
/-
  The kernel's entry-wise maps against the reference's normalisation stages.

  The reference normalises with length-c parameter vectors broadcast first to a 1-by-c row and then down the 100000
  rows; the kernel reshapes each vector to a 1-by-c row on the host and broadcasts the row inside each block. Read at an
  entry (p, q) both take the vector's entry q. The operations between are the same in the same order — subtract the mean,
  multiply by (variance + ε)^(−1/2), by the scale, add the shift — so the two sides are one expression of the same
  numbers, whatever array H they are applied to. For the last layer the reference's 1-by-1 matrix product is a sum of one
  term, the product the kernel takes, and its logistic function is spelt 1 / (1 + e^(−x)), which is the definition of
  the kernel's (the float word of 1.0 being the real number 1).
-/
import proofs.«127372_j14680198218392_2_alg».proof.Proof.Gen.ReferenceIdeal.Read
import proofs.«127372_j14680198218392_2_alg».proof.Proof.Norm1
import proofs.«127372_j14680198218392_2_alg».proof.Proof.Norm3
import proofs.«127372_j14680198218392_2_alg».proof.Proof.Norm5
import proofs.«127372_j14680198218392_2_alg».proof.Proof.LibMatmul
import Idealize.ShloMosaic.Lib.ValueLayout
import Idealize.ShloMosaic.Lib.IdealHost

set_option maxRecDepth 16384
set_option maxHeartbeats 1600000

noncomputable section

open scoped BigOperators

namespace Cert.Bridges

open Idealize.ShloMosaic Idealize.ShloMosaic.ValueIdx

/-! ## Host operations read at an index -/

theorem hostDivf_apply {s : Shape} {φ : FTy} (a b : FVec Ideal s φ) (i : s.Idx) : Host.divf a b i = FloatOps.hostDivf (a i) (b i) := rfl
theorem hostExp_apply {s : Shape} {φ : FTy} (a : FVec Ideal s φ) (i : s.Idx) : Host.exp a i = FloatOps.hostUnary .exp (a i) := rfl
theorem hostNegf_apply {s : Shape} {φ : FTy} (a : FVec Ideal s φ) (i : s.Idx) : Host.negf a i = FloatOps.hostNegf (a i) := rfl

/-- A 100000-by-1 array times a 1-by-1 array: each entry times the one weight. -/
theorem dot11_apply (Y : FVec Ideal Cert.ReferenceIdeal.S100000x1 .f32) (W : FVec Ideal Cert.ReferenceIdeal.S1x1 .f32) (p : Fin 100000) :
    Host.dotGeneral (F := Ideal) (φ₁ := .f32) (φ₂ := .f32) Cert.ReferenceIdeal.dot_S100000x1_S1x1_S100000x1_1_0_0_1_n_n none Y W (ix2 p (0 : Fin 1))
      = Y (ix2 p (0 : Fin 1)) * W (ix2 (0 : Fin 1) (0 : Fin 1)) := by
  simp only [Host.dotGeneral]
  rw [Cert.Lib.Matmul.dotGeneral_ix2 Cert.ReferenceIdeal.dot_S100000x1_S1x1_S100000x1_1_0_0_1_n_n none _ rfl rfl
    Cert.ReferenceIdeal.Read.lhs_main_v197_0 Cert.ReferenceIdeal.Read.lhs_main_v197_1 Cert.ReferenceIdeal.Read.rhs_main_v197_0 Cert.ReferenceIdeal.Read.rhs_main_v197_1 Y W p (0 : Fin 1)]
  exact Fin.sum_univ_one _

/-! ## The three entry-wise maps -/

/-- First hidden layer: the kernel's entry-wise map of an array and the four reshaped parameter vectors is the
    reference's subtract-mean, scale by (variance + ε)^(−1/2), scale, shift and floor of that array. -/
theorem norm1 (H : FVec Ideal Cert.ReferenceIdeal.S100000x16 .f32) (x5 x6 x7 x8 : FVec Ideal Cert.ReferenceIdeal.S16 .f32) :
    Cert.KernelIdeal.Norm1.G H (shapeCast Cert.KernelIdeal.S1x16 x5 Cert.KernelIdeal.Facts₀.shapeCasts_S16_S1x16) (shapeCast Cert.KernelIdeal.S1x16 x6 Cert.KernelIdeal.Facts₀.shapeCasts_S16_S1x16) (shapeCast Cert.KernelIdeal.S1x16 x7 Cert.KernelIdeal.Facts₀.shapeCasts_S16_S1x16) (shapeCast Cert.KernelIdeal.S1x16 x8 Cert.KernelIdeal.Facts₀.shapeCasts_S16_S1x16)
    = maximumf (addf (mulf (mulf (subf H (Cert.ReferenceIdeal.Read.val_main_v54 (F := Ideal) x7)) (Cert.ReferenceIdeal.Read.val_main_v60 (F := Ideal) x8)) (Cert.ReferenceIdeal.Read.val_main_v63 (F := Ideal) x5)) (Cert.ReferenceIdeal.Read.val_main_v66 (F := Ideal) x6)) (Cert.ReferenceIdeal.Read.val_main_call2_v0 (F := Ideal)) := by
  funext i
  obtain ⟨p, q, rfl⟩ : ∃ (p : Fin 100000) (q : Fin 16), i = ix2 p q := ⟨i 0, i 1, eq_ix2 i⟩
  have e1 : Cert.ReferenceIdeal.Read.idx_main_v53 (Cert.ReferenceIdeal.Read.idx_main_v54 (ix2 p q)) = ix1 q :=
    funext fun a => Fin.ext (by match a with | ⟨0, _⟩ => rfl)
  have e2 : Cert.ReferenceIdeal.Read.idx_main_v59 (Cert.ReferenceIdeal.Read.idx_main_v60 (ix2 p q)) = ix1 q :=
    funext fun a => Fin.ext (by match a with | ⟨0, _⟩ => rfl)
  have e3 : Cert.ReferenceIdeal.Read.idx_main_v62 (Cert.ReferenceIdeal.Read.idx_main_v63 (ix2 p q)) = ix1 q :=
    funext fun a => Fin.ext (by match a with | ⟨0, _⟩ => rfl)
  have e4 : Cert.ReferenceIdeal.Read.idx_main_v65 (Cert.ReferenceIdeal.Read.idx_main_v66 (ix2 p q)) = ix1 q :=
    funext fun a => Fin.ext (by match a with | ⟨0, _⟩ => rfl)
  simp only [Cert.KernelIdeal.Norm1.G_apply, shapeCast_a_1a_apply, maximumf_apply, addf_apply, mulf_apply, subf_apply,
    Cert.ReferenceIdeal.Read.val_main_v54_apply, Cert.ReferenceIdeal.Read.val_main_v53_apply, Cert.ReferenceIdeal.Read.val_main_v60_apply, Cert.ReferenceIdeal.Read.val_main_v59_apply, Cert.ReferenceIdeal.Read.val_main_v58_apply, Cert.ReferenceIdeal.Read.val_main_v57_apply, Cert.ReferenceIdeal.Read.val_main_v56_apply, Cert.ReferenceIdeal.Read.val_main_cst_12_apply, Cert.ReferenceIdeal.Read.val_main_v63_apply, Cert.ReferenceIdeal.Read.val_main_v62_apply, Cert.ReferenceIdeal.Read.val_main_v66_apply, Cert.ReferenceIdeal.Read.val_main_v65_apply, Cert.ReferenceIdeal.Read.val_main_call2_v0_apply, Cert.ReferenceIdeal.Read.val_main_call2_cst_apply, e1, e2, e3, e4]
  rfl

/-- Second hidden layer: the kernel's entry-wise map of an array and the four reshaped parameter vectors is the
    reference's subtract-mean, scale by (variance + ε)^(−1/2), scale, shift and floor of that array. -/
theorem norm3 (H : FVec Ideal Cert.ReferenceIdeal.S100000x4 .f32) (x11 x12 x13 x14 : FVec Ideal Cert.ReferenceIdeal.S4 .f32) :
    Cert.KernelIdeal.Norm3.G H (shapeCast Cert.KernelIdeal.S1x4 x11 Cert.KernelIdeal.Facts₀.shapeCasts_S4_S1x4) (shapeCast Cert.KernelIdeal.S1x4 x12 Cert.KernelIdeal.Facts₀.shapeCasts_S4_S1x4) (shapeCast Cert.KernelIdeal.S1x4 x13 Cert.KernelIdeal.Facts₀.shapeCasts_S4_S1x4) (shapeCast Cert.KernelIdeal.S1x4 x14 Cert.KernelIdeal.Facts₀.shapeCasts_S4_S1x4)
    = maximumf (addf (mulf (mulf (subf H (Cert.ReferenceIdeal.Read.val_main_v119 (F := Ideal) x13)) (Cert.ReferenceIdeal.Read.val_main_v125 (F := Ideal) x14)) (Cert.ReferenceIdeal.Read.val_main_v128 (F := Ideal) x11)) (Cert.ReferenceIdeal.Read.val_main_v131 (F := Ideal) x12)) (Cert.ReferenceIdeal.Read.val_main_call5_v0 (F := Ideal)) := by
  funext i
  obtain ⟨p, q, rfl⟩ : ∃ (p : Fin 100000) (q : Fin 4), i = ix2 p q := ⟨i 0, i 1, eq_ix2 i⟩
  have e1 : Cert.ReferenceIdeal.Read.idx_main_v118 (Cert.ReferenceIdeal.Read.idx_main_v119 (ix2 p q)) = ix1 q :=
    funext fun a => Fin.ext (by match a with | ⟨0, _⟩ => rfl)
  have e2 : Cert.ReferenceIdeal.Read.idx_main_v124 (Cert.ReferenceIdeal.Read.idx_main_v125 (ix2 p q)) = ix1 q :=
    funext fun a => Fin.ext (by match a with | ⟨0, _⟩ => rfl)
  have e3 : Cert.ReferenceIdeal.Read.idx_main_v127 (Cert.ReferenceIdeal.Read.idx_main_v128 (ix2 p q)) = ix1 q :=
    funext fun a => Fin.ext (by match a with | ⟨0, _⟩ => rfl)
  have e4 : Cert.ReferenceIdeal.Read.idx_main_v130 (Cert.ReferenceIdeal.Read.idx_main_v131 (ix2 p q)) = ix1 q :=
    funext fun a => Fin.ext (by match a with | ⟨0, _⟩ => rfl)
  simp only [Cert.KernelIdeal.Norm3.G_apply, shapeCast_a_1a_apply, maximumf_apply, addf_apply, mulf_apply, subf_apply,
    Cert.ReferenceIdeal.Read.val_main_v119_apply, Cert.ReferenceIdeal.Read.val_main_v118_apply, Cert.ReferenceIdeal.Read.val_main_v125_apply, Cert.ReferenceIdeal.Read.val_main_v124_apply, Cert.ReferenceIdeal.Read.val_main_v123_apply, Cert.ReferenceIdeal.Read.val_main_v122_apply, Cert.ReferenceIdeal.Read.val_main_v121_apply, Cert.ReferenceIdeal.Read.val_main_cst_27_apply, Cert.ReferenceIdeal.Read.val_main_v128_apply, Cert.ReferenceIdeal.Read.val_main_v127_apply, Cert.ReferenceIdeal.Read.val_main_v131_apply, Cert.ReferenceIdeal.Read.val_main_v130_apply, Cert.ReferenceIdeal.Read.val_main_call5_v0_apply, Cert.ReferenceIdeal.Read.val_main_call5_cst_apply, e1, e2, e3, e4]
  rfl

/-- Last layer: the kernel's entry-wise map — normalisation, the 1-by-1 weight, the bias, the logistic function — of an
    array is the reference's last stages of that array. -/
theorem final (H : FVec Ideal Cert.ReferenceIdeal.S100000x1 .f32) (x17 x18 x19 x20 : FVec Ideal Cert.ReferenceIdeal.S1 .f32)
    (x21 : FVec Ideal Cert.ReferenceIdeal.S1x1 .f32) (x22 : FVec Ideal Cert.ReferenceIdeal.S1 .f32) :
    Cert.KernelIdeal.Norm5.G H (shapeCast Cert.KernelIdeal.S1x1 x17 Cert.KernelIdeal.Facts₀.shapeCasts_S1_S1x1) (shapeCast Cert.KernelIdeal.S1x1 x18 Cert.KernelIdeal.Facts₀.shapeCasts_S1_S1x1) (shapeCast Cert.KernelIdeal.S1x1 x19 Cert.KernelIdeal.Facts₀.shapeCasts_S1_S1x1) (shapeCast Cert.KernelIdeal.S1x1 x20 Cert.KernelIdeal.Facts₀.shapeCasts_S1_S1x1) x21 (shapeCast Cert.KernelIdeal.S1x1 x22 Cert.KernelIdeal.Facts₀.shapeCasts_S1_S1x1)
    = Host.divf (Cert.ReferenceIdeal.Read.val_main_v205 (F := Ideal)) (addf (Cert.ReferenceIdeal.Read.val_main_v203 (F := Ideal)) (Host.exp (Host.negf (addf
        (Host.dotGeneral (F := Ideal) (φ₁ := .f32) (φ₂ := .f32) Cert.ReferenceIdeal.dot_S100000x1_S1x1_S100000x1_1_0_0_1_n_n none
          (addf (mulf (mulf (subf H (Cert.ReferenceIdeal.Read.val_main_v183 (F := Ideal) x19)) (Cert.ReferenceIdeal.Read.val_main_v189 (F := Ideal) x20)) (Cert.ReferenceIdeal.Read.val_main_v192 (F := Ideal) x17)) (Cert.ReferenceIdeal.Read.val_main_v195 (F := Ideal) x18)) x21)
        (Cert.ReferenceIdeal.Read.val_main_v199 (F := Ideal) x22))))) := by
  funext i
  obtain ⟨p, q, rfl⟩ : ∃ (p : Fin 100000) (q : Fin 1), i = ix2 p q := ⟨i 0, i 1, eq_ix2 i⟩
  obtain rfl : q = 0 := Subsingleton.elim _ _
  have e1 : Cert.ReferenceIdeal.Read.idx_main_v182 (Cert.ReferenceIdeal.Read.idx_main_v183 (ix2 p (0 : Fin 1))) = ix1 (0 : Fin 1) :=
    funext fun a => Fin.ext (by match a with | ⟨0, _⟩ => rfl)
  have e2 : Cert.ReferenceIdeal.Read.idx_main_v188 (Cert.ReferenceIdeal.Read.idx_main_v189 (ix2 p (0 : Fin 1))) = ix1 (0 : Fin 1) :=
    funext fun a => Fin.ext (by match a with | ⟨0, _⟩ => rfl)
  have e3 : Cert.ReferenceIdeal.Read.idx_main_v191 (Cert.ReferenceIdeal.Read.idx_main_v192 (ix2 p (0 : Fin 1))) = ix1 (0 : Fin 1) :=
    funext fun a => Fin.ext (by match a with | ⟨0, _⟩ => rfl)
  have e4 : Cert.ReferenceIdeal.Read.idx_main_v194 (Cert.ReferenceIdeal.Read.idx_main_v195 (ix2 p (0 : Fin 1))) = ix1 (0 : Fin 1) :=
    funext fun a => Fin.ext (by match a with | ⟨0, _⟩ => rfl)
  have e5 : Cert.ReferenceIdeal.Read.idx_main_v198 (Cert.ReferenceIdeal.Read.idx_main_v199 (ix2 p (0 : Fin 1))) = ix1 (0 : Fin 1) :=
    funext fun a => Fin.ext (by match a with | ⟨0, _⟩ => rfl)
  simp only [Cert.KernelIdeal.Norm5.G_apply, shapeCast_a_1a_apply, hostDivf_apply, hostExp_apply, hostNegf_apply, dot11_apply, addf_apply,
    mulf_apply, subf_apply, Cert.ReferenceIdeal.Read.val_main_v205_apply, Cert.ReferenceIdeal.Read.val_main_cst_44_apply, Cert.ReferenceIdeal.Read.val_main_v203_apply, Cert.ReferenceIdeal.Read.val_main_cst_43_apply, Cert.ReferenceIdeal.Read.val_main_v183_apply, Cert.ReferenceIdeal.Read.val_main_v182_apply, Cert.ReferenceIdeal.Read.val_main_v189_apply, Cert.ReferenceIdeal.Read.val_main_v188_apply, Cert.ReferenceIdeal.Read.val_main_v187_apply, Cert.ReferenceIdeal.Read.val_main_v186_apply, Cert.ReferenceIdeal.Read.val_main_v185_apply, Cert.ReferenceIdeal.Read.val_main_cst_42_apply, Cert.ReferenceIdeal.Read.val_main_v192_apply, Cert.ReferenceIdeal.Read.val_main_v191_apply, Cert.ReferenceIdeal.Read.val_main_v195_apply, Cert.ReferenceIdeal.Read.val_main_v194_apply, Cert.ReferenceIdeal.Read.val_main_v199_apply, Cert.ReferenceIdeal.Read.val_main_v198_apply, e1, e2, e3, e4, e5, Ideal.ofBits_def, Ideal.ofBits_one_f32]
  rfl

end Cert.Bridges

end
-- ==== Proof.StageB.lean ====
/-
  The kernel's buffers from the first layer's aggregation to the second layer's product.

  The host operations between the launches gather the product's rows along the edges, scale them by the edge
  coefficients, scatter-add them into the destination rows and add the bias: the reference's operations on the same
  values. The second launch normalises and floors the result entry by entry, which is the reference's normalisation and
  floor (read index by index in the bridge lemma), and the third launch multiplies by the second weight matrix.
-/
import proofs.«127372_j14680198218392_2_alg».proof.Proof.StageA
import proofs.«127372_j14680198218392_2_alg».proof.Proof.Norm1
import proofs.«127372_j14680198218392_2_alg».proof.Proof.Lin2
import proofs.«127372_j14680198218392_2_alg».proof.Proof.Bridges

set_option maxRecDepth 16384
set_option maxHeartbeats 1600000

noncomputable section

namespace Cert.KernelIdeal.Stages

open Idealize.ShloMosaic Idealize.ShloMosaic.StableHlo Idealize.ShloMosaic.TcCoe Idealize.SL.Sem
open Cert.KernelIdeal Cert.KernelIdeal.Gen Cert.LibReads

variable (m : (ℓ : Loc nD τ sig) → Buf (Elt Ideal) ℓ) (ρ : Dev nD → PrngReg) (c : Dev nD)

/-! ## At the second launch's entry -/

theorem at7_v52 : W7 m ρ c (Proc.devRef .tc main_v52) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  reads
  rw [at6_v36, at6_v35, at6_v5, at6_v6, at6_arg4]
  rfl
theorem at7_v53 : W7 m ρ c (Proc.devRef .tc main_v53) = shapeCast S1x16 (m ((c : Thread nD τ).loc main_arg5)) Cert.KernelIdeal.Facts₀.shapeCasts_S16_S1x16 := by
  reads
  rw [at6_arg5]
  rfl
theorem at7_v54 : W7 m ρ c (Proc.devRef .tc main_v54) = shapeCast S1x16 (m ((c : Thread nD τ).loc main_arg6)) Cert.KernelIdeal.Facts₀.shapeCasts_S16_S1x16 := by
  reads
  rw [at6_arg6]
  rfl
theorem at7_v55 : W7 m ρ c (Proc.devRef .tc main_v55) = shapeCast S1x16 (m ((c : Thread nD τ).loc main_arg7)) Cert.KernelIdeal.Facts₀.shapeCasts_S16_S1x16 := by
  reads
  rw [at6_arg7]
  rfl
theorem at7_v56 : W7 m ρ c (Proc.devRef .tc main_v56) = shapeCast S1x16 (m ((c : Thread nD τ).loc main_arg8)) Cert.KernelIdeal.Facts₀.shapeCasts_S16_S1x16 := by
  reads
  rw [at6_arg8]
  rfl
theorem at7_v35 : W7 m ρ c (Proc.devRef .tc main_v35) = Cert.ReferenceIdeal.Read.val_main_v35 (F := Ideal) (m ((c : Thread nD τ).loc main_arg1)) (m ((c : Thread nD τ).loc main_arg2)) :=
by
  reads
  exact at6_v35 m ρ c
theorem at7_v5 : W7 m ρ c (Proc.devRef .tc main_v5) = Cert.ReferenceIdeal.Read.val_main_v5 (F := Ideal) (m ((c : Thread nD τ).loc main_arg1)) :=
by
  reads
  exact at6_v5 m ρ c
theorem at7_v6 : W7 m ρ c (Proc.devRef .tc main_v6) = Cert.ReferenceIdeal.Read.val_main_v6 (F := Ideal) (m ((c : Thread nD τ).loc main_arg1)) :=
by
  reads
  exact at6_v6 m ρ c
theorem at7_arg9 : W7 m ρ c (Proc.devRef .tc main_arg9) = (m ((c : Thread nD τ).loc main_arg9)) :=
by
  reads
  exact at6_arg9 m ρ c
theorem at7_arg10 : W7 m ρ c (Proc.devRef .tc main_arg10) = (m ((c : Thread nD τ).loc main_arg10)) :=
by
  reads
  exact at6_arg10 m ρ c
theorem at7_arg11 : W7 m ρ c (Proc.devRef .tc main_arg11) = (m ((c : Thread nD τ).loc main_arg11)) :=
by
  reads
  exact at6_arg11 m ρ c
theorem at7_arg12 : W7 m ρ c (Proc.devRef .tc main_arg12) = (m ((c : Thread nD τ).loc main_arg12)) :=
by
  reads
  exact at6_arg12 m ρ c
theorem at7_arg13 : W7 m ρ c (Proc.devRef .tc main_arg13) = (m ((c : Thread nD τ).loc main_arg13)) :=
by
  reads
  exact at6_arg13 m ρ c
theorem at7_arg14 : W7 m ρ c (Proc.devRef .tc main_arg14) = (m ((c : Thread nD τ).loc main_arg14)) :=
by
  reads
  exact at6_arg14 m ρ c
theorem at7_arg15 : W7 m ρ c (Proc.devRef .tc main_arg15) = (m ((c : Thread nD τ).loc main_arg15)) :=
by
  reads
  exact at6_arg15 m ρ c
theorem at7_arg16 : W7 m ρ c (Proc.devRef .tc main_arg16) = (m ((c : Thread nD τ).loc main_arg16)) :=
by
  reads
  exact at6_arg16 m ρ c
theorem at7_arg17 : W7 m ρ c (Proc.devRef .tc main_arg17) = (m ((c : Thread nD τ).loc main_arg17)) :=
by
  reads
  exact at6_arg17 m ρ c
theorem at7_arg18 : W7 m ρ c (Proc.devRef .tc main_arg18) = (m ((c : Thread nD τ).loc main_arg18)) :=
by
  reads
  exact at6_arg18 m ρ c
theorem at7_arg19 : W7 m ρ c (Proc.devRef .tc main_arg19) = (m ((c : Thread nD τ).loc main_arg19)) :=
by
  reads
  exact at6_arg19 m ρ c
theorem at7_arg20 : W7 m ρ c (Proc.devRef .tc main_arg20) = (m ((c : Thread nD τ).loc main_arg20)) :=
by
  reads
  exact at6_arg20 m ρ c
theorem at7_arg21 : W7 m ρ c (Proc.devRef .tc main_arg21) = (m ((c : Thread nD τ).loc main_arg21)) :=
by
  reads
  exact at6_arg21 m ρ c
theorem at7_arg22 : W7 m ρ c (Proc.devRef .tc main_arg22) = (m ((c : Thread nD τ).loc main_arg22)) :=
by
  reads
  exact at6_arg22 m ρ c

/-! ## After the second launch -/

theorem at8_v35 : W8 m ρ c (Proc.devRef .tc main_v35) = Cert.ReferenceIdeal.Read.val_main_v35 (F := Ideal) (m ((c : Thread nD τ).loc main_arg1)) (m ((c : Thread nD τ).loc main_arg2)) := (W8_of_ne m ρ c main_v35 (by decide)).trans (at7_v35 m ρ c)
theorem at8_v5 : W8 m ρ c (Proc.devRef .tc main_v5) = Cert.ReferenceIdeal.Read.val_main_v5 (F := Ideal) (m ((c : Thread nD τ).loc main_arg1)) := (W8_of_ne m ρ c main_v5 (by decide)).trans (at7_v5 m ρ c)
theorem at8_v6 : W8 m ρ c (Proc.devRef .tc main_v6) = Cert.ReferenceIdeal.Read.val_main_v6 (F := Ideal) (m ((c : Thread nD τ).loc main_arg1)) := (W8_of_ne m ρ c main_v6 (by decide)).trans (at7_v6 m ρ c)
theorem at8_arg9 : W8 m ρ c (Proc.devRef .tc main_arg9) = (m ((c : Thread nD τ).loc main_arg9)) := (W8_of_ne m ρ c main_arg9 (by decide)).trans (at7_arg9 m ρ c)
theorem at8_arg10 : W8 m ρ c (Proc.devRef .tc main_arg10) = (m ((c : Thread nD τ).loc main_arg10)) := (W8_of_ne m ρ c main_arg10 (by decide)).trans (at7_arg10 m ρ c)
theorem at8_arg11 : W8 m ρ c (Proc.devRef .tc main_arg11) = (m ((c : Thread nD τ).loc main_arg11)) := (W8_of_ne m ρ c main_arg11 (by decide)).trans (at7_arg11 m ρ c)
theorem at8_arg12 : W8 m ρ c (Proc.devRef .tc main_arg12) = (m ((c : Thread nD τ).loc main_arg12)) := (W8_of_ne m ρ c main_arg12 (by decide)).trans (at7_arg12 m ρ c)
theorem at8_arg13 : W8 m ρ c (Proc.devRef .tc main_arg13) = (m ((c : Thread nD τ).loc main_arg13)) := (W8_of_ne m ρ c main_arg13 (by decide)).trans (at7_arg13 m ρ c)
theorem at8_arg14 : W8 m ρ c (Proc.devRef .tc main_arg14) = (m ((c : Thread nD τ).loc main_arg14)) := (W8_of_ne m ρ c main_arg14 (by decide)).trans (at7_arg14 m ρ c)
theorem at8_arg15 : W8 m ρ c (Proc.devRef .tc main_arg15) = (m ((c : Thread nD τ).loc main_arg15)) := (W8_of_ne m ρ c main_arg15 (by decide)).trans (at7_arg15 m ρ c)
theorem at8_arg16 : W8 m ρ c (Proc.devRef .tc main_arg16) = (m ((c : Thread nD τ).loc main_arg16)) := (W8_of_ne m ρ c main_arg16 (by decide)).trans (at7_arg16 m ρ c)
theorem at8_arg17 : W8 m ρ c (Proc.devRef .tc main_arg17) = (m ((c : Thread nD τ).loc main_arg17)) := (W8_of_ne m ρ c main_arg17 (by decide)).trans (at7_arg17 m ρ c)
theorem at8_arg18 : W8 m ρ c (Proc.devRef .tc main_arg18) = (m ((c : Thread nD τ).loc main_arg18)) := (W8_of_ne m ρ c main_arg18 (by decide)).trans (at7_arg18 m ρ c)
theorem at8_arg19 : W8 m ρ c (Proc.devRef .tc main_arg19) = (m ((c : Thread nD τ).loc main_arg19)) := (W8_of_ne m ρ c main_arg19 (by decide)).trans (at7_arg19 m ρ c)
theorem at8_arg20 : W8 m ρ c (Proc.devRef .tc main_arg20) = (m ((c : Thread nD τ).loc main_arg20)) := (W8_of_ne m ρ c main_arg20 (by decide)).trans (at7_arg20 m ρ c)
theorem at8_arg21 : W8 m ρ c (Proc.devRef .tc main_arg21) = (m ((c : Thread nD τ).loc main_arg21)) := (W8_of_ne m ρ c main_arg21 (by decide)).trans (at7_arg21 m ρ c)
theorem at8_arg22 : W8 m ρ c (Proc.devRef .tc main_arg22) = (m ((c : Thread nD τ).loc main_arg22)) := (W8_of_ne m ρ c main_arg22 (by decide)).trans (at7_arg22 m ρ c)

/-- The second launch's output is the first layer's normalised, floored activations. -/
theorem at8_v57 : W8 m ρ c (Proc.devRef .tc main_v57) = Cert.ReferenceIdeal.Read.val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have h := (W8_arr m ρ c 5).trans (Cert.KernelIdeal.Norm1.arr_eq (V7 m ρ) c)
  rw [show V7 m ρ c (Pipeline.arrRef spec1 0) = _ from at7_v52 m ρ c,
    show V7 m ρ c (Pipeline.arrRef spec1 1) = _ from at7_v53 m ρ c,
    show V7 m ρ c (Pipeline.arrRef spec1 2) = _ from at7_v54 m ρ c,
    show V7 m ρ c (Pipeline.arrRef spec1 3) = _ from at7_v55 m ρ c,
    show V7 m ρ c (Pipeline.arrRef spec1 4) = _ from at7_v56 m ρ c] at h
  exact h.trans ((Cert.Bridges.norm1 (Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))).trans rfl)

/-! ## After the third launch -/

theorem at9_v35 : W9 m ρ c (Proc.devRef .tc main_v35) = Cert.ReferenceIdeal.Read.val_main_v35 (F := Ideal) (m ((c : Thread nD τ).loc main_arg1)) (m ((c : Thread nD τ).loc main_arg2)) := (W9_of_ne m ρ c main_v35 (by decide)).trans (at8_v35 m ρ c)
theorem at9_v5 : W9 m ρ c (Proc.devRef .tc main_v5) = Cert.ReferenceIdeal.Read.val_main_v5 (F := Ideal) (m ((c : Thread nD τ).loc main_arg1)) := (W9_of_ne m ρ c main_v5 (by decide)).trans (at8_v5 m ρ c)
theorem at9_v6 : W9 m ρ c (Proc.devRef .tc main_v6) = Cert.ReferenceIdeal.Read.val_main_v6 (F := Ideal) (m ((c : Thread nD τ).loc main_arg1)) := (W9_of_ne m ρ c main_v6 (by decide)).trans (at8_v6 m ρ c)
theorem at9_arg10 : W9 m ρ c (Proc.devRef .tc main_arg10) = (m ((c : Thread nD τ).loc main_arg10)) := (W9_of_ne m ρ c main_arg10 (by decide)).trans (at8_arg10 m ρ c)
theorem at9_arg11 : W9 m ρ c (Proc.devRef .tc main_arg11) = (m ((c : Thread nD τ).loc main_arg11)) := (W9_of_ne m ρ c main_arg11 (by decide)).trans (at8_arg11 m ρ c)
theorem at9_arg12 : W9 m ρ c (Proc.devRef .tc main_arg12) = (m ((c : Thread nD τ).loc main_arg12)) := (W9_of_ne m ρ c main_arg12 (by decide)).trans (at8_arg12 m ρ c)
theorem at9_arg13 : W9 m ρ c (Proc.devRef .tc main_arg13) = (m ((c : Thread nD τ).loc main_arg13)) := (W9_of_ne m ρ c main_arg13 (by decide)).trans (at8_arg13 m ρ c)
theorem at9_arg14 : W9 m ρ c (Proc.devRef .tc main_arg14) = (m ((c : Thread nD τ).loc main_arg14)) := (W9_of_ne m ρ c main_arg14 (by decide)).trans (at8_arg14 m ρ c)
theorem at9_arg15 : W9 m ρ c (Proc.devRef .tc main_arg15) = (m ((c : Thread nD τ).loc main_arg15)) := (W9_of_ne m ρ c main_arg15 (by decide)).trans (at8_arg15 m ρ c)
theorem at9_arg16 : W9 m ρ c (Proc.devRef .tc main_arg16) = (m ((c : Thread nD τ).loc main_arg16)) := (W9_of_ne m ρ c main_arg16 (by decide)).trans (at8_arg16 m ρ c)
theorem at9_arg17 : W9 m ρ c (Proc.devRef .tc main_arg17) = (m ((c : Thread nD τ).loc main_arg17)) := (W9_of_ne m ρ c main_arg17 (by decide)).trans (at8_arg17 m ρ c)
theorem at9_arg18 : W9 m ρ c (Proc.devRef .tc main_arg18) = (m ((c : Thread nD τ).loc main_arg18)) := (W9_of_ne m ρ c main_arg18 (by decide)).trans (at8_arg18 m ρ c)
theorem at9_arg19 : W9 m ρ c (Proc.devRef .tc main_arg19) = (m ((c : Thread nD τ).loc main_arg19)) := (W9_of_ne m ρ c main_arg19 (by decide)).trans (at8_arg19 m ρ c)
theorem at9_arg20 : W9 m ρ c (Proc.devRef .tc main_arg20) = (m ((c : Thread nD τ).loc main_arg20)) := (W9_of_ne m ρ c main_arg20 (by decide)).trans (at8_arg20 m ρ c)
theorem at9_arg21 : W9 m ρ c (Proc.devRef .tc main_arg21) = (m ((c : Thread nD τ).loc main_arg21)) := (W9_of_ne m ρ c main_arg21 (by decide)).trans (at8_arg21 m ρ c)
theorem at9_arg22 : W9 m ρ c (Proc.devRef .tc main_arg22) = (m ((c : Thread nD τ).loc main_arg22)) := (W9_of_ne m ρ c main_arg22 (by decide)).trans (at8_arg22 m ρ c)

theorem at8in_arg9 : V8 m ρ c (Pipeline.arrRef spec2 1) = (m ((c : Thread nD τ).loc main_arg9)) := at8_arg9 m ρ c

/-- The third launch's output is the product of those activations with the second weight matrix. -/
theorem at9_v58 : W9 m ρ c (Proc.devRef .tc main_v58) = Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have h := (W9_arr m ρ c 2).trans (Cert.KernelIdeal.Lin2.arr_eq (V8 m ρ) c)
  rw [show V8 m ρ c (Pipeline.arrRef spec2 0) = _ from at8_v57 m ρ c, at8in_arg9] at h
  exact h

end Cert.KernelIdeal.Stages

end
-- ==== Proof.Lin4.lean ====
/-
  Launch 4 of the idealized kernel: a row-blocked matrix product.

  The launch walks 50 blocks of 2000 rows. At block t the body multiplies rows 2000·t … 2000·t + 1999 of the
  100000-by-4 left array by the whole 4-by-1 right array (both first narrowed to bfloat16, which changes nothing at
  the ideal values) into a zero accumulator, and writes the 2000-by-1 product back as rows 2000·t … of the output array.
  Entry (p, q) of a product is the sum over k of left(p, k) · right(k, q), whether the product is taken block by
  block or once for the whole array; the blocks tile the output, so after the launch the output array is the whole
  product of the two arrays the launch found.
-/
import proofs.«127372_j14680198218392_2_alg».proof.Proof.Gen.KernelIdeal.Frame
import proofs.«127372_j14680198218392_2_alg».proof.Proof.Gen.ReferenceIdeal.Read
import proofs.«127372_j14680198218392_2_alg».proof.Proof.LibMatmul
import Idealize.ShloMosaic.Lib.Pipeline.Value
import Idealize.ShloMosaic.Lib.ValueIdx

set_option maxRecDepth 16384

noncomputable section

open scoped BigOperators

namespace Cert.KernelIdeal.Lin4

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-! ## The block product and the whole product at an entry -/

theorem kl0 (j : S2000x1.Idx) (q : dot_S2000x4_S4x1_S2000x1_1_0_0_1_n_n.contr.Idx) : (dot_S2000x4_S4x1_S2000x1_1_0_0_1_n_n.lhsIdx j q 0).val = (j 0).val := by
  unfold DotDims.lhsIdx
  rw [dif_neg (show ¬(0 : Fin S2000x4.rank) ∈ dot_S2000x4_S4x1_S2000x1_1_0_0_1_n_n.lhsBatch by decide), dif_pos (show (0 : Fin S2000x4.rank) ∈ dot_S2000x4_S4x1_S2000x1_1_0_0_1_n_n.lhsNonContracting by decide)]
  rfl
theorem kl1 (j : S2000x1.Idx) (q : dot_S2000x4_S4x1_S2000x1_1_0_0_1_n_n.contr.Idx) : (dot_S2000x4_S4x1_S2000x1_1_0_0_1_n_n.lhsIdx j q 1).val = (q ⟨0, by decide⟩).val :=
  dot_S2000x4_S4x1_S2000x1_1_0_0_1_n_n.lhsIdx_val_of_single rfl j q
theorem kr0 (j : S2000x1.Idx) (q : dot_S2000x4_S4x1_S2000x1_1_0_0_1_n_n.contr.Idx) : (dot_S2000x4_S4x1_S2000x1_1_0_0_1_n_n.rhsIdx j q 0).val = (q ⟨0, by decide⟩).val :=
  dot_S2000x4_S4x1_S2000x1_1_0_0_1_n_n.rhsIdx_val_of_single rfl j q
theorem kr1 (j : S2000x1.Idx) (q : dot_S2000x4_S4x1_S2000x1_1_0_0_1_n_n.contr.Idx) : (dot_S2000x4_S4x1_S2000x1_1_0_0_1_n_n.rhsIdx j q 1).val = (j 1).val := by
  unfold DotDims.rhsIdx
  rw [dif_neg (show ¬(1 : Fin S4x1.rank) ∈ dot_S2000x4_S4x1_S2000x1_1_0_0_1_n_n.rhsBatch by decide), dif_pos (show (1 : Fin S4x1.rank) ∈ dot_S2000x4_S4x1_S2000x1_1_0_0_1_n_n.rhsNonContracting by decide)]
  rfl

/-- The body's product of a 2000-row block with the right array, at row a and column b. -/
theorem pay_apply (x0 : Vec Ideal S2000x4 .f32) (x1 : Vec Ideal S4x1 .f32) (a : Fin 2000) (b : Fin 1) :
    k4_pay1 (F := Ideal) x0 x1 (ix2 a b) = ∑ k : Fin 4, x0 (ix2 a k) * x1 (ix2 k b) := by
  unfold k4_pay1
  refine (Cert.Lib.Matmul.matmul_zero_ix2 dot_S2000x4_S4x1_S2000x1_1_0_0_1_n_n none rfl rfl kl0 kl1 kr0 kr1 _ _ a b).trans ?_
  simp only [shapeCast_self]
  rfl

/-- The whole product of a 100000-row array with the right array, at row p and column q. -/
theorem whole_apply (X : (⟨S100000x4, .f32⟩ : BufTy).Contents (Elt Ideal)) (W : (⟨S4x1, .f32⟩ : BufTy).Contents (Elt Ideal)) (p : Fin 100000) (q : Fin 1) :
    Host.dotGeneral (F := Ideal) (φ₁ := .f32) (φ₂ := .f32) Cert.ReferenceIdeal.dot_S100000x4_S4x1_S100000x1_1_0_0_1_n_n none X W (ix2 p q) = ∑ k : Fin 4, X (ix2 p k) * W (ix2 k q) := by
  simp only [Host.dotGeneral]
  exact Cert.Lib.Matmul.dotGeneral_ix2 Cert.ReferenceIdeal.dot_S100000x4_S4x1_S100000x1_1_0_0_1_n_n none _ rfl rfl Cert.ReferenceIdeal.Read.lhs_main_v166_0 Cert.ReferenceIdeal.Read.lhs_main_v166_1 Cert.ReferenceIdeal.Read.rhs_main_v166_0 Cert.ReferenceIdeal.Read.rhs_main_v166_1 X W p q

/-- A block that holds rows 2000·T … of the left array, times the right array, is rows 2000·T … of the whole product. -/
theorem block_entry (x0 : Vec Ideal S2000x4 .f32) (x1 : Vec Ideal S4x1 .f32)
    (X : (⟨S100000x4, .f32⟩ : BufTy).Contents (Elt Ideal)) (W : (⟨S4x1, .f32⟩ : BufTy).Contents (Elt Ideal)) (T : ℕ) (hT : T < 50)
    (h0 : ∀ (a : Fin 2000) (k : Fin 4), x0 (ix2 a k) = X (ix2 ⟨T * 2000 + a.val, by omega⟩ k))
    (h1 : ∀ (k : Fin 4) (b : Fin 1), x1 (ix2 k b) = W (ix2 k b)) (a : Fin 2000) (b : Fin 1) :
    k4_pay1 (F := Ideal) x0 x1 (ix2 a b) = Host.dotGeneral (F := Ideal) (φ₁ := .f32) (φ₂ := .f32) Cert.ReferenceIdeal.dot_S100000x4_S4x1_S100000x1_1_0_0_1_n_n none X W (ix2 ⟨T * 2000 + a.val, by omega⟩ b) := by
  rw [pay_apply, whole_apply]
  exact Finset.sum_congr rfl fun k _ => by rw [h0, h1]

/-! ## From the blocks to the array -/

variable (V : (c : Dev nD) → (b : Ref sig .tc) → Buf (Elt Ideal) ((c : Thread nD τ).loc b))

/-- The printed index maps over the grid: the row blocks move with the grid point, the right array stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

set_option maxHeartbeats 4000000 in
/-- What grid point t writes back is block t of the whole product of the arrays the launch found. -/
theorem flushed_eq (c : Dev nD) (t : Fin cfg4.N) :
    (dat4 V c).flushed 2 t = ((cfg4.win 2).blk t).view.read (Elt Ideal)
      (Host.dotGeneral (F := Ideal) (φ₁ := .f32) (φ₂ := .f32) Cert.ReferenceIdeal.dot_S100000x4_S4x1_S100000x1_1_0_0_1_n_n none (V c (Pipeline.arrRef spec4 0)) (V c (Pipeline.arrRef spec4 1))) := by
  show (cfg4.win 2).cut (grid4.coords t) ((dat4 V c).after 2 t) = _
  rw [after4_2]
  unfold out4_2
  rw [View.canon_unit_zero hz]
  simp only [View.ld_unit_zero (S := S2000x4) hz, View.ld_unit_zero (S := S4x1) hz]
  obtain ⟨e00, e01, e10, e11, e20, e21⟩ := idx_facts t
  have ht : t.val < 50 := lt_of_lt_of_eq t.isLt N_4
  funext y
  obtain ⟨a, b, rfl⟩ : ∃ (a : Fin 2000) (b : Fin 1), y = ix2 a b := ⟨y 0, y 1, eq_ix2 y⟩
  have he : ((cfg4.win 2).blk t).view.emb (ix2 a b) = (ix2 (⟨t.val * 2000 + a.val, by omega⟩ : Fin 100000) b : S100000x1.Idx) := by
    funext d; apply Fin.ext
    match d with
    | ⟨0, _⟩ => show win4_2.index t (0 : Fin 2) * 2000 + 1 * a.val = t.val * 2000 + a.val; omega
    | ⟨1, _⟩ => show win4_2.index t (1 : Fin 2) * 1 + 1 * b.val = b.val; omega
  show k4_pay1 (F := Ideal) (iblk4 V c 0 t) (iblk4 V c 1 t) (ix2 a b)
    = Host.dotGeneral (F := Ideal) (φ₁ := .f32) (φ₂ := .f32) Cert.ReferenceIdeal.dot_S100000x4_S4x1_S100000x1_1_0_0_1_n_n none (V c (Pipeline.arrRef spec4 0)) (V c (Pipeline.arrRef spec4 1)) (((cfg4.win 2).blk t).view.emb (ix2 a b))
  rw [he]
  refine block_entry (iblk4 V c 0 t) (iblk4 V c 1 t) (V c (Pipeline.arrRef spec4 0)) (V c (Pipeline.arrRef spec4 1)) t.val ht ?_ ?_ a b
  · intro a k
    show V c (Pipeline.arrRef spec4 0) (((cfg4.win 0).blk t).view.emb (ix2 a k)) = _
    refine congrArg (V c (Pipeline.arrRef spec4 0)) (funext fun d => Fin.ext ?_)
    match d with
    | ⟨0, _⟩ => show win4_0.index t (0 : Fin 2) * 2000 + 1 * a.val = t.val * 2000 + a.val; omega
    | ⟨1, _⟩ => show win4_0.index t (1 : Fin 2) * 4 + 1 * k.val = k.val; omega
  · intro k b
    show V c (Pipeline.arrRef spec4 1) (((cfg4.win 1).blk t).view.emb (ix2 k b)) = _
    refine congrArg (V c (Pipeline.arrRef spec4 1)) (funext fun d => Fin.ext ?_)
    match d with
    | ⟨0, _⟩ => show win4_1.index t (0 : Fin 2) * 4 + 1 * k.val = k.val; omega
    | ⟨1, _⟩ => show win4_1.index t (1 : Fin 2) * 1 + 1 * b.val = b.val; omega

/-- An index of the output array lies in point t's block iff each coordinate lies in the block's range. -/
theorem mem_blk (t : Fin cfg4.N) (i : S100000x1.Idx) :
    i ∈ ((cfg4.win 2).blk t).view.set ↔ ∀ a : Fin 2, win4_2.index t a * S2000x1.size a ≤ (i a).val ∧ (i a).val < win4_2.index t a * S2000x1.size a + S2000x1.size a := by
  show i ∈ ((View.whole main_v80).slice (win4_2.rect t)).set ↔ _
  rw [View.set_slice_whole, Rect.mem_set_unit]
  exact Iff.rfl

/-- Row r of the output lies in the block of grid point r / 2000: the blocks cover the array. -/
theorem cover (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  have hN : cfg4.N = 50 := N_4
  refine ⟨⟨(i 0).val / 2000, by rw [hN]; omega⟩, flush4_2 _, ?_⟩
  obtain ⟨-, -, -, -, e20, e21⟩ := idx_facts ⟨(i 0).val / 2000, by rw [hN]; omega⟩
  rw [mem_blk]
  intro a
  match a with
  | ⟨0, _⟩ => show win4_2.index _ (0 : Fin 2) * 2000 ≤ (i 0).val ∧ (i 0).val < win4_2.index _ (0 : Fin 2) * 2000 + 2000; rw [e20]; show (i 0).val / 2000 * 2000 ≤ (i 0).val ∧ (i 0).val < (i 0).val / 2000 * 2000 + 2000; omega
  | ⟨1, _⟩ => show win4_2.index _ (1 : Fin 2) * 1 ≤ (i 1).val ∧ (i 1).val < win4_2.index _ (1 : Fin 2) * 1 + 1; rw [e21]; omega

/-- After the launch its output array is the whole product of the two arrays it found. -/
theorem arr_eq (c : Dev nD) :
    (dat4 V c).arrAt 2 cfg4.N
      = Host.dotGeneral (F := Ideal) (φ₁ := .f32) (φ₂ := .f32) Cert.ReferenceIdeal.dot_S100000x4_S4x1_S100000x1_1_0_0_1_n_n none (V c (Pipeline.arrRef spec4 0)) (V c (Pipeline.arrRef spec4 1)) :=
  (dat4 V c).arrAt_eq_of_cover 2 _ (fun t _ => flushed_eq V c t) cover

end Cert.KernelIdeal.Lin4

end
-- ==== Proof.StageC.lean ====
/-
  The kernel's buffers from the second layer's aggregation to the third layer's product.

  Same three steps as for the first layer, at four columns: the host aggregation with the same edge coefficients (the
  kernel computes them once, the reference once per layer, from the same arguments by the same operations), the
  normalisation and floor, and the product with the third weight matrix.
-/
import proofs.«127372_j14680198218392_2_alg».proof.Proof.StageB
import proofs.«127372_j14680198218392_2_alg».proof.Proof.Norm3
import proofs.«127372_j14680198218392_2_alg».proof.Proof.Lin4

set_option maxRecDepth 16384
set_option maxHeartbeats 1600000

noncomputable section

namespace Cert.KernelIdeal.Stages

open Idealize.ShloMosaic Idealize.ShloMosaic.StableHlo Idealize.ShloMosaic.TcCoe Idealize.SL.Sem
open Cert.KernelIdeal Cert.KernelIdeal.Gen Cert.LibReads

variable (m : (ℓ : Loc nD τ sig) → Buf (Elt Ideal) ℓ) (ρ : Dev nD → PrngReg) (c : Dev nD)

/-! ## At the fourth launch's entry -/

theorem at10_v74 : W10 m ρ c (Proc.devRef .tc main_v74) = Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  reads
  rw [at9_v58, at9_v35, at9_v5, at9_v6, at9_arg10]
  rfl
theorem at10_v75 : W10 m ρ c (Proc.devRef .tc main_v75) = shapeCast S1x4 (m ((c : Thread nD τ).loc main_arg11)) Cert.KernelIdeal.Facts₀.shapeCasts_S4_S1x4 := by
  reads
  rw [at9_arg11]
  rfl
theorem at10_v76 : W10 m ρ c (Proc.devRef .tc main_v76) = shapeCast S1x4 (m ((c : Thread nD τ).loc main_arg12)) Cert.KernelIdeal.Facts₀.shapeCasts_S4_S1x4 := by
  reads
  rw [at9_arg12]
  rfl
theorem at10_v77 : W10 m ρ c (Proc.devRef .tc main_v77) = shapeCast S1x4 (m ((c : Thread nD τ).loc main_arg13)) Cert.KernelIdeal.Facts₀.shapeCasts_S4_S1x4 := by
  reads
  rw [at9_arg13]
  rfl
theorem at10_v78 : W10 m ρ c (Proc.devRef .tc main_v78) = shapeCast S1x4 (m ((c : Thread nD τ).loc main_arg14)) Cert.KernelIdeal.Facts₀.shapeCasts_S4_S1x4 := by
  reads
  rw [at9_arg14]
  rfl
theorem at10_v35 : W10 m ρ c (Proc.devRef .tc main_v35) = Cert.ReferenceIdeal.Read.val_main_v35 (F := Ideal) (m ((c : Thread nD τ).loc main_arg1)) (m ((c : Thread nD τ).loc main_arg2)) :=
by
  reads
  exact at9_v35 m ρ c
theorem at10_v5 : W10 m ρ c (Proc.devRef .tc main_v5) = Cert.ReferenceIdeal.Read.val_main_v5 (F := Ideal) (m ((c : Thread nD τ).loc main_arg1)) :=
by
  reads
  exact at9_v5 m ρ c
theorem at10_v6 : W10 m ρ c (Proc.devRef .tc main_v6) = Cert.ReferenceIdeal.Read.val_main_v6 (F := Ideal) (m ((c : Thread nD τ).loc main_arg1)) :=
by
  reads
  exact at9_v6 m ρ c
theorem at10_arg15 : W10 m ρ c (Proc.devRef .tc main_arg15) = (m ((c : Thread nD τ).loc main_arg15)) :=
by
  reads
  exact at9_arg15 m ρ c
theorem at10_arg16 : W10 m ρ c (Proc.devRef .tc main_arg16) = (m ((c : Thread nD τ).loc main_arg16)) :=
by
  reads
  exact at9_arg16 m ρ c
theorem at10_arg17 : W10 m ρ c (Proc.devRef .tc main_arg17) = (m ((c : Thread nD τ).loc main_arg17)) :=
by
  reads
  exact at9_arg17 m ρ c
theorem at10_arg18 : W10 m ρ c (Proc.devRef .tc main_arg18) = (m ((c : Thread nD τ).loc main_arg18)) :=
by
  reads
  exact at9_arg18 m ρ c
theorem at10_arg19 : W10 m ρ c (Proc.devRef .tc main_arg19) = (m ((c : Thread nD τ).loc main_arg19)) :=
by
  reads
  exact at9_arg19 m ρ c
theorem at10_arg20 : W10 m ρ c (Proc.devRef .tc main_arg20) = (m ((c : Thread nD τ).loc main_arg20)) :=
by
  reads
  exact at9_arg20 m ρ c
theorem at10_arg21 : W10 m ρ c (Proc.devRef .tc main_arg21) = (m ((c : Thread nD τ).loc main_arg21)) :=
by
  reads
  exact at9_arg21 m ρ c
theorem at10_arg22 : W10 m ρ c (Proc.devRef .tc main_arg22) = (m ((c : Thread nD τ).loc main_arg22)) :=
by
  reads
  exact at9_arg22 m ρ c

/-! ## After the fourth launch -/

theorem at11_v35 : W11 m ρ c (Proc.devRef .tc main_v35) = Cert.ReferenceIdeal.Read.val_main_v35 (F := Ideal) (m ((c : Thread nD τ).loc main_arg1)) (m ((c : Thread nD τ).loc main_arg2)) := (W11_of_ne m ρ c main_v35 (by decide)).trans (at10_v35 m ρ c)
theorem at11_v5 : W11 m ρ c (Proc.devRef .tc main_v5) = Cert.ReferenceIdeal.Read.val_main_v5 (F := Ideal) (m ((c : Thread nD τ).loc main_arg1)) := (W11_of_ne m ρ c main_v5 (by decide)).trans (at10_v5 m ρ c)
theorem at11_v6 : W11 m ρ c (Proc.devRef .tc main_v6) = Cert.ReferenceIdeal.Read.val_main_v6 (F := Ideal) (m ((c : Thread nD τ).loc main_arg1)) := (W11_of_ne m ρ c main_v6 (by decide)).trans (at10_v6 m ρ c)
theorem at11_arg15 : W11 m ρ c (Proc.devRef .tc main_arg15) = (m ((c : Thread nD τ).loc main_arg15)) := (W11_of_ne m ρ c main_arg15 (by decide)).trans (at10_arg15 m ρ c)
theorem at11_arg16 : W11 m ρ c (Proc.devRef .tc main_arg16) = (m ((c : Thread nD τ).loc main_arg16)) := (W11_of_ne m ρ c main_arg16 (by decide)).trans (at10_arg16 m ρ c)
theorem at11_arg17 : W11 m ρ c (Proc.devRef .tc main_arg17) = (m ((c : Thread nD τ).loc main_arg17)) := (W11_of_ne m ρ c main_arg17 (by decide)).trans (at10_arg17 m ρ c)
theorem at11_arg18 : W11 m ρ c (Proc.devRef .tc main_arg18) = (m ((c : Thread nD τ).loc main_arg18)) := (W11_of_ne m ρ c main_arg18 (by decide)).trans (at10_arg18 m ρ c)
theorem at11_arg19 : W11 m ρ c (Proc.devRef .tc main_arg19) = (m ((c : Thread nD τ).loc main_arg19)) := (W11_of_ne m ρ c main_arg19 (by decide)).trans (at10_arg19 m ρ c)
theorem at11_arg20 : W11 m ρ c (Proc.devRef .tc main_arg20) = (m ((c : Thread nD τ).loc main_arg20)) := (W11_of_ne m ρ c main_arg20 (by decide)).trans (at10_arg20 m ρ c)
theorem at11_arg21 : W11 m ρ c (Proc.devRef .tc main_arg21) = (m ((c : Thread nD τ).loc main_arg21)) := (W11_of_ne m ρ c main_arg21 (by decide)).trans (at10_arg21 m ρ c)
theorem at11_arg22 : W11 m ρ c (Proc.devRef .tc main_arg22) = (m ((c : Thread nD τ).loc main_arg22)) := (W11_of_ne m ρ c main_arg22 (by decide)).trans (at10_arg22 m ρ c)

/-- The fourth launch's output is the second layer's normalised, floored activations. -/
theorem at11_v79 : W11 m ρ c (Proc.devRef .tc main_v79) = Cert.ReferenceIdeal.Read.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  have h := (W11_arr m ρ c 5).trans (Cert.KernelIdeal.Norm3.arr_eq (V10 m ρ) c)
  rw [show V10 m ρ c (Pipeline.arrRef spec3 0) = _ from at10_v74 m ρ c,
    show V10 m ρ c (Pipeline.arrRef spec3 1) = _ from at10_v75 m ρ c,
    show V10 m ρ c (Pipeline.arrRef spec3 2) = _ from at10_v76 m ρ c,
    show V10 m ρ c (Pipeline.arrRef spec3 3) = _ from at10_v77 m ρ c,
    show V10 m ρ c (Pipeline.arrRef spec3 4) = _ from at10_v78 m ρ c] at h
  exact h.trans ((Cert.Bridges.norm3 (Cert.ReferenceIdeal.Read.val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) (m ((c : Thread nD τ).loc main_arg12)) (m ((c : Thread nD τ).loc main_arg13)) (m ((c : Thread nD τ).loc main_arg14))).trans rfl)

/-! ## After the fifth launch -/

theorem at12_v35 : W12 m ρ c (Proc.devRef .tc main_v35) = Cert.ReferenceIdeal.Read.val_main_v35 (F := Ideal) (m ((c : Thread nD τ).loc main_arg1)) (m ((c : Thread nD τ).loc main_arg2)) := (W12_of_ne m ρ c main_v35 (by decide)).trans (at11_v35 m ρ c)
theorem at12_v5 : W12 m ρ c (Proc.devRef .tc main_v5) = Cert.ReferenceIdeal.Read.val_main_v5 (F := Ideal) (m ((c : Thread nD τ).loc main_arg1)) := (W12_of_ne m ρ c main_v5 (by decide)).trans (at11_v5 m ρ c)
theorem at12_v6 : W12 m ρ c (Proc.devRef .tc main_v6) = Cert.ReferenceIdeal.Read.val_main_v6 (F := Ideal) (m ((c : Thread nD τ).loc main_arg1)) := (W12_of_ne m ρ c main_v6 (by decide)).trans (at11_v6 m ρ c)
theorem at12_arg16 : W12 m ρ c (Proc.devRef .tc main_arg16) = (m ((c : Thread nD τ).loc main_arg16)) := (W12_of_ne m ρ c main_arg16 (by decide)).trans (at11_arg16 m ρ c)
theorem at12_arg17 : W12 m ρ c (Proc.devRef .tc main_arg17) = (m ((c : Thread nD τ).loc main_arg17)) := (W12_of_ne m ρ c main_arg17 (by decide)).trans (at11_arg17 m ρ c)
theorem at12_arg18 : W12 m ρ c (Proc.devRef .tc main_arg18) = (m ((c : Thread nD τ).loc main_arg18)) := (W12_of_ne m ρ c main_arg18 (by decide)).trans (at11_arg18 m ρ c)
theorem at12_arg19 : W12 m ρ c (Proc.devRef .tc main_arg19) = (m ((c : Thread nD τ).loc main_arg19)) := (W12_of_ne m ρ c main_arg19 (by decide)).trans (at11_arg19 m ρ c)
theorem at12_arg20 : W12 m ρ c (Proc.devRef .tc main_arg20) = (m ((c : Thread nD τ).loc main_arg20)) := (W12_of_ne m ρ c main_arg20 (by decide)).trans (at11_arg20 m ρ c)
theorem at12_arg21 : W12 m ρ c (Proc.devRef .tc main_arg21) = (m ((c : Thread nD τ).loc main_arg21)) := (W12_of_ne m ρ c main_arg21 (by decide)).trans (at11_arg21 m ρ c)
theorem at12_arg22 : W12 m ρ c (Proc.devRef .tc main_arg22) = (m ((c : Thread nD τ).loc main_arg22)) := (W12_of_ne m ρ c main_arg22 (by decide)).trans (at11_arg22 m ρ c)

theorem at11in_arg15 : V11 m ρ c (Pipeline.arrRef spec4 1) = (m ((c : Thread nD τ).loc main_arg15)) := at11_arg15 m ρ c

/-- The fifth launch's output is the product of those activations with the third weight matrix. -/
theorem at12_v80 : W12 m ρ c (Proc.devRef .tc main_v80) = Cert.ReferenceIdeal.Read.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have h := (W12_arr m ρ c 2).trans (Cert.KernelIdeal.Lin4.arr_eq (V11 m ρ) c)
  rw [show V11 m ρ c (Pipeline.arrRef spec4 0) = _ from at11_v79 m ρ c, at11in_arg15] at h
  exact h

end Cert.KernelIdeal.Stages

end
-- ==== Proof.StageD.lean ====
/-
  The kernel's buffers from the third layer's aggregation to the result.

  The last host stretch aggregates the one-column product and adds the bias; the sixth launch normalises, applies the
  1-by-1 output map and the logistic function, entry by entry: the reference's last stages, read index by index in the
  bridge lemma (a 1-by-1 matrix product is a one-term sum, and the logistic function is its defining quotient).
-/
import proofs.«127372_j14680198218392_2_alg».proof.Proof.StageC
import proofs.«127372_j14680198218392_2_alg».proof.Proof.Norm5

set_option maxRecDepth 16384
set_option maxHeartbeats 1600000

noncomputable section

namespace Cert.KernelIdeal.Stages

open Idealize.ShloMosaic Idealize.ShloMosaic.StableHlo Idealize.ShloMosaic.TcCoe Idealize.SL.Sem
open Cert.KernelIdeal Cert.KernelIdeal.Gen Cert.LibReads

variable (m : (ℓ : Loc nD τ sig) → Buf (Elt Ideal) ℓ) (ρ : Dev nD → PrngReg) (c : Dev nD)

/-! ## At the sixth launch's entry -/

theorem at13_v95 : W13 m ρ c (Proc.devRef .tc main_v95) = Cert.ReferenceIdeal.Read.val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  reads
  rw [at12_v80, at12_v35, at12_v5, at12_v6, at12_arg16]
  rfl
theorem at13_v96 : W13 m ρ c (Proc.devRef .tc main_v96) = shapeCast S1x1 (m ((c : Thread nD τ).loc main_arg17)) Cert.KernelIdeal.Facts₀.shapeCasts_S1_S1x1 := by
  reads
  rw [at12_arg17]
  rfl
theorem at13_v97 : W13 m ρ c (Proc.devRef .tc main_v97) = shapeCast S1x1 (m ((c : Thread nD τ).loc main_arg18)) Cert.KernelIdeal.Facts₀.shapeCasts_S1_S1x1 := by
  reads
  rw [at12_arg18]
  rfl
theorem at13_v98 : W13 m ρ c (Proc.devRef .tc main_v98) = shapeCast S1x1 (m ((c : Thread nD τ).loc main_arg19)) Cert.KernelIdeal.Facts₀.shapeCasts_S1_S1x1 := by
  reads
  rw [at12_arg19]
  rfl
theorem at13_v99 : W13 m ρ c (Proc.devRef .tc main_v99) = shapeCast S1x1 (m ((c : Thread nD τ).loc main_arg20)) Cert.KernelIdeal.Facts₀.shapeCasts_S1_S1x1 := by
  reads
  rw [at12_arg20]
  rfl
theorem at13_v100 : W13 m ρ c (Proc.devRef .tc main_v100) = shapeCast S1x1 (m ((c : Thread nD τ).loc main_arg22)) Cert.KernelIdeal.Facts₀.shapeCasts_S1_S1x1 := by
  reads
  rw [at12_arg22]
  rfl
theorem at13_arg21 : W13 m ρ c (Proc.devRef .tc main_arg21) = (m ((c : Thread nD τ).loc main_arg21)) :=
by
  reads
  exact at12_arg21 m ρ c

/-- The result buffer after the sixth launch is the reference's result stage of the arguments. -/
theorem at14_v101 : W14 m ρ c (Proc.devRef .tc main_v101) = Cert.ReferenceIdeal.Read.val_main_v206 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  have h := (W14_arr m ρ c 7).trans (Cert.KernelIdeal.Norm5.arr_eq (V13 m ρ) c)
  rw [show V13 m ρ c (Pipeline.arrRef spec5 0) = _ from at13_v95 m ρ c,
    show V13 m ρ c (Pipeline.arrRef spec5 1) = _ from at13_v96 m ρ c,
    show V13 m ρ c (Pipeline.arrRef spec5 2) = _ from at13_v97 m ρ c,
    show V13 m ρ c (Pipeline.arrRef spec5 3) = _ from at13_v98 m ρ c,
    show V13 m ρ c (Pipeline.arrRef spec5 4) = _ from at13_v99 m ρ c,
    show V13 m ρ c (Pipeline.arrRef spec5 5) = _ from at13_arg21 m ρ c,
    show V13 m ρ c (Pipeline.arrRef spec5 6) = _ from at13_v100 m ρ c] at h
  exact h.trans ((Cert.Bridges.final (Cert.ReferenceIdeal.Read.val_main_v181 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))).trans rfl)

end Cert.KernelIdeal.Stages

end
-- ==== Proof.lean ====
/-
  A three-layer graph convolution network on 100000 nodes and 3.2 million weighted edges, evaluated two ways.

  Both programs first extend the edge list by one self-loop per node, sum the edge weights into each destination node
  to get its degree d, and give every edge (r → c) the coefficient d[r]^(−1/2) · w · d[c]^(−1/2) (zero where a degree is
  not positive). A layer multiplies the node features by a weight matrix, gathers the product's rows along the edges,
  scales them by the coefficients, scatter-adds them into the destination rows and adds a bias; the two hidden layers
  then apply evaluation-mode batch normalisation and a floor at zero, and the last layer batch normalisation, a 1-by-1
  linear map and the logistic function.

  The reference does everything with whole-array host operations. The kernel keeps the irregular gathers and
  scatter-adds on the host, with the very same operations, and runs the dense steps — the three matrix products, the
  two normalise-and-floor steps and the final step — as six grid launches over blocks of 2000 rows. At the ideal values
  (extended reals, exact operations) narrowing an operand to bfloat16 is the identity, and a product or an entry-wise map
  taken block by block is the whole-array one because each output row depends only on the same input row and on
  parameters every block sees whole. So every buffer of the kernel, at every boundary between two segments of its
  program, is the reference's stage function of the arguments; the last of these is the result. No law beyond this
  rearrangement is used, so the finiteness of the inputs is never needed.

  The three frames are the generated ones (the reference's is its generated run with the result dropped); the ideal
  pass rewrote nothing, so the kernel's idealization has nothing to preserve.
-/
import proofs.«127372_j14680198218392_2_alg».proof.Defs
import proofs.«127372_j14680198218392_2_alg».proof.Proof.Gen.Kernel
import proofs.«127372_j14680198218392_2_alg».proof.Proof.Gen.Kernel.Frame
import proofs.«127372_j14680198218392_2_alg».proof.Proof.Gen.KernelIdeal
import proofs.«127372_j14680198218392_2_alg».proof.Proof.Gen.KernelIdeal.Frame
import proofs.«127372_j14680198218392_2_alg».proof.Proof.Gen.ReferenceIdeal
import proofs.«127372_j14680198218392_2_alg».proof.Proof.Gen.ReferenceIdeal.Run
import proofs.«127372_j14680198218392_2_alg».proof.Proof.Gen.ReferenceIdeal.Read
import proofs.«127372_j14680198218392_2_alg».proof.Proof.Gen.Pre_finite_inputs
import proofs.«127372_j14680198218392_2_alg».proof.Proof.KernelRun
import proofs.«127372_j14680198218392_2_alg».proof.Proof.StageD
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same result array: the reference's result
    stage of the arguments. The kernel's run ends there by the chain of its segment boundaries; the reference's by its
    generated run, with its own arguments replaced by the kernel's. -/
theorem algebraic : Cert.algebraic_KernelIdeal_ReferenceIdeal := by
  intro m ρ m' ρ' _ hagree
  refine ⟨fun c => Cert.ReferenceIdeal.Read.val_main_v206 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.Stages.at14_v101 m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18, h19, h20, h21, h22⟩ := hagree c
    rw [Cert.ReferenceIdeal.Read.val_main_v206_eq, h0, h1, h2, h3, h4, h5, h6, h7, h8, h9, h10, h11, h12, h13, h14, h15, h16, h17, h18, h19, h20, h21, h22]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
